-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S11008x4096 : Shape := ⟨2, ![11008, 4096]⟩
abbrev S4096x11008 : Shape := ⟨2, ![4096, 11008]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S4096x11008 : S_.BroadcastsInDim S4096x11008 (![] : Fin 0 → Fin S4096x11008.rank)
  reducesTo_S4096x11008_S_d0_1 : S4096x11008.ReducesTo [0, 1] S_

variable [Facts]

def fn_part1 {F : FTy → Type} [FloatOps F] (main_v13 : IVec S_ 1) (main_v16 : IVec S4096x11008 1) : IVec S_ 1 :=
  let main_c_5 : IVec S_ 1 := constantI S_ 1 1#1
  let main_v17 : IVec S_ 1 := (fun x v => Host.reduce IntOp.andi x v reducesTo_S4096x11008_S_d0_1 h_S_) main_v16 main_c_5
  let main_v18 : IVec S_ 1 := andi main_v13 main_v17
  main_v18

def fn {F : FTy → Type} [FloatOps F] (main_arg0 : FVec F S2x2048x4096 .f32) (main_arg1 : FVec F S11008x4096 .f32) (main_arg2 : FVec F S11008x4096 .f32) (main_arg3 : FVec F S4096x11008 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008x4096 .f32 := Host.absf main_arg2
  let main_cst_2 : FVec F S_ .f32 := constant S_ .f32 0x7F800000#32
  let main_v10 : FVec F S11008x4096 .f32 := broadcastInDim S11008x4096 ![] bcast_S_S11008x4096 main_cst_2
  let main_v11 : IVec S11008x4096 1 := cmpf .olt main_v9 main_v10
  let main_c_3 : IVec S_ 1 := constantI S_ 1 1#1
  let main_v12 : IVec S_ 1 := (fun x v => Host.reduce IntOp.andi x v reducesTo_S11008x4096_S_d0_1 h_S_) main_v11 main_c_3
  let main_v13 : IVec S_ 1 := andi main_v8 main_v12
  let main_v14 : FVec F S4096x11008 .f32 := Host.absf main_arg3
  let main_cst_4 : FVec F S_ .f32 := constant S_ .f32 0x7F800000#32
  let main_v15 : FVec F S4096x11008 .f32 := broadcastInDim S4096x11008 ![] bcast_S_S4096x11008 main_cst_4
  let main_v16 : IVec S4096x11008 1 := cmpf .olt main_v14 main_v15
  fn_part1 (F := F) main_v13 main_v16
-- ==== Kernel.lean ====
abbrev S2x2048x4096 : Shape := ⟨3, ![2, 2048, 4096]⟩
abbrev S11008x4096 : Shape := ⟨2, ![11008, 4096]⟩
abbrev S4096x11008 : Shape := ⟨2, ![4096, 11008]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩
abbrev S256x4096 : Shape := ⟨2, ![256, 4096]⟩
abbrev S1024x1 : Shape := ⟨2, ![1024, 1]⟩
abbrev S1024x256 : Shape := ⟨2, ![1024, 256]⟩
abbrev S512x11008 : Shape := ⟨2, ![512, 11008]⟩
abbrev S256x11008 : Shape := ⟨2, ![256, 11008]⟩
abbrev S512x1 : Shape := ⟨2, ![512, 1]⟩
abbrev S512x256 : Shape := ⟨2, ![512, 256]⟩

abbrev nBuf : Space → Nat
  | .hbm => 132
  | .vmem => 20
  | .smem => 0
  | _ => 0

abbrev hbmTy0_0 (i : Nat) : BufTy := match i % 128 with
  | 0 => ⟨S2x2048x4096, .f32⟩
  | 1 => ⟨S11008x4096, .f32⟩
  | 2 => ⟨S11008x4096, .f32⟩
  | 3 => ⟨S4096x11008, .f32⟩
  | 4 => ⟨S4096x4096, .f32⟩
  | 5 => ⟨S4096x4096, .f32⟩
  | 6 => ⟨S_, .f32⟩
  | 7 => ⟨S4096, .f32⟩
  | 8 => ⟨S4096x1, .f32⟩
  | 9 => ⟨S_, .f32⟩
  | 10 => ⟨S_, .f32⟩
  | 11 => ⟨S4096x1, .f32⟩
  | 12 => ⟨S4096x1, .f32⟩
  | 13 => ⟨S_, .f32⟩
  | 14 => ⟨S4096x1, .f32⟩
  | 15 => ⟨S4096x1, .f32⟩
  | 16 => ⟨S4096x4096, .f32⟩
  | 17 => ⟨S4096x4096, .f32⟩
  | 18 => ⟨S4096x4096, .f32⟩
  | 19 => ⟨S_, .i32⟩
  | 20 => ⟨S_, .i32⟩
  | 21 => ⟨S_, .f32⟩
  | 22 => ⟨S4096x4096, .f32⟩
  | 23 => ⟨S4096x4096, .f32⟩
  | 24 => ⟨S_, .f32⟩
  | 25 => ⟨S4096x4096, .f32⟩
  | 26 => ⟨S4096x4096, .f32⟩
  | 27 => ⟨S_, .f32⟩
  | 28 => ⟨S4096x1, .f32⟩
  | 29 => ⟨S4096x1, .f32⟩
  | 30 => ⟨S4096x4096, .bf16⟩
  | 31 => ⟨S11008x4096, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S11008x4096, .f32⟩
  | 42 => ⟨S11008x4096, .f32⟩
  | 43 => ⟨S11008x4096, .f32⟩
  | 44 => ⟨S_, .i32⟩
  | 45 => ⟨S_, .i32⟩
  | 46 => ⟨S_, .f32⟩
  | 47 => ⟨S11008x4096, .f32⟩
  | 48 => ⟨S11008x4096, .f32⟩
  | 49 => ⟨S_, .f32⟩
  | 50 => ⟨S11008x4096, .f32⟩
  | 51 => ⟨S11008x4096, .f32⟩
  | 52 => ⟨S11008x4096, .bf16⟩
  | 53 => ⟨S11008x4096, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S11008x4096, .f32⟩
  | 64 => ⟨S11008x4096, .f32⟩
  | 65 => ⟨S11008x4096, .f32⟩
  | 66 => ⟨S_, .i32⟩
  | 67 => ⟨S_, .i32⟩
  | 68 => ⟨S_, .f32⟩
  | 69 => ⟨S11008x4096, .f32⟩
  | 70 => ⟨S11008x4096, .f32⟩
  | 71 => ⟨S_, .f32⟩
  | 72 => ⟨S11008x4096, .f32⟩
  | 73 => ⟨S11008x4096, .f32⟩
  | 74 => ⟨S11008x4096, .bf16⟩
  | 75 => ⟨S4096x11008, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S4096x11008, .f32⟩
  | 86 => ⟨S4096x11008, .f32⟩
  | 87 => ⟨S4096x11008, .f32⟩
  | 88 => ⟨S_, .i32⟩
  | 89 => ⟨S_, .i32⟩
  | 90 => ⟨S_, .f32⟩
  | 91 => ⟨S4096x11008, .f32⟩
  | 92 => ⟨S4096x11008, .f32⟩
  | 93 => ⟨S_, .f32⟩
  | 94 => ⟨S4096x11008, .f32⟩
  | 95 => ⟨S4096x11008, .f32⟩
  | 96 => ⟨S4096x11008, .bf16⟩
  | 97 => ⟨S4096x1, .f32⟩
  | 98 => ⟨S4096x1, .f32⟩
  | 99 => ⟨S4096x1, .f32⟩
  | 100 => ⟨S4096x1, .f32⟩
  | 101 => ⟨S4096x11008, .f32⟩
  | 102 => ⟨S4096x11008, .f32⟩
  | 103 => ⟨S_, .f32⟩
  | 104 => ⟨S4096, .f32⟩
  | 105 => ⟨S4096x1, .f32⟩
  | 106 => ⟨S_, .f32⟩
  | 107 => ⟨S_, .f32⟩
  | 108 => ⟨S4096x1, .f32⟩
  | 109 => ⟨S4096x1, .f32⟩
  | 110 => ⟨S_, .f32⟩
  | 111 => ⟨S4096x1, .f32⟩
  | 112 => ⟨S4096x1, .f32⟩
  | 113 => ⟨S4096x11008, .f32⟩
  | 114 => ⟨S4096x11008, .f32⟩
  | 115 => ⟨S4096x11008, .f32⟩
  | 116 => ⟨S_, .i32⟩
  | 117 => ⟨S_, .i32⟩
  | 118 => ⟨S_, .f32⟩
  | 119 => ⟨S4096x11008, .f32⟩
  | 120 => ⟨S4096x11008, .f32⟩
  | 121 => ⟨S_, .f32⟩
  | 122 => ⟨S4096x11008, .f32⟩
  | 123 => ⟨S4096x11008, .f32⟩
  | 124 => ⟨S_, .f32⟩
  | 125 => ⟨S4096x1, .f32⟩
  | 126 => ⟨S4096x1, .f32⟩
  | 127 => ⟨S4096x11008, .bf16⟩
  | _ => ⟨S2x2048x4096, .f32⟩

abbrev hbmTy0_1 (i : Nat) : BufTy := match i % 128 with
  | 0 => ⟨S4096x1, .f32⟩
  | 1 => ⟨S4096x1, .f32⟩
  | 2 => ⟨S4096x4096, .f32⟩
  | 3 => ⟨S2x2048x4096, .f32⟩
  | _ => ⟨S2x2048x4096, .f32⟩

abbrev hbmTy (i : Nat) : BufTy := match i / 128 with
  | 0 => hbmTy0_0 i
  | 1 => hbmTy0_1 i
  | _ => ⟨S2x2048x4096, .f32⟩

abbrev bufTy : (tb : Table) → Fin (tcTables nBuf tb) → BufTy
  | .hbm, ⟨i, _⟩ => hbmTy i
  | .local _ .vmem, ⟨0, _⟩ => ⟨S1024x4096, .bf16⟩
  | .local _ .vmem, ⟨1, _⟩ => ⟨S1024x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x256, .f32⟩
  | .local _ .vmem, ⟨11, _⟩ => ⟨S1024x256, .f32⟩
  | .local _ .vmem, ⟨12, _⟩ => ⟨S512x11008, .bf16⟩
  | .local _ .vmem, ⟨13, _⟩ => ⟨S512x11008, .bf16⟩
  | .local _ .vmem, ⟨14, _⟩ => ⟨S256x11008, .bf16⟩
  | .local _ .vmem, ⟨15, _⟩ => ⟨S256x11008, .bf16⟩
  | .local _ .vmem, ⟨16, _⟩ => ⟨S512x1, .f32⟩
  | .local _ .vmem, ⟨17, _⟩ => ⟨S512x1, .f32⟩
  | .local _ .vmem, ⟨18, _⟩ => ⟨S512x256, .f32⟩
  | .local _ .vmem, ⟨19, _⟩ => ⟨S512x256, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_v4 : Ref sig .tc := ⟨.hbm, 12, rfl⟩
abbrev main_call0_cst_1 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_c : Ref sig .tc := ⟨.hbm, 19, rfl⟩
abbrev main_call0_c_2 : Ref sig .tc := ⟨.hbm, 20, rfl⟩
abbrev main_call0_call2_v0 : Ref sig .tc := ⟨.hbm, 21, rfl⟩
abbrev main_call0_call2_v1 : Ref sig .tc := ⟨.hbm, 22, rfl⟩
abbrev main_call0_call2_v2 : Ref sig .tc := ⟨.hbm, 23, rfl⟩
abbrev main_call0_call2_v3 : Ref sig .tc := ⟨.hbm, 24, rfl⟩
abbrev main_call0_call2_v4 : Ref sig .tc := ⟨.hbm, 25, rfl⟩
abbrev main_call0_v10 : Ref sig .tc := ⟨.hbm, 26, rfl⟩
abbrev main_call0_cst_3 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst_4 : Ref sig .tc := ⟨.hbm, 32, rfl⟩
abbrev main_call0_v15 : Ref sig .tc := ⟨.hbm, 33, rfl⟩
abbrev main_call0_cst_5 : Ref sig .tc := ⟨.hbm, 34, rfl⟩
abbrev main_call0_v16 : Ref sig .tc := ⟨.hbm, 35, rfl⟩
abbrev main_call0_cst_6 : Ref sig .tc := ⟨.hbm, 36, rfl⟩
abbrev main_call0_call3_v0 : Ref sig .tc := ⟨.hbm, 37, rfl⟩
abbrev main_call0_v17 : Ref sig .tc := ⟨.hbm, 38, rfl⟩
abbrev main_call0_cst_7 : Ref sig .tc := ⟨.hbm, 39, rfl⟩
abbrev main_call0_v18 : Ref sig .tc := ⟨.hbm, 40, rfl⟩
abbrev main_call0_v19 : Ref sig .tc := ⟨.hbm, 41, rfl⟩
abbrev main_call0_v20 : Ref sig .tc := ⟨.hbm, 42, rfl⟩
abbrev main_call0_v21 : Ref sig .tc := ⟨.hbm, 43, rfl⟩
abbrev main_call0_c_8 : Ref sig .tc := ⟨.hbm, 44, rfl⟩
abbrev main_call0_c_9 : Ref sig .tc := ⟨.hbm, 45, rfl⟩
abbrev main_call0_call5_v0 : Ref sig .tc := ⟨.hbm, 46, rfl⟩
abbrev main_call0_call5_v1 : Ref sig .tc := ⟨.hbm, 47, rfl⟩
abbrev main_call0_call5_v2 : Ref sig .tc := ⟨.hbm, 48, rfl⟩
abbrev main_call0_call5_v3 : Ref sig .tc := ⟨.hbm, 49, rfl⟩
abbrev main_call0_call5_v4 : Ref sig .tc := ⟨.hbm, 50, rfl⟩
abbrev main_call0_v22 : Ref sig .tc := ⟨.hbm, 51, rfl⟩
abbrev main_call0_v23 : Ref sig .tc := ⟨.hbm, 52, rfl⟩
abbrev main_call0_v24 : Ref sig .tc := ⟨.hbm, 53, rfl⟩
abbrev main_call0_cst_10 : Ref sig .tc := ⟨.hbm, 54, rfl⟩
abbrev main_call0_v25 : Ref sig .tc := ⟨.hbm, 55, rfl⟩
abbrev main_call0_cst_11 : Ref sig .tc := ⟨.hbm, 56, rfl⟩
abbrev main_call0_v26 : Ref sig .tc := ⟨.hbm, 57, rfl⟩
abbrev main_call0_cst_12 : Ref sig .tc := ⟨.hbm, 58, rfl⟩
abbrev main_call0_call6_v0 : Ref sig .tc := ⟨.hbm, 59, rfl⟩
abbrev main_call0_v27 : Ref sig .tc := ⟨.hbm, 60, rfl⟩
abbrev main_call0_cst_13 : Ref sig .tc := ⟨.hbm, 61, rfl⟩
abbrev main_call0_v28 : Ref sig .tc := ⟨.hbm, 62, rfl⟩
abbrev main_call0_v29 : Ref sig .tc := ⟨.hbm, 63, rfl⟩
abbrev main_call0_v30 : Ref sig .tc := ⟨.hbm, 64, rfl⟩
abbrev main_call0_v31 : Ref sig .tc := ⟨.hbm, 65, rfl⟩
abbrev main_call0_c_14 : Ref sig .tc := ⟨.hbm, 66, rfl⟩
abbrev main_call0_c_15 : Ref sig .tc := ⟨.hbm, 67, rfl⟩
abbrev main_call0_call8_v0 : Ref sig .tc := ⟨.hbm, 68, rfl⟩
abbrev main_call0_call8_v1 : Ref sig .tc := ⟨.hbm, 69, rfl⟩
abbrev main_call0_call8_v2 : Ref sig .tc := ⟨.hbm, 70, rfl⟩
abbrev main_call0_call8_v3 : Ref sig .tc := ⟨.hbm, 71, rfl⟩
abbrev main_call0_call8_v4 : Ref sig .tc := ⟨.hbm, 72, rfl⟩
abbrev main_call0_v32 : Ref sig .tc := ⟨.hbm, 73, rfl⟩
abbrev main_call0_v33 : Ref sig .tc := ⟨.hbm, 74, rfl⟩
abbrev main_call0_v34 : Ref sig .tc := ⟨.hbm, 75, rfl⟩
abbrev main_call0_cst_16 : Ref sig .tc := ⟨.hbm, 76, rfl⟩
abbrev main_call0_v35 : Ref sig .tc := ⟨.hbm, 77, rfl⟩
abbrev main_call0_cst_17 : Ref sig .tc := ⟨.hbm, 78, rfl⟩
abbrev main_call0_v36 : Ref sig .tc := ⟨.hbm, 79, rfl⟩
abbrev main_call0_cst_18 : Ref sig .tc := ⟨.hbm, 80, rfl⟩
abbrev main_call0_call9_v0 : Ref sig .tc := ⟨.hbm, 81, rfl⟩
abbrev main_call0_v37 : Ref sig .tc := ⟨.hbm, 82, rfl⟩
abbrev main_call0_cst_19 : Ref sig .tc := ⟨.hbm, 83, rfl⟩
abbrev main_call0_v38 : Ref sig .tc := ⟨.hbm, 84, rfl⟩
abbrev main_call0_v39 : Ref sig .tc := ⟨.hbm, 85, rfl⟩
abbrev main_call0_v40 : Ref sig .tc := ⟨.hbm, 86, rfl⟩
abbrev main_call0_v41 : Ref sig .tc := ⟨.hbm, 87, rfl⟩
abbrev main_call0_c_20 : Ref sig .tc := ⟨.hbm, 88, rfl⟩
abbrev main_call0_c_21 : Ref sig .tc := ⟨.hbm, 89, rfl⟩
abbrev main_call0_call11_v0 : Ref sig .tc := ⟨.hbm, 90, rfl⟩
abbrev main_call0_call11_v1 : Ref sig .tc := ⟨.hbm, 91, rfl⟩
abbrev main_call0_call11_v2 : Ref sig .tc := ⟨.hbm, 92, rfl⟩
abbrev main_call0_call11_v3 : Ref sig .tc := ⟨.hbm, 93, rfl⟩
abbrev main_call0_call11_v4 : Ref sig .tc := ⟨.hbm, 94, rfl⟩
abbrev main_call0_v42 : Ref sig .tc := ⟨.hbm, 95, rfl⟩
abbrev main_call0_v43 : Ref sig .tc := ⟨.hbm, 96, rfl⟩
abbrev main_call0_v44 : Ref sig .tc := ⟨.hbm, 97, rfl⟩
abbrev main_call0_v45 : Ref sig .tc := ⟨.hbm, 98, rfl⟩
abbrev main_call0_v46 : Ref sig .tc := ⟨.hbm, 99, rfl⟩
abbrev main_call0_v47 : Ref sig .tc := ⟨.hbm, 100, rfl⟩
abbrev main_call0_v48 : Ref sig .tc := ⟨.hbm, 101, rfl⟩
abbrev main_call0_v49 : Ref sig .tc := ⟨.hbm, 102, rfl⟩
abbrev main_call0_cst_22 : Ref sig .tc := ⟨.hbm, 103, rfl⟩
abbrev main_call0_v50 : Ref sig .tc := ⟨.hbm, 104, rfl⟩
abbrev main_call0_v51 : Ref sig .tc := ⟨.hbm, 105, rfl⟩
abbrev main_call0_cst_23 : Ref sig .tc := ⟨.hbm, 106, rfl⟩
abbrev main_call0_call12_v0 : Ref sig .tc := ⟨.hbm, 107, rfl⟩
abbrev main_call0_call12_v1 : Ref sig .tc := ⟨.hbm, 108, rfl⟩
abbrev main_call0_v52 : Ref sig .tc := ⟨.hbm, 109, rfl⟩
abbrev main_call0_cst_24 : Ref sig .tc := ⟨.hbm, 110, rfl⟩
abbrev main_call0_v53 : Ref sig .tc := ⟨.hbm, 111, rfl⟩
abbrev main_call0_v54 : Ref sig .tc := ⟨.hbm, 112, rfl⟩
abbrev main_call0_v55 : Ref sig .tc := ⟨.hbm, 113, rfl⟩
abbrev main_call0_v56 : Ref sig .tc := ⟨.hbm, 114, rfl⟩
abbrev main_call0_v57 : Ref sig .tc := ⟨.hbm, 115, rfl⟩
abbrev main_call0_c_25 : Ref sig .tc := ⟨.hbm, 116, rfl⟩
abbrev main_call0_c_26 : Ref sig .tc := ⟨.hbm, 117, rfl⟩
abbrev main_call0_call14_v0 : Ref sig .tc := ⟨.hbm, 118, rfl⟩
abbrev main_call0_call14_v1 : Ref sig .tc := ⟨.hbm, 119, rfl⟩
abbrev main_call0_call14_v2 : Ref sig .tc := ⟨.hbm, 120, rfl⟩
abbrev main_call0_call14_v3 : Ref sig .tc := ⟨.hbm, 121, rfl⟩
abbrev main_call0_call14_v4 : Ref sig .tc := ⟨.hbm, 122, rfl⟩
abbrev main_call0_v58 : Ref sig .tc := ⟨.hbm, 123, rfl⟩
abbrev main_call0_cst_27 : Ref sig .tc := ⟨.hbm, 124, rfl⟩
abbrev main_call0_v59 : Ref sig .tc := ⟨.hbm, 125, rfl⟩
abbrev main_call0_v60 : Ref sig .tc := ⟨.hbm, 126, rfl⟩
abbrev main_call0_v61 : Ref sig .tc := ⟨.hbm, 127, rfl⟩
abbrev main_call0_v62 : Ref sig .tc := ⟨.hbm, 128, rfl⟩
abbrev main_call0_v63 : Ref sig .tc := ⟨.hbm, 129, rfl⟩
abbrev main_call0_v64 : Ref sig .tc := ⟨.hbm, 130, rfl⟩
abbrev main_v0 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨2, ![4, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![8, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x11008 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x11008 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S2x2048x4096_S4096x4096 : S2x2048x4096.ShapeCasts S4096x4096
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  bitsLt_bf16_f32 : FTy.bits .bf16 < FTy.bits .f32
  reducesTo_S11008x4096_S_d0_1 : S11008x4096.ReducesTo [0, 1] S_
  bcast_S_S11008x4096 : S_.BroadcastsInDim S11008x4096 (![] : Fin 0 → Fin S11008x4096.rank)
  reducesTo_S4096x11008_S_d0_1 : S4096x11008.ReducesTo [0, 1] S_
  bcast_S_S4096x11008 : S_.BroadcastsInDim S4096x11008 (![] : Fin 0 → Fin S4096x11008.rank)
  reducesTo_S4096x11008_S4096_d1 : S4096x11008.ReducesTo [1] S4096
  bcast_S4096x1_S4096x11008_0_1 : S4096x1.BroadcastsInDim S4096x11008 (![0, 1] : Fin 2 → Fin S4096x11008.rank)
  shapeCasts_S4096x4096_S2x2048x4096 : S4096x4096.ShapeCasts S2x2048x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x256 : S1024x1.Broadcasts S1024x256
  inb_S1024x256_S1024x256_0_0 : ∀ a, (![0, 0] : Fin 2 → Nat) a + S1024x256.size a ≤ S1024x256.size a
  h_S1024x256 : 0 < S1024x256.numel
  inb_S512x11008_S512x11008_0_0 : ∀ a, (![0, 0] : Fin 2 → Nat) a + S512x11008.size a ≤ S512x11008.size a
  h_S512x11008 : 0 < S512x11008.numel
  shapeCasts_S512x11008_S512x11008 : S512x11008.ShapeCasts S512x11008
  inb_S256x11008_S256x11008_0_0 : ∀ a, (![0, 0] : Fin 2 → Nat) a + S256x11008.size a ≤ S256x11008.size a
  h_S256x11008 : 0 < S256x11008.numel
  shapeCasts_S256x11008_S256x11008 : S256x11008.ShapeCasts S256x11008
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x256 : S512x1.Broadcasts S512x256
  inb_S512x256_S512x256_0_0 : ∀ a, (![0, 0] : Fin 2 → Nat) a + S512x256.size a ≤ S512x256.size a
  h_S512x256 : 0 < S512x256.numel
  dot_S1024x4096_S256x4096_S1024x256_1_1_0_0_n_n_wf : DotDims.WF S1024x4096 S256x4096 S1024x256 [1] [1] [0] [0] [] []
  dot_S512x11008_S256x11008_S512x256_1_1_0_0_n_n_wf : DotDims.WF S512x11008 S256x11008 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .bf16 = 32 ∨ (Rect.block (s := S4096x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S11008x4096.size a
  hwx0_2 : ∀ i : grid0.Coords, EltTy.bits .bf16 = 32 ∨ (Rect.block (s := S11008x4096) S256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S4096x1.size a
  hwx0_3 : ∀ i : grid0.Coords, EltTy.bits .f32 = 32 ∨ (Rect.block (s := S4096x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S4096x11008.size a
  hwx0_5 : ∀ i : grid0.Coords, EltTy.bits .f32 = 32 ∨ (Rect.block (s := S4096x11008) S1024x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x11008.size a ≤ S4096x11008.size a
  hwx1_0 : ∀ i : grid1.Coords, EltTy.bits .bf16 = 32 ∨ (Rect.block (s := S4096x11008) S512x11008.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x11008.size a ≤ S4096x11008.size a
  hwx1_1 : ∀ i : grid1.Coords, EltTy.bits .bf16 = 32 ∨ (Rect.block (s := S4096x11008) S256x11008.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S4096x1.size a
  hwx1_2 : ∀ i : grid1.Coords, EltTy.bits .f32 = 32 ∨ (Rect.block (s := S4096x1) S512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S4096x4096.size a
  hwx1_3 : ∀ i : grid1.Coords, EltTy.bits .f32 = 32 ∨ (Rect.block (s := S4096x4096) S512x256.size (cc1_transform_3 i) (hinb1_3 i)).WholeWords (EltTy.packing .f32)

variable [Facts₀]

def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf
def dot_S512x11008_S256x11008_S512x256_1_1_0_0_n_n : DotDims S512x11008 S256x11008 S512x256 where
  lhsContracting := [1]
  rhsContracting := [1]
  lhsNonContracting := [0]
  rhsNonContracting := [0]
  lhsBatch := []
  rhsBatch := []
  wf := dot_S512x11008_S256x11008_S512x256_1_1_0_0_n_n_wf

abbrev win0_0 : Pipeline.Window sig grid0 :=
  Pipeline.Window.ofSpec (Memref.whole main_call0_v13) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v23) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v33) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v45) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v47) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v48) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_call0_v61) S512x11008.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v43) S256x11008.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v63) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v64) S512x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2x2048x4096 : Shape := ⟨3, ![2, 2048, 4096]⟩
abbrev S11008x4096 : Shape := ⟨2, ![11008, 4096]⟩
abbrev S4096x11008 : Shape := ⟨2, ![4096, 11008]⟩
abbrev S_ : Shape := ⟨0, ![]⟩
abbrev S2x2048 : Shape := ⟨2, ![2, 2048]⟩
abbrev S2x2048x1 : Shape := ⟨3, ![2, 2048, 1]⟩
abbrev S2x2048x11008 : Shape := ⟨3, ![2, 2048, 11008]⟩

abbrev nBuf : Space → Nat
  | .hbm => 165
  | .vmem => 0
  | .smem => 0
  | _ => 0

abbrev hbmTy0_0 (i : Nat) : BufTy := match i % 128 with
  | 0 => ⟨S2x2048x4096, .f32⟩
  | 1 => ⟨S11008x4096, .f32⟩
  | 2 => ⟨S11008x4096, .f32⟩
  | 3 => ⟨S4096x11008, .f32⟩
  | 4 => ⟨S2x2048x4096, .f32⟩
  | 5 => ⟨S_, .f32⟩
  | 6 => ⟨S2x2048, .f32⟩
  | 7 => ⟨S2x2048x1, .f32⟩
  | 8 => ⟨S_, .f32⟩
  | 9 => ⟨S_, .f32⟩
  | 10 => ⟨S2x2048x1, .f32⟩
  | 11 => ⟨S2x2048x1, .f32⟩
  | 12 => ⟨S_, .f32⟩
  | 13 => ⟨S2x2048x1, .f32⟩
  | 14 => ⟨S2x2048x1, .f32⟩
  | 15 => ⟨S2x2048x4096, .f32⟩
  | 16 => ⟨S2x2048x4096, .f32⟩
  | 17 => ⟨S2x2048x4096, .f32⟩
  | 18 => ⟨S_, .i32⟩
  | 19 => ⟨S_, .i32⟩
  | 20 => ⟨S_, .f32⟩
  | 21 => ⟨S2x2048x4096, .f32⟩
  | 22 => ⟨S2x2048x4096, .f32⟩
  | 23 => ⟨S_, .f32⟩
  | 24 => ⟨S2x2048x4096, .f32⟩
  | 25 => ⟨S2x2048x4096, .f32⟩
  | 26 => ⟨S2x2048x4096, .f32⟩
  | 27 => ⟨S2x2048x4096, .f32⟩
  | 28 => ⟨S2x2048x4096, .f32⟩
  | 29 => ⟨S2x2048x4096, .f32⟩
  | 30 => ⟨S11008x4096, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S11008x4096, .f32⟩
  | 41 => ⟨S11008x4096, .f32⟩
  | 42 => ⟨S11008x4096, .f32⟩
  | 43 => ⟨S_, .i32⟩
  | 44 => ⟨S_, .i32⟩
  | 45 => ⟨S_, .f32⟩
  | 46 => ⟨S11008x4096, .f32⟩
  | 47 => ⟨S11008x4096, .f32⟩
  | 48 => ⟨S_, .f32⟩
  | 49 => ⟨S11008x4096, .f32⟩
  | 50 => ⟨S11008x4096, .f32⟩
  | 51 => ⟨S11008x4096, .f32⟩
  | 52 => ⟨S11008x4096, .f32⟩
  | 53 => ⟨S11008x4096, .f32⟩
  | 54 => ⟨S11008x4096, .f32⟩
  | 55 => ⟨S2x2048x11008, .f32⟩
  | 56 => ⟨S_, .f32⟩
  | 57 => ⟨S2x2048x11008, .f32⟩
  | 58 => ⟨S2x2048x11008, .f32⟩
  | 59 => ⟨S2x2048x11008, .f32⟩
  | 60 => ⟨S2x2048x4096, .f32⟩
  | 61 => ⟨S_, .f32⟩
  | 62 => ⟨S2x2048, .f32⟩
  | 63 => ⟨S2x2048x1, .f32⟩
  | 64 => ⟨S_, .f32⟩
  | 65 => ⟨S_, .f32⟩
  | 66 => ⟨S2x2048x1, .f32⟩
  | 67 => ⟨S2x2048x1, .f32⟩
  | 68 => ⟨S_, .f32⟩
  | 69 => ⟨S2x2048x1, .f32⟩
  | 70 => ⟨S2x2048x1, .f32⟩
  | 71 => ⟨S2x2048x4096, .f32⟩
  | 72 => ⟨S2x2048x4096, .f32⟩
  | 73 => ⟨S2x2048x4096, .f32⟩
  | 74 => ⟨S_, .i32⟩
  | 75 => ⟨S_, .i32⟩
  | 76 => ⟨S_, .f32⟩
  | 77 => ⟨S2x2048x4096, .f32⟩
  | 78 => ⟨S2x2048x4096, .f32⟩
  | 79 => ⟨S_, .f32⟩
  | 80 => ⟨S2x2048x4096, .f32⟩
  | 81 => ⟨S2x2048x4096, .f32⟩
  | 82 => ⟨S2x2048x4096, .f32⟩
  | 83 => ⟨S2x2048x4096, .f32⟩
  | 84 => ⟨S2x2048x4096, .f32⟩
  | 85 => ⟨S2x2048x4096, .f32⟩
  | 86 => ⟨S11008x4096, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S11008x4096, .f32⟩
  | 97 => ⟨S11008x4096, .f32⟩
  | 98 => ⟨S11008x4096, .f32⟩
  | 99 => ⟨S_, .i32⟩
  | 100 => ⟨S_, .i32⟩
  | 101 => ⟨S_, .f32⟩
  | 102 => ⟨S11008x4096, .f32⟩
  | 103 => ⟨S11008x4096, .f32⟩
  | 104 => ⟨S_, .f32⟩
  | 105 => ⟨S11008x4096, .f32⟩
  | 106 => ⟨S11008x4096, .f32⟩
  | 107 => ⟨S11008x4096, .f32⟩
  | 108 => ⟨S11008x4096, .f32⟩
  | 109 => ⟨S11008x4096, .f32⟩
  | 110 => ⟨S11008x4096, .f32⟩
  | 111 => ⟨S2x2048x11008, .f32⟩
  | 112 => ⟨S2x2048x11008, .f32⟩
  | 113 => ⟨S2x2048x11008, .f32⟩
  | 114 => ⟨S_, .f32⟩
  | 115 => ⟨S2x2048, .f32⟩
  | 116 => ⟨S2x2048x1, .f32⟩
  | 117 => ⟨S_, .f32⟩
  | 118 => ⟨S_, .f32⟩
  | 119 => ⟨S2x2048x1, .f32⟩
  | 120 => ⟨S2x2048x1, .f32⟩
  | 121 => ⟨S_, .f32⟩
  | 122 => ⟨S2x2048x1, .f32⟩
  | 123 => ⟨S2x2048x1, .f32⟩
  | 124 => ⟨S2x2048x11008, .f32⟩
  | 125 => ⟨S2x2048x11008, .f32⟩
  | 126 => ⟨S2x2048x11008, .f32⟩
  | 127 => ⟨S_, .i32⟩
  | _ => ⟨S2x2048x4096, .f32⟩

abbrev hbmTy0_1 (i : Nat) : BufTy := match i % 128 with
  | 0 => ⟨S_, .i32⟩
  | 1 => ⟨S_, .f32⟩
  | 2 => ⟨S2x2048x11008, .f32⟩
  | 3 => ⟨S2x2048x11008, .f32⟩
  | 4 => ⟨S_, .f32⟩
  | 5 => ⟨S2x2048x11008, .f32⟩
  | 6 => ⟨S2x2048x11008, .f32⟩
  | 7 => ⟨S2x2048x11008, .f32⟩
  | 8 => ⟨S2x2048x11008, .f32⟩
  | 9 => ⟨S2x2048x11008, .f32⟩
  | 10 => ⟨S2x2048x11008, .f32⟩
  | 11 => ⟨S4096x11008, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S4096x11008, .f32⟩
  | 22 => ⟨S4096x11008, .f32⟩
  | 23 => ⟨S4096x11008, .f32⟩
  | 24 => ⟨S_, .i32⟩
  | 25 => ⟨S_, .i32⟩
  | 26 => ⟨S_, .f32⟩
  | 27 => ⟨S4096x11008, .f32⟩
  | 28 => ⟨S4096x11008, .f32⟩
  | 29 => ⟨S_, .f32⟩
  | 30 => ⟨S4096x11008, .f32⟩
  | 31 => ⟨S4096x11008, .f32⟩
  | 32 => ⟨S4096x11008, .f32⟩
  | 33 => ⟨S4096x11008, .f32⟩
  | 34 => ⟨S4096x11008, .f32⟩
  | 35 => ⟨S4096x11008, .f32⟩
  | 36 => ⟨S2x2048x4096, .f32⟩
  | _ => ⟨S2x2048x4096, .f32⟩

abbrev hbmTy (i : Nat) : BufTy := match i / 128 with
  | 0 => hbmTy0_0 i
  | 1 => hbmTy0_1 i
  | _ => ⟨S2x2048x4096, .f32⟩

abbrev bufTy : (tb : Table) → Fin (tcTables nBuf tb) → BufTy
  | .hbm, ⟨i, _⟩ => hbmTy i
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_c_2 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_cst_4 : Ref sig .tc := ⟨.hbm, 33, rfl⟩
abbrev main_v16 : Ref sig .tc := ⟨.hbm, 34, rfl⟩
abbrev main_cst_5 : Ref sig .tc := ⟨.hbm, 35, rfl⟩
abbrev main_call3_v0 : Ref sig .tc := ⟨.hbm, 36, rfl⟩
abbrev main_v17 : Ref sig .tc := ⟨.hbm, 37, rfl⟩
abbrev main_cst_6 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_7 : Ref sig .tc := ⟨.hbm, 43, rfl⟩
abbrev main_c_8 : Ref sig .tc := ⟨.hbm, 44, rfl⟩
abbrev main_call5_v0 : Ref sig .tc := ⟨.hbm, 45, rfl⟩
abbrev main_call5_v1 : Ref sig .tc := ⟨.hbm, 46, rfl⟩
abbrev main_call5_v2 : Ref sig .tc := ⟨.hbm, 47, rfl⟩
abbrev main_call5_v3 : Ref sig .tc := ⟨.hbm, 48, rfl⟩
abbrev main_call5_v4 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_call6_cst : Ref sig .tc := ⟨.hbm, 56, rfl⟩
abbrev main_call6_v0 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_9 : Ref sig .tc := ⟨.hbm, 61, rfl⟩
abbrev main_v31 : Ref sig .tc := ⟨.hbm, 62, rfl⟩
abbrev main_v32 : Ref sig .tc := ⟨.hbm, 63, rfl⟩
abbrev main_cst_10 : Ref sig .tc := ⟨.hbm, 64, rfl⟩
abbrev main_call7_v0 : Ref sig .tc := ⟨.hbm, 65, rfl⟩
abbrev main_call7_v1 : Ref sig .tc := ⟨.hbm, 66, rfl⟩
abbrev main_v33 : Ref sig .tc := ⟨.hbm, 67, rfl⟩
abbrev main_cst_11 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_c_12 : Ref sig .tc := ⟨.hbm, 74, rfl⟩
abbrev main_c_13 : Ref sig .tc := ⟨.hbm, 75, rfl⟩
abbrev main_call9_v0 : Ref sig .tc := ⟨.hbm, 76, rfl⟩
abbrev main_call9_v1 : Ref sig .tc := ⟨.hbm, 77, rfl⟩
abbrev main_call9_v2 : Ref sig .tc := ⟨.hbm, 78, rfl⟩
abbrev main_call9_v3 : Ref sig .tc := ⟨.hbm, 79, rfl⟩
abbrev main_call9_v4 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_cst_14 : Ref sig .tc := ⟨.hbm, 87, rfl⟩
abbrev main_v45 : Ref sig .tc := ⟨.hbm, 88, rfl⟩
abbrev main_cst_15 : Ref sig .tc := ⟨.hbm, 89, rfl⟩
abbrev main_v46 : Ref sig .tc := ⟨.hbm, 90, rfl⟩
abbrev main_cst_16 : Ref sig .tc := ⟨.hbm, 91, rfl⟩
abbrev main_call10_v0 : Ref sig .tc := ⟨.hbm, 92, rfl⟩
abbrev main_v47 : Ref sig .tc := ⟨.hbm, 93, rfl⟩
abbrev main_cst_17 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_c_18 : Ref sig .tc := ⟨.hbm, 99, rfl⟩
abbrev main_c_19 : Ref sig .tc := ⟨.hbm, 100, rfl⟩
abbrev main_call12_v0 : Ref sig .tc := ⟨.hbm, 101, rfl⟩
abbrev main_call12_v1 : Ref sig .tc := ⟨.hbm, 102, rfl⟩
abbrev main_call12_v2 : Ref sig .tc := ⟨.hbm, 103, rfl⟩
abbrev main_call12_v3 : Ref sig .tc := ⟨.hbm, 104, rfl⟩
abbrev main_call12_v4 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_cst_20 : Ref sig .tc := ⟨.hbm, 114, rfl⟩
abbrev main_v60 : Ref sig .tc := ⟨.hbm, 115, rfl⟩
abbrev main_v61 : Ref sig .tc := ⟨.hbm, 116, rfl⟩
abbrev main_cst_21 : Ref sig .tc := ⟨.hbm, 117, rfl⟩
abbrev main_call13_v0 : Ref sig .tc := ⟨.hbm, 118, rfl⟩
abbrev main_call13_v1 : Ref sig .tc := ⟨.hbm, 119, rfl⟩
abbrev main_v62 : Ref sig .tc := ⟨.hbm, 120, rfl⟩
abbrev main_cst_22 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_c_23 : Ref sig .tc := ⟨.hbm, 127, rfl⟩
abbrev main_c_24 : Ref sig .tc := ⟨.hbm, 128, rfl⟩
abbrev main_call15_v0 : Ref sig .tc := ⟨.hbm, 129, rfl⟩
abbrev main_call15_v1 : Ref sig .tc := ⟨.hbm, 130, rfl⟩
abbrev main_call15_v2 : Ref sig .tc := ⟨.hbm, 131, rfl⟩
abbrev main_call15_v3 : Ref sig .tc := ⟨.hbm, 132, rfl⟩
abbrev main_call15_v4 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_cst_25 : Ref sig .tc := ⟨.hbm, 140, rfl⟩
abbrev main_v74 : Ref sig .tc := ⟨.hbm, 141, rfl⟩
abbrev main_cst_26 : Ref sig .tc := ⟨.hbm, 142, rfl⟩
abbrev main_v75 : Ref sig .tc := ⟨.hbm, 143, rfl⟩
abbrev main_cst_27 : Ref sig .tc := ⟨.hbm, 144, rfl⟩
abbrev main_call16_v0 : Ref sig .tc := ⟨.hbm, 145, rfl⟩
abbrev main_v76 : Ref sig .tc := ⟨.hbm, 146, rfl⟩
abbrev main_cst_28 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_c_29 : Ref sig .tc := ⟨.hbm, 152, rfl⟩
abbrev main_c_30 : Ref sig .tc := ⟨.hbm, 153, rfl⟩
abbrev main_call18_v0 : Ref sig .tc := ⟨.hbm, 154, rfl⟩
abbrev main_call18_v1 : Ref sig .tc := ⟨.hbm, 155, rfl⟩
abbrev main_call18_v2 : Ref sig .tc := ⟨.hbm, 156, rfl⟩
abbrev main_call18_v3 : Ref sig .tc := ⟨.hbm, 157, rfl⟩
abbrev main_call18_v4 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩

abbrev nD : Nat := 1
abbrev τ : Topo := Topo.v7x

variable {F : FTy → Type} [FloatOps F]

class Facts₀ : Prop where
  reducesTo_S2x2048x4096_S2x2048_d2 : S2x2048x4096.ReducesTo [2] S2x2048
  h_S_ : 0 < S_.numel
  bcast_S2x2048_S2x2048x1_0_1 : S2x2048.BroadcastsInDim S2x2048x1 (![0, 1] : Fin 2 → Fin S2x2048x1.rank)
  bcast_S_S2x2048x1 : S_.BroadcastsInDim S2x2048x1 (![] : Fin 0 → Fin S2x2048x1.rank)
  bcast_S2x2048x1_S2x2048x4096_0_1_2 : S2x2048x1.BroadcastsInDim S2x2048x4096 (![0, 1, 2] : Fin 3 → Fin S2x2048x4096.rank)
  bcast_S_S2x2048x4096 : S_.BroadcastsInDim S2x2048x4096 (![] : Fin 0 → Fin S2x2048x4096.rank)
  reducesTo_S11008x4096_S_d0_1 : S11008x4096.ReducesTo [0, 1] S_
  bcast_S_S11008x4096 : S_.BroadcastsInDim S11008x4096 (![] : Fin 0 → Fin S11008x4096.rank)
  bcast_S_S2x2048x11008 : S_.BroadcastsInDim S2x2048x11008 (![] : Fin 0 → Fin S2x2048x11008.rank)
  reducesTo_S2x2048x11008_S2x2048_d2 : S2x2048x11008.ReducesTo [2] S2x2048
  bcast_S2x2048x1_S2x2048x11008_0_1_2 : S2x2048x1.BroadcastsInDim S2x2048x11008 (![0, 1, 2] : Fin 3 → Fin S2x2048x11008.rank)
  reducesTo_S4096x11008_S_d0_1 : S4096x11008.ReducesTo [0, 1] S_
  bcast_S_S4096x11008 : S_.BroadcastsInDim S4096x11008 (![] : Fin 0 → Fin S4096x11008.rank)
  dot_S2x2048x4096_S11008x4096_S2x2048x11008_2_1_01_0_n_n_wf : DotDims.WF S2x2048x4096 S11008x4096 S2x2048x11008 [2] [1] [0, 1] [0] [] []
  dot_S2x2048x11008_S4096x11008_S2x2048x4096_2_1_01_0_n_n_wf : DotDims.WF S2x2048x11008 S4096x11008 S2x2048x4096 [2] [1] [0, 1] [0] [] []

variable [Facts₀]

def dot_S2x2048x4096_S11008x4096_S2x2048x11008_2_1_01_0_n_n : DotDims S2x2048x4096 S11008x4096 S2x2048x11008 where
  lhsContracting := [2]
  rhsContracting := [1]
  lhsNonContracting := [0, 1]
  rhsNonContracting := [0]
  lhsBatch := []
  rhsBatch := []
  wf := dot_S2x2048x4096_S11008x4096_S2x2048x11008_2_1_01_0_n_n_wf
def dot_S2x2048x11008_S4096x11008_S2x2048x4096_2_1_01_0_n_n : DotDims S2x2048x11008 S4096x11008 S2x2048x4096 where
  lhsContracting := [2]
  rhsContracting := [1]
  lhsNonContracting := [0, 1]
  rhsNonContracting := [0]
  lhsBatch := []
  rhsBatch := []
  wf := dot_S2x2048x11008_S4096x11008_S2x2048x4096_2_1_01_0_n_n_wf

class Facts : Prop extends Facts₀ where

variable [Facts]
-- ==== Proof.KernelRun.lean ====
/- The idealized kernel's whole run, with its RESULT in the post: every weakly fair execution of @main terminates,
   nothing faulting, the argument arrays end as launched, and the result array ends at what the last stretch of host
   operations leaves in it — the contents at the last of the boundaries between @main's five segments (host operations,
   the first kernel's grid, host operations, the second kernel's grid, the final reshape). -/
import proofs.«153568_j18047452578029_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the last boundary's contents, the arguments as launched. -/
theorem run_result : θ_run defs (onTc (τ := τ) (main (F := F))) ⟨m, fun _ => 0, ρ⟩ (fun r => ∀ c : Dev nD,
      r.2.mem ((c.tc : Thread nD τ).loc main_v0) = W5 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v0 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.Whole

end
-- ==== Proof.HostTerms.lean ====
/- The kernel's host operations around its two grids, as whole-array terms: the tokens laid out as 4096 rows, a
   matrix's rows quantized to the integers of [-128, 127] with the column of factors that undoes the scale, and a
   weight matrix quantized to {-1, 0, 1} with its mean magnitude. -/
import proofs.«153568_j18047452578029_2_alg».proof.Proof.Gen.KernelIdeal
import Idealize.ShloMosaic.PureOps.Ideal

noncomputable section

namespace Cert.KernelIdeal.Host

open Cert.KernelIdeal Cert.KernelIdeal.Gen Idealize.ShloMosaic

/-- The [2, 2048, 4096] tokens as the 4096 rows of one matrix. -/
def rows (a : FVec Ideal S2x2048x4096 .f32) : FVec Ideal S4096x4096 .f32 :=
  shapeCast S4096x4096 a shapeCasts_S2x2048x4096_S4096x4096

/-- And back. -/
def unrows (z : FVec Ideal S4096x4096 .f32) : FVec Ideal S2x2048x4096 .f32 :=
  shapeCast S2x2048x4096 z shapeCasts_S4096x4096_S2x2048x4096

/-- Per token row of a [4096, 4096] matrix: its largest magnitude, floored, as a column. -/
def top4096 (z : FVec Ideal S4096x4096 .f32) : FVec Ideal S4096x1 .f32 :=
  maximumf (broadcastInDim S4096x1 ![] bcast_S_S4096x1 (id (constant S_ .f32 0x3727C5AC#32)))
    (broadcastInDim S4096x1 ![0] bcast_S4096_S4096x1_0
      (Host.reduce FloatOps.maximumf (Host.absf z) (constant S_ .f32 0xFF800000#32) reducesTo_S4096x4096_S4096_d1 h_S_))

/-- The rows quantized: each entry times 127 over its row's top, rounded, clipped to [-128, 127]. -/
def quant4096 (z : FVec Ideal S4096x4096 .f32) : FVec Ideal S4096x4096 .bf16 :=
  truncf .bf16 (minimumf (broadcastInDim S4096x4096 ![] bcast_S_S4096x4096 (sitofp .f32 (constantI S_ 32 127#32)))
    (maximumf (broadcastInDim S4096x4096 ![] bcast_S_S4096x4096 (sitofp .f32 (constantI S_ 32 4294967168#32)))
      (Host.roundeven (mulf z (broadcastInDim S4096x4096 ![0, 1] bcast_S4096x1_S4096x4096_0_1
        (Host.divf (broadcastInDim S4096x1 ![] bcast_S_S4096x1 (constant S_ .f32 0x42FE0000#32)) (top4096 z))))))) bitsLt_bf16_f32

/-- The factor that undoes a row's scale, times a weight matrix's mean magnitude μ: the column the kernel rescales by. -/
def back4096 (z : FVec Ideal S4096x4096 .f32) (μ : FVec Ideal S_ .f32) : FVec Ideal S4096x1 .f32 :=
  mulf (Host.divf (top4096 z) (broadcastInDim S4096x1 ![] bcast_S_S4096x1 (constant S_ .f32 0x42FE0000#32)))
    (broadcastInDim S4096x1 ![] bcast_S_S4096x1 μ)

/-- Per token row of a [4096, 11008] matrix: its largest magnitude, floored, as a column. -/
def top11008 (z : FVec Ideal S4096x11008 .f32) : FVec Ideal S4096x1 .f32 :=
  maximumf (broadcastInDim S4096x1 ![] bcast_S_S4096x1 (id (constant S_ .f32 0x3727C5AC#32)))
    (broadcastInDim S4096x1 ![0] bcast_S4096_S4096x1_0
      (Host.reduce FloatOps.maximumf (Host.absf z) (constant S_ .f32 0xFF800000#32) reducesTo_S4096x11008_S4096_d1 h_S_))

/-- The rows quantized: each entry times 127 over its row's top, rounded, clipped to [-128, 127]. -/
def quant11008 (z : FVec Ideal S4096x11008 .f32) : FVec Ideal S4096x11008 .bf16 :=
  truncf .bf16 (minimumf (broadcastInDim S4096x11008 ![] bcast_S_S4096x11008 (sitofp .f32 (constantI S_ 32 127#32)))
    (maximumf (broadcastInDim S4096x11008 ![] bcast_S_S4096x11008 (sitofp .f32 (constantI S_ 32 4294967168#32)))
      (Host.roundeven (mulf z (broadcastInDim S4096x11008 ![0, 1] bcast_S4096x1_S4096x11008_0_1
        (Host.divf (broadcastInDim S4096x1 ![] bcast_S_S4096x1 (constant S_ .f32 0x42FE0000#32)) (top11008 z))))))) bitsLt_bf16_f32

/-- The factor that undoes a row's scale, times a weight matrix's mean magnitude μ: the column the kernel rescales by. -/
def back11008 (z : FVec Ideal S4096x11008 .f32) (μ : FVec Ideal S_ .f32) : FVec Ideal S4096x1 .f32 :=
  mulf (Host.divf (top11008 z) (broadcastInDim S4096x1 ![] bcast_S_S4096x1 (constant S_ .f32 0x42FE0000#32)))
    (broadcastInDim S4096x1 ![] bcast_S_S4096x1 μ)

/-- A 11008x4096 weight matrix's mean magnitude, floored. -/
def mean11008x4096 (w : FVec Ideal S11008x4096 .f32) : FVec Ideal S_ .f32 :=
  maximumf (id (constant S_ .f32 0x3727C5AC#32))
    (Host.divf (Host.reduceAdd (Host.absf w) (constant S_ .f32 0x00000000#32) reducesTo_S11008x4096_S_d0_1 h_S_) (constant S_ .f32 0x4C2C0000#32))

/-- The matrix quantized to three levels: each entry over the mean, rounded, clipped to [-1, 1]. -/
def tern11008x4096 (w : FVec Ideal S11008x4096 .f32) : FVec Ideal S11008x4096 .bf16 :=
  truncf .bf16 (minimumf (broadcastInDim S11008x4096 ![] bcast_S_S11008x4096 (sitofp .f32 (constantI S_ 32 1#32)))
    (maximumf (broadcastInDim S11008x4096 ![] bcast_S_S11008x4096 (sitofp .f32 (constantI S_ 32 4294967295#32)))
      (Host.roundeven (mulf w (broadcastInDim S11008x4096 ![] bcast_S_S11008x4096
        (Host.divf (constant S_ .f32 0x3F800000#32) (mean11008x4096 w))))))) bitsLt_bf16_f32

/-- A 4096x11008 weight matrix's mean magnitude, floored. -/
def mean4096x11008 (w : FVec Ideal S4096x11008 .f32) : FVec Ideal S_ .f32 :=
  maximumf (id (constant S_ .f32 0x3727C5AC#32))
    (Host.divf (Host.reduceAdd (Host.absf w) (constant S_ .f32 0x00000000#32) reducesTo_S4096x11008_S_d0_1 h_S_) (constant S_ .f32 0x4C2C0000#32))

/-- The matrix quantized to three levels: each entry over the mean, rounded, clipped to [-1, 1]. -/
def tern4096x11008 (w : FVec Ideal S4096x11008 .f32) : FVec Ideal S4096x11008 .bf16 :=
  truncf .bf16 (minimumf (broadcastInDim S4096x11008 ![] bcast_S_S4096x11008 (sitofp .f32 (constantI S_ 32 1#32)))
    (maximumf (broadcastInDim S4096x11008 ![] bcast_S_S4096x11008 (sitofp .f32 (constantI S_ 32 4294967295#32)))
      (Host.roundeven (mulf w (broadcastInDim S4096x11008 ![] bcast_S_S4096x11008
        (Host.divf (constant S_ .f32 0x3F800000#32) (mean4096x11008 w))))))) bitsLt_bf16_f32

end Cert.KernelIdeal.Host

end
-- ==== Proof.BodyA.lean ====
/- The first kernel's body at one entry. With x a block of 1024 token rows of quantized activations, g and u blocks
   of 256 rows of the two quantized weight matrices, and sg, su the two columns of rescaling factors of those tokens,
   entry (p, q) of what the body stores is
     max((Σ_k x[p,k] g[q,k]) · sg[p], 0)² · ((Σ_k x[p,k] u[q,k]) · su[p]) :
   each matrix product contracts the LAST axis of both operands, a column is broadcast along its row, and the rest is
   entrywise. -/
import proofs.«153568_j18047452578029_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! The operand indices of the block product: the output's row, the output's column as the weight block's ROW, and the
    one contracted coordinate as both operands' last. -/
theorem dotA_lhs0 (i : S1024x256.Idx) (c : dot_S1024x4096_S256x4096_S1024x256_1_1_0_0_n_n.contr.Idx) : (dot_S1024x4096_S256x4096_S1024x256_1_1_0_0_n_n.lhsIdx i c 0).val = (i 0).val := by
  unfold DotDims.lhsIdx
  rw [dif_neg (show ¬(0 : Fin S1024x4096.rank) ∈ dot_S1024x4096_S256x4096_S1024x256_1_1_0_0_n_n.lhsBatch by decide), dif_pos (show (0 : Fin S1024x4096.rank) ∈ dot_S1024x4096_S256x4096_S1024x256_1_1_0_0_n_n.lhsNonContracting by decide)]
  rfl
theorem dotA_lhs1 (i : S1024x256.Idx) (c : dot_S1024x4096_S256x4096_S1024x256_1_1_0_0_n_n.contr.Idx) : (dot_S1024x4096_S256x4096_S1024x256_1_1_0_0_n_n.lhsIdx i c 1).val = (c ⟨0, by decide⟩).val :=
  dot_S1024x4096_S256x4096_S1024x256_1_1_0_0_n_n.lhsIdx_val_of_single rfl i c
theorem dotA_rhs0 (i : S1024x256.Idx) (c : dot_S1024x4096_S256x4096_S1024x256_1_1_0_0_n_n.contr.Idx) : (dot_S1024x4096_S256x4096_S1024x256_1_1_0_0_n_n.rhsIdx i c 0).val = (i 1).val := by
  unfold DotDims.rhsIdx
  rw [dif_neg (show ¬(0 : Fin S256x4096.rank) ∈ dot_S1024x4096_S256x4096_S1024x256_1_1_0_0_n_n.rhsBatch by decide), dif_pos (show (0 : Fin S256x4096.rank) ∈ dot_S1024x4096_S256x4096_S1024x256_1_1_0_0_n_n.rhsNonContracting by decide)]
  rfl
theorem dotA_rhs1 (i : S1024x256.Idx) (c : dot_S1024x4096_S256x4096_S1024x256_1_1_0_0_n_n.contr.Idx) : (dot_S1024x4096_S256x4096_S1024x256_1_1_0_0_n_n.rhsIdx i c 1).val = (c ⟨0, by decide⟩).val :=
  dot_S1024x4096_S256x4096_S1024x256_1_1_0_0_n_n.rhsIdx_val_of_single rfl i c

/-- A product of a [1024, 4096] block with a [256, 4096] block along their last axes, into zero: entry (p, q) is the
    sum over k of the two rows' entries. -/
theorem matmulA_apply (a : FVec Ideal S1024x4096 .bf16) (b : FVec Ideal S256x4096 .bf16) (p : Fin 1024) (q : Fin 256) :
    matmul dot_S1024x4096_S256x4096_S1024x256_1_1_0_0_n_n none a b (constant S1024x256 .f32 0x00000000#32) (ix2 p q)
      = ∑ k : Fin 4096, a (ix2 p k) * b (ix2 q k) := by
  show FloatOps.matmul dot_S1024x4096_S256x4096_S1024x256_1_1_0_0_n_n none a b (constant S1024x256 .f32 0x00000000#32) (ix2 p q) = _
  rw [Ideal.matmul_constant_zero_apply, ← Equiv.sum_comp (contrEquiv1 dot_S1024x4096_S256x4096_S1024x256_1_1_0_0_n_n 4096 rfl rfl).symm]
  refine Finset.sum_congr rfl fun k _ => ?_
  have hk := contrEquiv1_symm_val dot_S1024x4096_S256x4096_S1024x256_1_1_0_0_n_n 4096 rfl rfl k
  have el : dot_S1024x4096_S256x4096_S1024x256_1_1_0_0_n_n.lhsIdx (ix2 p q) ((contrEquiv1 dot_S1024x4096_S256x4096_S1024x256_1_1_0_0_n_n 4096 rfl rfl).symm k) = ix2 p k :=
    funext fun d => Fin.ext (by
      match d with
      | ⟨0, _⟩ => exact dotA_lhs0 _ _
      | ⟨1, _⟩ => exact (dotA_lhs1 _ _).trans hk)
  have er : dot_S1024x4096_S256x4096_S1024x256_1_1_0_0_n_n.rhsIdx (ix2 p q) ((contrEquiv1 dot_S1024x4096_S256x4096_S1024x256_1_1_0_0_n_n 4096 rfl rfl).symm k) = ix2 q k :=
    funext fun d => Fin.ext (by
      match d with
      | ⟨0, _⟩ => exact dotA_rhs0 _ _
      | ⟨1, _⟩ => exact (dotA_rhs1 _ _).trans hk)
  rw [el, er]

/-- A column of 1024 factors broadcast along its rows: entry (p, q) is the column's entry p. -/
theorem colA_apply (v : FVec Ideal S1024x1 .f32) (p : Fin 1024) (q : Fin 256) :
    broadcastTo S1024x256 v broadcasts_S1024x1_S1024x256 (ix2 p q) = v (ix2 p 0) :=
  broadcastTo_apply v broadcasts_S1024x1_S1024x256 (ix2 p q) (ix2 p 0) (fun d => by
    match d with
    | ⟨0, _⟩ => show p.val = if (1024 : Nat) = 1 then 0 else p.val; rw [if_neg (by decide)]
    | ⟨1, _⟩ => show (0 : Nat) = if (1 : Nat) = 1 then 0 else q.val; rw [if_pos rfl])

/-- The body's stored value at entry (p, q). -/
theorem gateup_apply (x : Vec Ideal S1024x4096 .bf16) (g u : Vec Ideal S256x4096 .bf16) (sg su : Vec Ideal S1024x1 .f32)
    (p : Fin 1024) (q : Fin 256) :
    k0_pay1 x g u sg su (ix2 p q)
      = max ((∑ k : Fin 4096, x (ix2 p k) * g (ix2 q k)) * sg (ix2 p 0)) 0
        * max ((∑ k : Fin 4096, x (ix2 p k) * g (ix2 q k)) * sg (ix2 p 0)) 0
        * ((∑ k : Fin 4096, x (ix2 p k) * u (ix2 q k)) * su (ix2 p 0)) := by
  unfold k0_pay1
  simp only [shapeCast_self]
  rw [mulf_apply, mulf_apply, maximumf_apply, mulf_apply, mulf_apply, broadcast_apply, matmulA_apply, matmulA_apply,
    colA_apply, colA_apply]
  show max _ (Ideal.ofBits .f32 0x00000000#32) * max _ (Ideal.ofBits .f32 0x00000000#32) * _ = _
  rw [Ideal.ofBits_zero_f32]

end Cert.KernelIdeal.Body

end
-- ==== Proof.ArrayA.lean ====
/- The first kernel's output array after its grid has run, as ONE function of the five arrays the region finds.
   The grid is 4 by 43: point (i, j) reads token rows 1024·i … 1024·i + 1023 of the quantized activations and of
   the two factor columns, weight rows 256·j … 256·j + 255 of both quantized weight matrices, all 4096 columns of
   each, and writes the [1024, 256] block (i, j) of the output. So entry (m, n) of the output depends on token row
   m and weight rows n only, and the blocks tile the [4096, 11008] array. -/
import proofs.«153568_j18047452578029_2_alg».proof.Proof.Gen.KernelIdeal.Frame
import proofs.«153568_j18047452578029_2_alg».proof.Proof.BodyA

set_option maxRecDepth 16384

noncomputable section

namespace Cert.KernelIdeal.Arrays

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- The gated activations: entry (m, n) from token row m of X and of the two factor columns, and row n of the two
    weight matrices. -/
def gated (X : Vec Ideal S4096x4096 .bf16) (G U : Vec Ideal S11008x4096 .bf16) (sg su : Vec Ideal S4096x1 .f32) :
    Vec Ideal S4096x11008 .f32 := fun i =>
  max ((∑ k : Fin 4096, X (ix2 (i 0) k) * G (ix2 (i 1) k)) * sg (ix2 (i 0) 0)) 0
    * max ((∑ k : Fin 4096, X (ix2 (i 0) k) * G (ix2 (i 1) k)) * sg (ix2 (i 0) 0)) 0
    * ((∑ k : Fin 4096, X (ix2 (i 0) k) * U (ix2 (i 1) k)) * su (ix2 (i 0) 0))

/-- The printed index maps over the 172 grid points: the token-row windows move with the output's block row and
    the weight-row windows with its block column, none of them along the contracted axis. -/
theorem mapsA : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = win0_5.index t (1 : Fin 2) ∧ win0_2.index t (1 : Fin 2) = 0
    ∧ win0_3.index t (0 : Fin 2) = win0_5.index t (0 : Fin 2) ∧ win0_3.index t (1 : Fin 2) = 0
    ∧ win0_4.index t (0 : Fin 2) = win0_5.index t (0 : Fin 2) ∧ win0_4.index t (1 : Fin 2) = 0
    ∧ win0_5.index t (0 : Fin 2) ≤ 3 ∧ win0_5.index t (1 : Fin 2) ≤ 42 :=
  (by decide +kernel : ∀ t : Fin grid0.N, _)

/-- Every block of the output is some point's. -/
theorem ontoA : ∀ (q0 : Fin 4) (q1 : Fin 43), ∃ t : Fin cfg0.N, win0_5.index t = ![q0.val, q1.val] :=
  (by decide +kernel : ∀ (q0 : Fin 4) (q1 : Fin 43), ∃ t : Fin grid0.N, win0_5.index t = ![q0.val, q1.val])

/-- What point t writes back is block t of the gated array of the region's five arrays. -/
theorem flushedA (c : Dev nD) (t : Fin cfg0.N) :
    (dat0 V c).flushed 5 t = ((cfg0.win 5).blk t).view.read (Elt Ideal)
      (gated (V c main_call0_v13) (V c main_call0_v23) (V c main_call0_v33) (V c main_call0_v45) (V c main_call0_v47)) := by
  show (cfg0.win 5).cut (grid0.coords t) ((dat0 V c).after 5 t) = _
  rw [after0_5]
  unfold out0_5
  rw [View.canon_unit_zero origin2]
  simp only [View.ld_unit_zero (S := S1024x4096) origin2, View.ld_unit_zero (S := S256x4096) origin2,
    View.ld_unit_zero (S := S1024x1) origin2]
  obtain ⟨e00, e01, e10, e11, e20, e21, e30, e31, e40, e41, b0, b1⟩ := mapsA t
  funext j
  obtain ⟨p, q, rfl⟩ : ∃ (p : Fin 1024) (q : Fin 256), j = ix2 p q := ⟨j 0, j 1, eq_ix2 j⟩
  refine (gateup_apply (iblk0 V c 0 t) (iblk0 V c 1 t) (iblk0 V c 2 t) (iblk0 V c 3 t) (iblk0 V c 4 t) p q).trans ?_
  have hX : ∀ k : Fin 4096, iblk0 V c 0 t (ix2 p k)
      = V c main_call0_v13 (ix2 ((((cfg0.win 5).blk t).view.emb (ix2 p q)) 0) k) := fun k => by
    show V c main_call0_v13 (((cfg0.win 0).blk t).view.emb (ix2 p k)) = _
    refine congrArg (V c main_call0_v13) (funext fun a => Fin.ext ?_)
    match a with
    | ⟨0, _⟩ => show win0_0.index t (0 : Fin 2) * 1024 + 1 * p.val = win0_5.index t (0 : Fin 2) * 1024 + 1 * p.val; omega
    | ⟨1, _⟩ => show win0_0.index t (1 : Fin 2) * 4096 + 1 * k.val = k.val; omega
  have hG : ∀ k : Fin 4096, iblk0 V c 1 t (ix2 q k)
      = V c main_call0_v23 (ix2 ((((cfg0.win 5).blk t).view.emb (ix2 p q)) 1) k) := fun k => by
    show V c main_call0_v23 (((cfg0.win 1).blk t).view.emb (ix2 q k)) = _
    refine congrArg (V c main_call0_v23) (funext fun a => Fin.ext ?_)
    match a with
    | ⟨0, _⟩ => show win0_1.index t (0 : Fin 2) * 256 + 1 * q.val = win0_5.index t (1 : Fin 2) * 256 + 1 * q.val; omega
    | ⟨1, _⟩ => show win0_1.index t (1 : Fin 2) * 4096 + 1 * k.val = k.val; omega
  have hU : ∀ k : Fin 4096, iblk0 V c 2 t (ix2 q k)
      = V c main_call0_v33 (ix2 ((((cfg0.win 5).blk t).view.emb (ix2 p q)) 1) k) := fun k => by
    show V c main_call0_v33 (((cfg0.win 2).blk t).view.emb (ix2 q k)) = _
    refine congrArg (V c main_call0_v33) (funext fun a => Fin.ext ?_)
    match a with
    | ⟨0, _⟩ => show win0_2.index t (0 : Fin 2) * 256 + 1 * q.val = win0_5.index t (1 : Fin 2) * 256 + 1 * q.val; omega
    | ⟨1, _⟩ => show win0_2.index t (1 : Fin 2) * 4096 + 1 * k.val = k.val; omega
  have hsg : iblk0 V c 3 t (ix2 p 0) = V c main_call0_v45 (ix2 ((((cfg0.win 5).blk t).view.emb (ix2 p q)) 0) 0) := by
    show V c main_call0_v45 (((cfg0.win 3).blk t).view.emb (ix2 p 0)) = _
    refine congrArg (V c main_call0_v45) (funext fun a => Fin.ext ?_)
    match a with
    | ⟨0, _⟩ => show win0_3.index t (0 : Fin 2) * 1024 + 1 * p.val = win0_5.index t (0 : Fin 2) * 1024 + 1 * p.val; omega
    | ⟨1, _⟩ => show win0_3.index t (1 : Fin 2) * 1 + 1 * 0 = 0; omega
  have hsu : iblk0 V c 4 t (ix2 p 0) = V c main_call0_v47 (ix2 ((((cfg0.win 5).blk t).view.emb (ix2 p q)) 0) 0) := by
    show V c main_call0_v47 (((cfg0.win 4).blk t).view.emb (ix2 p 0)) = _
    refine congrArg (V c main_call0_v47) (funext fun a => Fin.ext ?_)
    match a with
    | ⟨0, _⟩ => show win0_4.index t (0 : Fin 2) * 1024 + 1 * p.val = win0_5.index t (0 : Fin 2) * 1024 + 1 * p.val; omega
    | ⟨1, _⟩ => show win0_4.index t (1 : Fin 2) * 1 + 1 * 0 = 0; omega
  simp only [hX, hG, hU, hsg, hsu]
  rfl

/-- An index of the output array is in point t's block iff each coordinate is in the block's range. -/
theorem memA (t : Fin cfg0.N) (i : S4096x11008.Idx) :
    i ∈ ((cfg0.win 5).blk t).view.set ↔ ∀ a : Fin 2, win0_5.index t a * S1024x256.size a ≤ (i a).val ∧ (i a).val < win0_5.index t a * S1024x256.size a + S1024x256.size a := by
  show i ∈ ((View.whole main_call0_v48).slice (win0_5.rect t)).set ↔ _
  rw [View.set_slice_whole, Rect.mem_set_unit]
  exact Iff.rfl

/-- The blocks tile the array: entry (m, n) is in the block of the point with block row m / 1024 and block column
    n / 256. -/
theorem coverA (i : S4096x11008.Idx) : ∃ t : Fin cfg0.N, (cfg0.win 5).flush t = true ∧ i ∈ ((cfg0.win 5).blk t).view.set := by
  have hi0 : (i 0).val < 4096 := (i 0).isLt
  have hi1 : (i 1).val < 11008 := (i 1).isLt
  obtain ⟨t, ht⟩ := ontoA ⟨(i 0).val / 1024, by omega⟩ ⟨(i 1).val / 256, by omega⟩
  have q0 : win0_5.index t (0 : Fin 2) = (i 0).val / 1024 := congrFun ht 0
  have q1 : win0_5.index t (1 : Fin 2) = (i 1).val / 256 := congrFun ht 1
  refine ⟨t, flush0_5 t, ?_⟩
  rw [memA]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 256 ≤ (i 1).val ∧ (i 1).val < win0_5.index t (1 : Fin 2) * 256 + 256; omega

/-- THE ARRAY after the grid: the gated array of the five arrays the region found. -/
theorem finalA (c : Dev nD) : (dat0 V c).arrAt 5 cfg0.N
    = gated (V c main_call0_v13) (V c main_call0_v23) (V c main_call0_v33) (V c main_call0_v45) (V c main_call0_v47) :=
  (dat0 V c).arrAt_eq_of_cover 5 _ (fun t _ => flushedA V c t) coverA

end Cert.KernelIdeal.Arrays

end
-- ==== Proof.BodyB.lean ====
/- The second kernel's body at one entry. With y a block of 512 token rows of the quantized gated activations, d a
   block of 256 rows of the quantized down-projection weights and sd the column of rescaling factors of those
   tokens, entry (p, q) of what the body stores is (Σ_j y[p,j] d[q,j]) · sd[p]. -/
import proofs.«153568_j18047452578029_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! The operand indices of the block product: the output's row, the output's column as the weight block's ROW, and the
    one contracted coordinate as both operands' last. -/
theorem dotB_lhs0 (i : S512x256.Idx) (c : dot_S512x11008_S256x11008_S512x256_1_1_0_0_n_n.contr.Idx) : (dot_S512x11008_S256x11008_S512x256_1_1_0_0_n_n.lhsIdx i c 0).val = (i 0).val := by
  unfold DotDims.lhsIdx
  rw [dif_neg (show ¬(0 : Fin S512x11008.rank) ∈ dot_S512x11008_S256x11008_S512x256_1_1_0_0_n_n.lhsBatch by decide), dif_pos (show (0 : Fin S512x11008.rank) ∈ dot_S512x11008_S256x11008_S512x256_1_1_0_0_n_n.lhsNonContracting by decide)]
  rfl
theorem dotB_lhs1 (i : S512x256.Idx) (c : dot_S512x11008_S256x11008_S512x256_1_1_0_0_n_n.contr.Idx) : (dot_S512x11008_S256x11008_S512x256_1_1_0_0_n_n.lhsIdx i c 1).val = (c ⟨0, by decide⟩).val :=
  dot_S512x11008_S256x11008_S512x256_1_1_0_0_n_n.lhsIdx_val_of_single rfl i c
theorem dotB_rhs0 (i : S512x256.Idx) (c : dot_S512x11008_S256x11008_S512x256_1_1_0_0_n_n.contr.Idx) : (dot_S512x11008_S256x11008_S512x256_1_1_0_0_n_n.rhsIdx i c 0).val = (i 1).val := by
  unfold DotDims.rhsIdx
  rw [dif_neg (show ¬(0 : Fin S256x11008.rank) ∈ dot_S512x11008_S256x11008_S512x256_1_1_0_0_n_n.rhsBatch by decide), dif_pos (show (0 : Fin S256x11008.rank) ∈ dot_S512x11008_S256x11008_S512x256_1_1_0_0_n_n.rhsNonContracting by decide)]
  rfl
theorem dotB_rhs1 (i : S512x256.Idx) (c : dot_S512x11008_S256x11008_S512x256_1_1_0_0_n_n.contr.Idx) : (dot_S512x11008_S256x11008_S512x256_1_1_0_0_n_n.rhsIdx i c 1).val = (c ⟨0, by decide⟩).val :=
  dot_S512x11008_S256x11008_S512x256_1_1_0_0_n_n.rhsIdx_val_of_single rfl i c

/-- A product of a [512, 11008] block with a [256, 11008] block along their last axes, into zero: entry (p, q) is
    the sum over j of the two rows' entries. -/
theorem matmulB_apply (a : FVec Ideal S512x11008 .bf16) (b : FVec Ideal S256x11008 .bf16) (p : Fin 512) (q : Fin 256) :
    matmul dot_S512x11008_S256x11008_S512x256_1_1_0_0_n_n none a b (constant S512x256 .f32 0x00000000#32) (ix2 p q)
      = ∑ k : Fin 11008, a (ix2 p k) * b (ix2 q k) := by
  show FloatOps.matmul dot_S512x11008_S256x11008_S512x256_1_1_0_0_n_n none a b (constant S512x256 .f32 0x00000000#32) (ix2 p q) = _
  rw [Ideal.matmul_constant_zero_apply, ← Equiv.sum_comp (contrEquiv1 dot_S512x11008_S256x11008_S512x256_1_1_0_0_n_n 11008 rfl rfl).symm]
  refine Finset.sum_congr rfl fun k _ => ?_
  have hk := contrEquiv1_symm_val dot_S512x11008_S256x11008_S512x256_1_1_0_0_n_n 11008 rfl rfl k
  have el : dot_S512x11008_S256x11008_S512x256_1_1_0_0_n_n.lhsIdx (ix2 p q) ((contrEquiv1 dot_S512x11008_S256x11008_S512x256_1_1_0_0_n_n 11008 rfl rfl).symm k) = ix2 p k :=
    funext fun d => Fin.ext (by
      match d with
      | ⟨0, _⟩ => exact dotB_lhs0 _ _
      | ⟨1, _⟩ => exact (dotB_lhs1 _ _).trans hk)
  have er : dot_S512x11008_S256x11008_S512x256_1_1_0_0_n_n.rhsIdx (ix2 p q) ((contrEquiv1 dot_S512x11008_S256x11008_S512x256_1_1_0_0_n_n 11008 rfl rfl).symm k) = ix2 q k :=
    funext fun d => Fin.ext (by
      match d with
      | ⟨0, _⟩ => exact dotB_rhs0 _ _
      | ⟨1, _⟩ => exact (dotB_rhs1 _ _).trans hk)
  rw [el, er]

/-- A column of 512 factors broadcast along its rows: entry (p, q) is the column's entry p. -/
theorem colB_apply (v : FVec Ideal S512x1 .f32) (p : Fin 512) (q : Fin 256) :
    broadcastTo S512x256 v broadcasts_S512x1_S512x256 (ix2 p q) = v (ix2 p 0) :=
  broadcastTo_apply v broadcasts_S512x1_S512x256 (ix2 p q) (ix2 p 0) (fun d => by
    match d with
    | ⟨0, _⟩ => show p.val = if (512 : Nat) = 1 then 0 else p.val; rw [if_neg (by decide)]
    | ⟨1, _⟩ => show (0 : Nat) = if (1 : Nat) = 1 then 0 else q.val; rw [if_pos rfl])

/-- The body's stored value at entry (p, q). -/
theorem down_apply (y : Vec Ideal S512x11008 .bf16) (d : Vec Ideal S256x11008 .bf16) (sd : Vec Ideal S512x1 .f32)
    (p : Fin 512) (q : Fin 256) :
    k1_pay1 y d sd (ix2 p q) = (∑ j : Fin 11008, y (ix2 p j) * d (ix2 q j)) * sd (ix2 p 0) := by
  unfold k1_pay1
  simp only [shapeCast_self]
  rw [mulf_apply, matmulB_apply, colB_apply]

end Cert.KernelIdeal.Body

end
-- ==== Proof.ArrayB.lean ====
/- The second kernel's output array after its grid has run, as ONE function of the three arrays the region finds.
   The grid is 8 by 16: point (i, j) reads token rows 512·i … 512·i + 511 of the quantized gated activations and of
   the factor column, rows 256·j … 256·j + 255 of the quantized down-projection weights, all 11008 columns of each,
   and writes the [512, 256] block (i, j) of the output; the blocks tile the [4096, 4096] array. -/
import proofs.«153568_j18047452578029_2_alg».proof.Proof.Gen.KernelIdeal.Frame
import proofs.«153568_j18047452578029_2_alg».proof.Proof.BodyB

set_option maxRecDepth 16384

noncomputable section

namespace Cert.KernelIdeal.Arrays

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin2' : (![0, 0] : Fin 2 → Nat) = fun _ => 0 := funext fun a => by fin_cases a <;> rfl

/-- The down projection: entry (m, n) from token row m of Y and of the factor column, and row n of the weights. -/
def down (Y D : Vec Ideal S4096x11008 .bf16) (sd : Vec Ideal S4096x1 .f32) : Vec Ideal S4096x4096 .f32 := fun i =>
  (∑ j : Fin 11008, Y (ix2 (i 0) j) * D (ix2 (i 1) j)) * sd (ix2 (i 0) 0)

/-- The printed index maps over the 128 grid points: the token-row windows move with the output's block row and
    the weight-row window with its block column, none of them along the contracted axis. -/
theorem mapsB : ∀ t : Fin cfg1.N,
    win1_0.index t (0 : Fin 2) = win1_3.index t (0 : Fin 2) ∧ win1_0.index t (1 : Fin 2) = 0
    ∧ win1_1.index t (0 : Fin 2) = win1_3.index t (1 : Fin 2) ∧ win1_1.index t (1 : Fin 2) = 0
    ∧ win1_2.index t (0 : Fin 2) = win1_3.index t (0 : Fin 2) ∧ win1_2.index t (1 : Fin 2) = 0
    ∧ win1_3.index t (0 : Fin 2) ≤ 7 ∧ win1_3.index t (1 : Fin 2) ≤ 15 :=
  (by decide +kernel : ∀ t : Fin grid1.N, _)

/-- Every block of the output is some point's. -/
theorem ontoB : ∀ (q0 : Fin 8) (q1 : Fin 16), ∃ t : Fin cfg1.N, win1_3.index t = ![q0.val, q1.val] :=
  (by decide +kernel : ∀ (q0 : Fin 8) (q1 : Fin 16), ∃ t : Fin grid1.N, win1_3.index t = ![q0.val, q1.val])

/-- What point t writes back is block t of the down projection of the region's three arrays. -/
theorem flushedB (c : Dev nD) (t : Fin cfg1.N) :
    (dat1 V c).flushed 3 t = ((cfg1.win 3).blk t).view.read (Elt Ideal)
      (down (V c main_call0_v61) (V c main_call0_v43) (V c main_call0_v63)) := by
  show (cfg1.win 3).cut (grid1.coords t) ((dat1 V c).after 3 t) = _
  rw [after1_3]
  unfold out1_3
  rw [View.canon_unit_zero origin2']
  simp only [View.ld_unit_zero (S := S512x11008) origin2', View.ld_unit_zero (S := S256x11008) origin2',
    View.ld_unit_zero (S := S512x1) origin2']
  obtain ⟨e00, e01, e10, e11, e20, e21, b0, b1⟩ := mapsB t
  funext j
  obtain ⟨p, q, rfl⟩ : ∃ (p : Fin 512) (q : Fin 256), j = ix2 p q := ⟨j 0, j 1, eq_ix2 j⟩
  refine (down_apply (iblk1 V c 0 t) (iblk1 V c 1 t) (iblk1 V c 2 t) p q).trans ?_
  have hY : ∀ k : Fin 11008, iblk1 V c 0 t (ix2 p k)
      = V c main_call0_v61 (ix2 ((((cfg1.win 3).blk t).view.emb (ix2 p q)) 0) k) := fun k => by
    show V c main_call0_v61 (((cfg1.win 0).blk t).view.emb (ix2 p k)) = _
    refine congrArg (V c main_call0_v61) (funext fun a => Fin.ext ?_)
    match a with
    | ⟨0, _⟩ => show win1_0.index t (0 : Fin 2) * 512 + 1 * p.val = win1_3.index t (0 : Fin 2) * 512 + 1 * p.val; omega
    | ⟨1, _⟩ => show win1_0.index t (1 : Fin 2) * 11008 + 1 * k.val = k.val; omega
  have hD : ∀ k : Fin 11008, iblk1 V c 1 t (ix2 q k)
      = V c main_call0_v43 (ix2 ((((cfg1.win 3).blk t).view.emb (ix2 p q)) 1) k) := fun k => by
    show V c main_call0_v43 (((cfg1.win 1).blk t).view.emb (ix2 q k)) = _
    refine congrArg (V c main_call0_v43) (funext fun a => Fin.ext ?_)
    match a with
    | ⟨0, _⟩ => show win1_1.index t (0 : Fin 2) * 256 + 1 * q.val = win1_3.index t (1 : Fin 2) * 256 + 1 * q.val; omega
    | ⟨1, _⟩ => show win1_1.index t (1 : Fin 2) * 11008 + 1 * k.val = k.val; omega
  have hsd : iblk1 V c 2 t (ix2 p 0) = V c main_call0_v63 (ix2 ((((cfg1.win 3).blk t).view.emb (ix2 p q)) 0) 0) := by
    show V c main_call0_v63 (((cfg1.win 2).blk t).view.emb (ix2 p 0)) = _
    refine congrArg (V c main_call0_v63) (funext fun a => Fin.ext ?_)
    match a with
    | ⟨0, _⟩ => show win1_2.index t (0 : Fin 2) * 512 + 1 * p.val = win1_3.index t (0 : Fin 2) * 512 + 1 * p.val; omega
    | ⟨1, _⟩ => show win1_2.index t (1 : Fin 2) * 1 + 1 * 0 = 0; omega
  simp only [hY, hD, hsd]
  rfl

/-- An index of the output array is in point t's block iff each coordinate is in the block's range. -/
theorem memB (t : Fin cfg1.N) (i : S4096x4096.Idx) :
    i ∈ ((cfg1.win 3).blk t).view.set ↔ ∀ a : Fin 2, win1_3.index t a * S512x256.size a ≤ (i a).val ∧ (i a).val < win1_3.index t a * S512x256.size a + S512x256.size a := by
  show i ∈ ((View.whole main_call0_v64).slice (win1_3.rect t)).set ↔ _
  rw [View.set_slice_whole, Rect.mem_set_unit]
  exact Iff.rfl

/-- The blocks tile the array: entry (m, n) is in the block of the point with block row m / 512 and block column
    n / 256. -/
theorem coverB (i : S4096x4096.Idx) : ∃ t : Fin cfg1.N, (cfg1.win 3).flush t = true ∧ i ∈ ((cfg1.win 3).blk t).view.set := by
  have hi0 : (i 0).val < 4096 := (i 0).isLt
  have hi1 : (i 1).val < 4096 := (i 1).isLt
  obtain ⟨t, ht⟩ := ontoB ⟨(i 0).val / 512, by omega⟩ ⟨(i 1).val / 256, by omega⟩
  have q0 : win1_3.index t (0 : Fin 2) = (i 0).val / 512 := congrFun ht 0
  have q1 : win1_3.index t (1 : Fin 2) = (i 1).val / 256 := congrFun ht 1
  refine ⟨t, flush1_3 t, ?_⟩
  rw [memB]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 256 ≤ (i 1).val ∧ (i 1).val < win1_3.index t (1 : Fin 2) * 256 + 256; omega

/-- THE ARRAY after the grid: the down projection of the three arrays the region found. -/
theorem finalB (c : Dev nD) : (dat1 V c).arrAt 3 cfg1.N
    = down (V c main_call0_v61) (V c main_call0_v43) (V c main_call0_v63) :=
  (dat1 V c).arrAt_eq_of_cover 3 _ (fun t _ => flushedB V c t) coverB

end Cert.KernelIdeal.Arrays

end
-- ==== Proof.KernelTerm.lean ====
/- The idealized kernel's result as ONE term of its four argument arrays: the tokens as rows, quantized; the three
   weight matrices quantized; the gated activations of the first grid; those quantized row by row; the down
   projection of the second grid; the result reshaped back to [2, 2048, 4096]. -/
import proofs.«153568_j18047452578029_2_alg».proof.Proof.HostTerms
import proofs.«153568_j18047452578029_2_alg».proof.Proof.ArrayA
import proofs.«153568_j18047452578029_2_alg».proof.Proof.ArrayB

noncomputable section

namespace Cert.KernelIdeal.Whole

open Cert.KernelIdeal Cert.KernelIdeal.Gen Cert.KernelIdeal.Host Cert.KernelIdeal.Arrays Idealize.ShloMosaic

/-- The gated activations as a term of the arguments. -/
def gatedOf (a0 : FVec Ideal S2x2048x4096 .f32) (a1 a2 : FVec Ideal S11008x4096 .f32) : FVec Ideal S4096x11008 .f32 :=
  gated (quant4096 (rows a0)) (tern11008x4096 a1) (tern11008x4096 a2)
    (back4096 (rows a0) (mean11008x4096 a1)) (back4096 (rows a0) (mean11008x4096 a2))

/-- The kernel's result as a term of its four arguments. -/
def resultOf (a0 : FVec Ideal S2x2048x4096 .f32) (a1 a2 : FVec Ideal S11008x4096 .f32) (a3 : FVec Ideal S4096x11008 .f32) :
    FVec Ideal S2x2048x4096 .f32 :=
  unrows (down (quant11008 (gatedOf a0 a1 a2)) (tern4096x11008 a3) (back11008 (gatedOf a0 a1 a2) (mean4096x11008 a3)))

end Cert.KernelIdeal.Whole

end
-- ==== Proof.KernelValue.lean ====
/- The idealized kernel's result as ONE term of its four argument arrays. Reading the contents at the boundaries
   between @main's five segments backwards: the result is the second grid's output reshaped to [2, 2048, 4096]; that
   output is the down projection of what the middle host operations leave (the gated activations quantized row by row,
   their rescaling column) and of the quantized down weights, which the first stretch computed and nothing since has
   written; the gated activations are the first grid's output, of what the first stretch leaves: the tokens as rows,
   quantized, the two quantized weight matrices and the two rescaling columns. -/
import proofs.«153568_j18047452578029_2_alg».proof.Proof.Gen.KernelIdeal.Frame
import proofs.«153568_j18047452578029_2_alg».proof.Proof.HostTerms
import proofs.«153568_j18047452578029_2_alg».proof.Proof.ArrayA
import proofs.«153568_j18047452578029_2_alg».proof.Proof.ArrayB
import proofs.«153568_j18047452578029_2_alg».proof.Proof.KernelTerm

set_option maxRecDepth 131072
set_option maxHeartbeats 40000000

noncomputable section

namespace Cert.KernelIdeal.Whole

open Cert.KernelIdeal Cert.KernelIdeal.Gen Cert.KernelIdeal.Host Cert.KernelIdeal.Arrays
open Idealize.ShloMosaic Idealize.ShloMosaic.TcCoe Idealize.SL.Sem Idealize.ShloMosaic.StableHlo

/-- Contents carried to a buffer's type and back are the contents. -/
theorem ofBuf_toBuf {T : BufTy} (x : TRef sig T) (v : T.Contents (Elt Ideal)) : x.ofBuf (x.toBuf v) = v := by
  obtain ⟨r, rfl, _, _⟩ := x
  rfl

variable (m : (ℓ : Loc nD τ sig) → Buf (Elt Ideal) ℓ) (ρ : Dev nD → PrngReg)

/-! ## After the first stretch of host operations

The one array every quantity of a token row depends on is the row-wise largest magnitude: a reduce by maximum, from
the bottom element, over the 4096 (later 11008) entries of each of the 4096 rows of magnitudes. The stretch computes
it of the reshaped tokens' magnitudes, and everything else is entrywise in it. -/

theorem first_x (c : Dev nD) : V1 m ρ c main_call0_v13 = quant4096 (rows (m ((c : Thread nD τ).loc main_arg0))) := by
  show StableHlo.after hostOps0 (W0 m ρ c) (Proc.devRef .tc main_call0_v13) = _
  after_results_simp
  simp only [ofBuf_toBuf]
  generalize hR : Host.reduce (FloatOps.maximumf (F := Ideal) (φ := .f32)) _ _ reducesTo_S4096x4096_S4096_d1 h_S_ = R
  have hR' : R = Host.reduce FloatOps.maximumf (Host.absf (rows (m ((c : Thread nD τ).loc main_arg0)))) (constant S_ .f32 0xFF800000#32) reducesTo_S4096x4096_S4096_d1 h_S_ := by
    rw [← hR]
    exact congrArg₂ (fun a b => Host.reduce (FloatOps.maximumf (F := Ideal) (φ := .f32)) a b reducesTo_S4096x4096_S4096_d1 h_S_) rfl rfl
  subst hR'
  unfold quant4096 top4096
  generalize Host.reduce FloatOps.maximumf (Host.absf (rows (m ((c : Thread nD τ).loc main_arg0)))) (constant S_ .f32 0xFF800000#32) reducesTo_S4096x4096_S4096_d1 h_S_ = R'
  rfl

theorem first_wg (c : Dev nD) : V1 m ρ c main_call0_v23 = tern11008x4096 (m ((c : Thread nD τ).loc main_arg1)) := by
  show StableHlo.after hostOps0 (W0 m ρ c) (Proc.devRef .tc main_call0_v23) = _
  after_results_simp
  rfl

theorem first_wu (c : Dev nD) : V1 m ρ c main_call0_v33 = tern11008x4096 (m ((c : Thread nD τ).loc main_arg2)) := by
  show StableHlo.after hostOps0 (W0 m ρ c) (Proc.devRef .tc main_call0_v33) = _
  after_results_simp
  rfl

theorem first_wd (c : Dev nD) : V1 m ρ c main_call0_v43 = tern4096x11008 (m ((c : Thread nD τ).loc main_arg3)) := by
  show StableHlo.after hostOps0 (W0 m ρ c) (Proc.devRef .tc main_call0_v43) = _
  after_results_simp
  rfl

theorem first_sg (c : Dev nD) : V1 m ρ c main_call0_v45
    = back4096 (rows (m ((c : Thread nD τ).loc main_arg0))) (mean11008x4096 (m ((c : Thread nD τ).loc main_arg1))) := by
  show StableHlo.after hostOps0 (W0 m ρ c) (Proc.devRef .tc main_call0_v45) = _
  after_results_simp
  simp only [ofBuf_toBuf]
  generalize hR : Host.reduce (FloatOps.maximumf (F := Ideal) (φ := .f32)) _ _ reducesTo_S4096x4096_S4096_d1 h_S_ = R
  have hR' : R = Host.reduce FloatOps.maximumf (Host.absf (rows (m ((c : Thread nD τ).loc main_arg0)))) (constant S_ .f32 0xFF800000#32) reducesTo_S4096x4096_S4096_d1 h_S_ := by
    rw [← hR]
    exact congrArg₂ (fun a b => Host.reduce (FloatOps.maximumf (F := Ideal) (φ := .f32)) a b reducesTo_S4096x4096_S4096_d1 h_S_) rfl rfl
  subst hR'
  unfold back4096 top4096
  generalize Host.reduce FloatOps.maximumf (Host.absf (rows (m ((c : Thread nD τ).loc main_arg0)))) (constant S_ .f32 0xFF800000#32) reducesTo_S4096x4096_S4096_d1 h_S_ = R'
  rfl

theorem first_su (c : Dev nD) : V1 m ρ c main_call0_v47
    = back4096 (rows (m ((c : Thread nD τ).loc main_arg0))) (mean11008x4096 (m ((c : Thread nD τ).loc main_arg2))) := by
  show StableHlo.after hostOps0 (W0 m ρ c) (Proc.devRef .tc main_call0_v47) = _
  after_results_simp
  simp only [ofBuf_toBuf]
  generalize hR : Host.reduce (FloatOps.maximumf (F := Ideal) (φ := .f32)) _ _ reducesTo_S4096x4096_S4096_d1 h_S_ = R
  have hR' : R = Host.reduce FloatOps.maximumf (Host.absf (rows (m ((c : Thread nD τ).loc main_arg0)))) (constant S_ .f32 0xFF800000#32) reducesTo_S4096x4096_S4096_d1 h_S_ := by
    rw [← hR]
    exact congrArg₂ (fun a b => Host.reduce (FloatOps.maximumf (F := Ideal) (φ := .f32)) a b reducesTo_S4096x4096_S4096_d1 h_S_) rfl rfl
  subst hR'
  unfold back4096 top4096
  generalize Host.reduce FloatOps.maximumf (Host.absf (rows (m ((c : Thread nD τ).loc main_arg0)))) (constant S_ .f32 0xFF800000#32) reducesTo_S4096x4096_S4096_d1 h_S_ = R'
  rfl

theorem first_md (c : Dev nD) : V1 m ρ c main_call0_v37 = mean4096x11008 (m ((c : Thread nD τ).loc main_arg3)) := by
  show StableHlo.after hostOps0 (W0 m ρ c) (Proc.devRef .tc main_call0_v37) = _
  after_results_simp
  rfl

/-! ## The gated activations: the first grid's output -/

theorem gated_eq (c : Dev nD) : W2 m ρ c (Proc.devRef .tc main_call0_v48)
    = gatedOf (m ((c : Thread nD τ).loc main_arg0)) (m ((c : Thread nD τ).loc main_arg1)) (m ((c : Thread nD τ).loc main_arg2)) := by
  have h := W2_arr m ρ c 5
  rw [finalA (V1 m ρ) c, first_x, first_wg, first_wu, first_sg, first_su] at h
  exact h

/-! ## After the middle stretch -/

theorem mid_y (c : Dev nD) : V3 m ρ c main_call0_v61 = quant11008 (W2 m ρ c (Proc.devRef .tc main_call0_v48)) := by
  show StableHlo.after hostOps1 (W2 m ρ c) (Proc.devRef .tc main_call0_v61) = _
  after_results_simp
  simp only [ofBuf_toBuf]
  generalize hR : Host.reduce (FloatOps.maximumf (F := Ideal) (φ := .f32)) _ _ reducesTo_S4096x11008_S4096_d1 h_S_ = R
  have hR' : R = Host.reduce FloatOps.maximumf (Host.absf (F := Ideal) (W2 m ρ c (Proc.devRef .tc main_call0_v48) : FVec Ideal S4096x11008 .f32)) (constant S_ .f32 0xFF800000#32) reducesTo_S4096x11008_S4096_d1 h_S_ := by
    rw [← hR]
    exact congrArg₂ (fun a b => Host.reduce (FloatOps.maximumf (F := Ideal) (φ := .f32)) a b reducesTo_S4096x11008_S4096_d1 h_S_) rfl rfl
  subst hR'
  unfold quant11008 top11008
  generalize Host.reduce FloatOps.maximumf (Host.absf (F := Ideal) (W2 m ρ c (Proc.devRef .tc main_call0_v48) : FVec Ideal S4096x11008 .f32)) (constant S_ .f32 0xFF800000#32) reducesTo_S4096x11008_S4096_d1 h_S_ = R'
  rfl

theorem mid_sd (c : Dev nD) : V3 m ρ c main_call0_v63
    = back11008 (W2 m ρ c (Proc.devRef .tc main_call0_v48)) (W2 m ρ c (Proc.devRef .tc main_call0_v37)) := by
  show StableHlo.after hostOps1 (W2 m ρ c) (Proc.devRef .tc main_call0_v63) = _
  after_results_simp
  simp only [ofBuf_toBuf]
  generalize hR : Host.reduce (FloatOps.maximumf (F := Ideal) (φ := .f32)) _ _ reducesTo_S4096x11008_S4096_d1 h_S_ = R
  have hR' : R = Host.reduce FloatOps.maximumf (Host.absf (F := Ideal) (W2 m ρ c (Proc.devRef .tc main_call0_v48) : FVec Ideal S4096x11008 .f32)) (constant S_ .f32 0xFF800000#32) reducesTo_S4096x11008_S4096_d1 h_S_ := by
    rw [← hR]
    exact congrArg₂ (fun a b => Host.reduce (FloatOps.maximumf (F := Ideal) (φ := .f32)) a b reducesTo_S4096x11008_S4096_d1 h_S_) rfl rfl
  subst hR'
  unfold back11008 top11008
  generalize Host.reduce FloatOps.maximumf (Host.absf (F := Ideal) (W2 m ρ c (Proc.devRef .tc main_call0_v48) : FVec Ideal S4096x11008 .f32)) (constant S_ .f32 0xFF800000#32) reducesTo_S4096x11008_S4096_d1 h_S_ = R'
  rfl

theorem mid_wd (c : Dev nD) : V3 m ρ c main_call0_v43 = W2 m ρ c (Proc.devRef .tc main_call0_v43) := by
  show StableHlo.after hostOps1 (W2 m ρ c) (Proc.devRef .tc main_call0_v43) = _
  after_results_simp

/-- The first grid writes neither the quantized down weights nor their mean. -/
theorem kept_wd (c : Dev nD) : W2 m ρ c (Proc.devRef .tc main_call0_v43) = V1 m ρ c main_call0_v43 :=
  W2_of_ne m ρ c main_call0_v43 (by decide)
theorem kept_md (c : Dev nD) : W2 m ρ c (Proc.devRef .tc main_call0_v37) = V1 m ρ c main_call0_v37 :=
  W2_of_ne m ρ c main_call0_v37 (by decide)

/-! ## The result -/

theorem last_eq (c : Dev nD) : W5 m ρ c (Proc.devRef .tc main_v0) = unrows (W4 m ρ c (Proc.devRef .tc main_call0_v64)) := by
  show StableHlo.after hostOps2 (W4 m ρ c) (Proc.devRef .tc main_v0) = _
  after_results_simp
  rfl

theorem result_eq (c : Dev nD) : W5 m ρ c (Proc.devRef .tc main_v0)
    = resultOf (m ((c : Thread nD τ).loc main_arg0)) (m ((c : Thread nD τ).loc main_arg1)) (m ((c : Thread nD τ).loc main_arg2)) (m ((c : Thread nD τ).loc main_arg3)) := by
  have h := W4_arr m ρ c 3
  rw [finalB (V3 m ρ) c, mid_y, mid_sd, mid_wd, kept_wd, kept_md, first_wd, first_md, gated_eq] at h
  rw [last_eq, h]
  rfl

end Cert.KernelIdeal.Whole

end
-- ==== Proof.RefValue.lean ====
/- The reference's result buffer after its run IS the staged value of its arguments. Its 161 operations are read in
   two stretches, cut after the gated activations (the one value that later operations read five times): the first
   stretch leaves the gated activations of the arguments in their buffer and the down weights untouched; the second
   computes the result from those two. -/
import proofs.«153568_j18047452578029_2_alg».proof.Proof.RefRead

set_option maxRecDepth 131072
set_option maxHeartbeats 64400000

noncomputable section

namespace Cert.ReferenceIdeal.Halves

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The operations up to the gated activations. -/
abbrev upToGated : List (HloOp τ sig (Elt F)) :=
  [ unary main_arg0 main_v0 (Host.absf : (⟨S2x2048x4096, .f32⟩ : BufTy).Contents (Elt F) → (⟨S2x2048x4096, .f32⟩ : BufTy).Contents (Elt F)),
    nullary main_cst (constant S_ .f32 0xFF800000#32),
    binary main_v0 main_cst main_v1 ((fun x v => Host.reduce FloatOps.maximumf x v reducesTo_S2x2048x4096_S2x2048_d2 h_S_) : (⟨S2x2048x4096, .f32⟩ : BufTy).Contents (Elt F) → (⟨S_, .f32⟩ : BufTy).Contents (Elt F) → (⟨S2x2048, .f32⟩ : BufTy).Contents (Elt F)),
    unary main_v1 main_v2 (broadcastInDim S2x2048x1 ![0, 1] bcast_S2x2048_S2x2048x1_0_1 : (⟨S2x2048, .f32⟩ : BufTy).Contents (Elt F) → (⟨S2x2048x1, .f32⟩ : BufTy).Contents (Elt F)),
    nullary main_cst_0 (constant S_ .f32 0x3727C5AC#32),
    TRef.unary (TRef.of (T := ⟨S_, .f32⟩) main_cst_0) (TRef.of (T := ⟨S_, .f32⟩) main_call0_v0) id,
    TRef.unary (TRef.of (T := ⟨S_, .f32⟩) main_call0_v0) (TRef.of (T := ⟨S2x2048x1, .f32⟩) main_call0_v1) (broadcastInDim S2x2048x1 ![] bcast_S_S2x2048x1),
    TRef.binary (TRef.of (T := ⟨S2x2048x1, .f32⟩) main_call0_v1) (TRef.of (T := ⟨S2x2048x1, .f32⟩) main_v2) (TRef.of (T := ⟨S2x2048x1, .f32⟩) main_v3) maximumf,
    nullary main_cst_1 (constant S_ .f32 0x42FE0000#32),
    unary main_cst_1 main_v4 (broadcastInDim S2x2048x1 ![] bcast_S_S2x2048x1 : (⟨S_, .f32⟩ : BufTy).Contents (Elt F) → (⟨S2x2048x1, .f32⟩ : BufTy).Contents (Elt F)),
    binary main_v4 main_v3 main_v5 (Host.divf : (⟨S2x2048x1, .f32⟩ : BufTy).Contents (Elt F) → (⟨S2x2048x1, .f32⟩ : BufTy).Contents (Elt F) → (⟨S2x2048x1, .f32⟩ : BufTy).Contents (Elt F)),
    unary main_v5 main_v6 (broadcastInDim S2x2048x4096 ![0, 1, 2] bcast_S2x2048x1_S2x2048x4096_0_1_2 : (⟨S2x2048x1, .f32⟩ : BufTy).Contents (Elt F) → (⟨S2x2048x4096, .f32⟩ : BufTy).Contents (Elt F)),
    binary main_arg0 main_v6 main_v7 (mulf : (⟨S2x2048x4096, .f32⟩ : BufTy).Contents (Elt F) → (⟨S2x2048x4096, .f32⟩ : BufTy).Contents (Elt F) → (⟨S2x2048x4096, .f32⟩ : BufTy).Contents (Elt F)),
    TRef.unary (TRef.of (T := ⟨S2x2048x4096, .f32⟩) main_v7) (TRef.of (T := ⟨S2x2048x4096, .f32⟩) main_v8) Host.roundeven,
    nullary main_c (constantI S_ 32 4294967168#32),
    nullary main_c_2 (constantI S_ 32 127#32),
    TRef.unary (TRef.of (T := ⟨S_, .i32⟩) main_c) (TRef.of (T := ⟨S_, .f32⟩) main_call2_v0) (sitofp .f32),
    TRef.unary (TRef.of (T := ⟨S_, .f32⟩) main_call2_v0) (TRef.of (T := ⟨S2x2048x4096, .f32⟩) main_call2_v1) (broadcastInDim S2x2048x4096 ![] bcast_S_S2x2048x4096),
    TRef.binary (TRef.of (T := ⟨S2x2048x4096, .f32⟩) main_call2_v1) (TRef.of (T := ⟨S2x2048x4096, .f32⟩) main_v8) (TRef.of (T := ⟨S2x2048x4096, .f32⟩) main_call2_v2) maximumf,
    TRef.unary (TRef.of (T := ⟨S_, .i32⟩) main_c_2) (TRef.of (T := ⟨S_, .f32⟩) main_call2_v3) (sitofp .f32),
    TRef.unary (TRef.of (T := ⟨S_, .f32⟩) main_call2_v3) (TRef.of (T := ⟨S2x2048x4096, .f32⟩) main_call2_v4) (broadcastInDim S2x2048x4096 ![] bcast_S_S2x2048x4096),
    TRef.binary (TRef.of (T := ⟨S2x2048x4096, .f32⟩) main_call2_v4) (TRef.of (T := ⟨S2x2048x4096, .f32⟩) main_call2_v2) (TRef.of (T := ⟨S2x2048x4096, .f32⟩) main_v9) minimumf,
    unary main_v5 main_v10 (broadcastInDim S2x2048x4096 ![0, 1, 2] bcast_S2x2048x1_S2x2048x4096_0_1_2 : (⟨S2x2048x1, .f32⟩ : BufTy).Contents (Elt F) → (⟨S2x2048x4096, .f32⟩ : BufTy).Contents (Elt F)),
    binary main_v9 main_v10 main_v11 (Host.divf : (⟨S2x2048x4096, .f32⟩ : BufTy).Contents (Elt F) → (⟨S2x2048x4096, .f32⟩ : BufTy).Contents (Elt F) → (⟨S2x2048x4096, .f32⟩ : BufTy).Contents (Elt F)),
    binary main_v11 main_arg0 main_v12 (subf : (⟨S2x2048x4096, .f32⟩ : BufTy).Contents (Elt F) → (⟨S2x2048x4096, .f32⟩ : BufTy).Contents (Elt F) → (⟨S2x2048x4096, .f32⟩ : BufTy).Contents (Elt F)),
    binary main_arg0 main_v12 main_v13 (addf : (⟨S2x2048x4096, .f32⟩ : BufTy).Contents (Elt F) → (⟨S2x2048x4096, .f32⟩ : BufTy).Contents (Elt F) → (⟨S2x2048x4096, .f32⟩ : BufTy).Contents (Elt F)),
    unary main_arg1 main_v14 (Host.absf : (⟨S11008x4096, .f32⟩ : BufTy).Contents (Elt F) → (⟨S11008x4096, .f32⟩ : BufTy).Contents (Elt F)),
    nullary main_cst_3 (constant S_ .f32 0x00000000#32),
    binary main_v14 main_cst_3 main_v15 ((fun x v => Host.reduceAdd x v reducesTo_S11008x4096_S_d0_1 h_S_) : (⟨S11008x4096, .f32⟩ : BufTy).Contents (Elt F) → (⟨S_, .f32⟩ : BufTy).Contents (Elt F) → (⟨S_, .f32⟩ : BufTy).Contents (Elt F)),
    nullary main_cst_4 (constant S_ .f32 0x4C2C0000#32),
    binary main_v15 main_cst_4 main_v16 (Host.divf : (⟨S_, .f32⟩ : BufTy).Contents (Elt F) → (⟨S_, .f32⟩ : BufTy).Contents (Elt F) → (⟨S_, .f32⟩ : BufTy).Contents (Elt F)),
    nullary main_cst_5 (constant S_ .f32 0x3727C5AC#32),
    TRef.unary (TRef.of (T := ⟨S_, .f32⟩) main_cst_5) (TRef.of (T := ⟨S_, .f32⟩) main_call3_v0) id,
    TRef.binary (TRef.of (T := ⟨S_, .f32⟩) main_call3_v0) (TRef.of (T := ⟨S_, .f32⟩) main_v16) (TRef.of (T := ⟨S_, .f32⟩) main_v17) maximumf,
    nullary main_cst_6 (constant S_ .f32 0x3F800000#32),
    binary main_cst_6 main_v17 main_v18 (Host.divf : (⟨S_, .f32⟩ : BufTy).Contents (Elt F) → (⟨S_, .f32⟩ : BufTy).Contents (Elt F) → (⟨S_, .f32⟩ : BufTy).Contents (Elt F)),
    unary main_v18 main_v19 (broadcastInDim S11008x4096 ![] bcast_S_S11008x4096 : (⟨S_, .f32⟩ : BufTy).Contents (Elt F) → (⟨S11008x4096, .f32⟩ : BufTy).Contents (Elt F)),
    binary main_arg1 main_v19 main_v20 (mulf : (⟨S11008x4096, .f32⟩ : BufTy).Contents (Elt F) → (⟨S11008x4096, .f32⟩ : BufTy).Contents (Elt F) → (⟨S11008x4096, .f32⟩ : BufTy).Contents (Elt F)),
    TRef.unary (TRef.of (T := ⟨S11008x4096, .f32⟩) main_v20) (TRef.of (T := ⟨S11008x4096, .f32⟩) main_v21) Host.roundeven,
    nullary main_c_7 (constantI S_ 32 4294967295#32),
    nullary main_c_8 (constantI S_ 32 1#32),
    TRef.unary (TRef.of (T := ⟨S_, .i32⟩) main_c_7) (TRef.of (T := ⟨S_, .f32⟩) main_call5_v0) (sitofp .f32),
    TRef.unary (TRef.of (T := ⟨S_, .f32⟩) main_call5_v0) (TRef.of (T := ⟨S11008x4096, .f32⟩) main_call5_v1) (broadcastInDim S11008x4096 ![] bcast_S_S11008x4096),
    TRef.binary (TRef.of (T := ⟨S11008x4096, .f32⟩) main_call5_v1) (TRef.of (T := ⟨S11008x4096, .f32⟩) main_v21) (TRef.of (T := ⟨S11008x4096, .f32⟩) main_call5_v2) maximumf,
    TRef.unary (TRef.of (T := ⟨S_, .i32⟩) main_c_8) (TRef.of (T := ⟨S_, .f32⟩) main_call5_v3) (sitofp .f32),
    TRef.unary (TRef.of (T := ⟨S_, .f32⟩) main_call5_v3) (TRef.of (T := ⟨S11008x4096, .f32⟩) main_call5_v4) (broadcastInDim S11008x4096 ![] bcast_S_S11008x4096),
    TRef.binary (TRef.of (T := ⟨S11008x4096, .f32⟩) main_call5_v4) (TRef.of (T := ⟨S11008x4096, .f32⟩) main_call5_v2) (TRef.of (T := ⟨S11008x4096, .f32⟩) main_v22) minimumf,
    unary main_v18 main_v23 (broadcastInDim S11008x4096 ![] bcast_S_S11008x4096 : (⟨S_, .f32⟩ : BufTy).Contents (Elt F) → (⟨S11008x4096, .f32⟩ : BufTy).Contents (Elt F)),
    binary main_v22 main_v23 main_v24 (Host.divf : (⟨S11008x4096, .f32⟩ : BufTy).Contents (Elt F) → (⟨S11008x4096, .f32⟩ : BufTy).Contents (Elt F) → (⟨S11008x4096, .f32⟩ : BufTy).Contents (Elt F)),
    binary main_v24 main_arg1 main_v25 (subf : (⟨S11008x4096, .f32⟩ : BufTy).Contents (Elt F) → (⟨S11008x4096, .f32⟩ : BufTy).Contents (Elt F) → (⟨S11008x4096, .f32⟩ : BufTy).Contents (Elt F)),
    binary main_arg1 main_v25 main_v26 (addf : (⟨S11008x4096, .f32⟩ : BufTy).Contents (Elt F) → (⟨S11008x4096, .f32⟩ : BufTy).Contents (Elt F) → (⟨S11008x4096, .f32⟩ : BufTy).Contents (Elt F)),
    binary main_v13 main_v26 main_v27 ((fun l r => Host.dotGeneral dot_S2x2048x4096_S11008x4096_S2x2048x11008_2_1_01_0_n_n none l r) : (⟨S2x2048x4096, .f32⟩ : BufTy).Contents (Elt F) → (⟨S11008x4096, .f32⟩ : BufTy).Contents (Elt F) → (⟨S2x2048x11008, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S2x2048x11008, .f32⟩) main_call6_v0) (broadcastInDim S2x2048x11008 ![] bcast_S_S2x2048x11008),
    TRef.binary (TRef.of (T := ⟨S2x2048x11008, .f32⟩) main_v27) (TRef.of (T := ⟨S2x2048x11008, .f32⟩) main_call6_v0) (TRef.of (T := ⟨S2x2048x11008, .f32⟩) main_v28) maximumf,
    binary main_v28 main_v28 main_v29 (mulf : (⟨S2x2048x11008, .f32⟩ : BufTy).Contents (Elt F) → (⟨S2x2048x11008, .f32⟩ : BufTy).Contents (Elt F) → (⟨S2x2048x11008, .f32⟩ : BufTy).Contents (Elt F)),
    unary main_arg0 main_v30 (Host.absf : (⟨S2x2048x4096, .f32⟩ : BufTy).Contents (Elt F) → (⟨S2x2048x4096, .f32⟩ : BufTy).Contents (Elt F)),
    nullary main_cst_9 (constant S_ .f32 0xFF800000#32),
    binary main_v30 main_cst_9 main_v31 ((fun x v => Host.reduce FloatOps.maximumf x v reducesTo_S2x2048x4096_S2x2048_d2 h_S_) : (⟨S2x2048x4096, .f32⟩ : BufTy).Contents (Elt F) → (⟨S_, .f32⟩ : BufTy).Contents (Elt F) → (⟨S2x2048, .f32⟩ : BufTy).Contents (Elt F)),
    unary main_v31 main_v32 (broadcastInDim S2x2048x1 ![0, 1] bcast_S2x2048_S2x2048x1_0_1 : (⟨S2x2048, .f32⟩ : BufTy).Contents (Elt F) → (⟨S2x2048x1, .f32⟩ : BufTy).Contents (Elt F)),
    nullary main_cst_10 (constant S_ .f32 0x3727C5AC#32),
    TRef.unary (TRef.of (T := ⟨S_, .f32⟩) main_cst_10) (TRef.of (T := ⟨S_, .f32⟩) main_call7_v0) id,
    TRef.unary (TRef.of (T := ⟨S_, .f32⟩) main_call7_v0) (TRef.of (T := ⟨S2x2048x1, .f32⟩) main_call7_v1) (broadcastInDim S2x2048x1 ![] bcast_S_S2x2048x1),
    TRef.binary (TRef.of (T := ⟨S2x2048x1, .f32⟩) main_call7_v1) (TRef.of (T := ⟨S2x2048x1, .f32⟩) main_v32) (TRef.of (T := ⟨S2x2048x1, .f32⟩) main_v33) maximumf,
    nullary main_cst_11 (constant S_ .f32 0x42FE0000#32),
    unary main_cst_11 main_v34 (broadcastInDim S2x2048x1 ![] bcast_S_S2x2048x1 : (⟨S_, .f32⟩ : BufTy).Contents (Elt F) → (⟨S2x2048x1, .f32⟩ : BufTy).Contents (Elt F)),
    binary main_v34 main_v33 main_v35 (Host.divf : (⟨S2x2048x1, .f32⟩ : BufTy).Contents (Elt F) → (⟨S2x2048x1, .f32⟩ : BufTy).Contents (Elt F) → (⟨S2x2048x1, .f32⟩ : BufTy).Contents (Elt F)),
    unary main_v35 main_v36 (broadcastInDim S2x2048x4096 ![0, 1, 2] bcast_S2x2048x1_S2x2048x4096_0_1_2 : (⟨S2x2048x1, .f32⟩ : BufTy).Contents (Elt F) → (⟨S2x2048x4096, .f32⟩ : BufTy).Contents (Elt F)),
    binary main_arg0 main_v36 main_v37 (mulf : (⟨S2x2048x4096, .f32⟩ : BufTy).Contents (Elt F) → (⟨S2x2048x4096, .f32⟩ : BufTy).Contents (Elt F) → (⟨S2x2048x4096, .f32⟩ : BufTy).Contents (Elt F)),
    TRef.unary (TRef.of (T := ⟨S2x2048x4096, .f32⟩) main_v37) (TRef.of (T := ⟨S2x2048x4096, .f32⟩) main_v38) Host.roundeven,
    nullary main_c_12 (constantI S_ 32 4294967168#32),
    nullary main_c_13 (constantI S_ 32 127#32),
    TRef.unary (TRef.of (T := ⟨S_, .i32⟩) main_c_12) (TRef.of (T := ⟨S_, .f32⟩) main_call9_v0) (sitofp .f32),
    TRef.unary (TRef.of (T := ⟨S_, .f32⟩) main_call9_v0) (TRef.of (T := ⟨S2x2048x4096, .f32⟩) main_call9_v1) (broadcastInDim S2x2048x4096 ![] bcast_S_S2x2048x4096),
    TRef.binary (TRef.of (T := ⟨S2x2048x4096, .f32⟩) main_call9_v1) (TRef.of (T := ⟨S2x2048x4096, .f32⟩) main_v38) (TRef.of (T := ⟨S2x2048x4096, .f32⟩) main_call9_v2) maximumf,
    TRef.unary (TRef.of (T := ⟨S_, .i32⟩) main_c_13) (TRef.of (T := ⟨S_, .f32⟩) main_call9_v3) (sitofp .f32),
    TRef.unary (TRef.of (T := ⟨S_, .f32⟩) main_call9_v3) (TRef.of (T := ⟨S2x2048x4096, .f32⟩) main_call9_v4) (broadcastInDim S2x2048x4096 ![] bcast_S_S2x2048x4096),
    TRef.binary (TRef.of (T := ⟨S2x2048x4096, .f32⟩) main_call9_v4) (TRef.of (T := ⟨S2x2048x4096, .f32⟩) main_call9_v2) (TRef.of (T := ⟨S2x2048x4096, .f32⟩) main_v39) minimumf,
    unary main_v35 main_v40 (broadcastInDim S2x2048x4096 ![0, 1, 2] bcast_S2x2048x1_S2x2048x4096_0_1_2 : (⟨S2x2048x1, .f32⟩ : BufTy).Contents (Elt F) → (⟨S2x2048x4096, .f32⟩ : BufTy).Contents (Elt F)),
    binary main_v39 main_v40 main_v41 (Host.divf : (⟨S2x2048x4096, .f32⟩ : BufTy).Contents (Elt F) → (⟨S2x2048x4096, .f32⟩ : BufTy).Contents (Elt F) → (⟨S2x2048x4096, .f32⟩ : BufTy).Contents (Elt F)),
    binary main_v41 main_arg0 main_v42 (subf : (⟨S2x2048x4096, .f32⟩ : BufTy).Contents (Elt F) → (⟨S2x2048x4096, .f32⟩ : BufTy).Contents (Elt F) → (⟨S2x2048x4096, .f32⟩ : BufTy).Contents (Elt F)),
    binary main_arg0 main_v42 main_v43 (addf : (⟨S2x2048x4096, .f32⟩ : BufTy).Contents (Elt F) → (⟨S2x2048x4096, .f32⟩ : BufTy).Contents (Elt F) → (⟨S2x2048x4096, .f32⟩ : BufTy).Contents (Elt F)),
    unary main_arg2 main_v44 (Host.absf : (⟨S11008x4096, .f32⟩ : BufTy).Contents (Elt F) → (⟨S11008x4096, .f32⟩ : BufTy).Contents (Elt F)),
    nullary main_cst_14 (constant S_ .f32 0x00000000#32),
    binary main_v44 main_cst_14 main_v45 ((fun x v => Host.reduceAdd x v reducesTo_S11008x4096_S_d0_1 h_S_) : (⟨S11008x4096, .f32⟩ : BufTy).Contents (Elt F) → (⟨S_, .f32⟩ : BufTy).Contents (Elt F) → (⟨S_, .f32⟩ : BufTy).Contents (Elt F)),
    nullary main_cst_15 (constant S_ .f32 0x4C2C0000#32),
    binary main_v45 main_cst_15 main_v46 (Host.divf : (⟨S_, .f32⟩ : BufTy).Contents (Elt F) → (⟨S_, .f32⟩ : BufTy).Contents (Elt F) → (⟨S_, .f32⟩ : BufTy).Contents (Elt F)),
    nullary main_cst_16 (constant S_ .f32 0x3727C5AC#32),
    TRef.unary (TRef.of (T := ⟨S_, .f32⟩) main_cst_16) (TRef.of (T := ⟨S_, .f32⟩) main_call10_v0) id,
    TRef.binary (TRef.of (T := ⟨S_, .f32⟩) main_call10_v0) (TRef.of (T := ⟨S_, .f32⟩) main_v46) (TRef.of (T := ⟨S_, .f32⟩) main_v47) maximumf,
    nullary main_cst_17 (constant S_ .f32 0x3F800000#32),
    binary main_cst_17 main_v47 main_v48 (Host.divf : (⟨S_, .f32⟩ : BufTy).Contents (Elt F) → (⟨S_, .f32⟩ : BufTy).Contents (Elt F) → (⟨S_, .f32⟩ : BufTy).Contents (Elt F)),
    unary main_v48 main_v49 (broadcastInDim S11008x4096 ![] bcast_S_S11008x4096 : (⟨S_, .f32⟩ : BufTy).Contents (Elt F) → (⟨S11008x4096, .f32⟩ : BufTy).Contents (Elt F)),
    binary main_arg2 main_v49 main_v50 (mulf : (⟨S11008x4096, .f32⟩ : BufTy).Contents (Elt F) → (⟨S11008x4096, .f32⟩ : BufTy).Contents (Elt F) → (⟨S11008x4096, .f32⟩ : BufTy).Contents (Elt F)),
    TRef.unary (TRef.of (T := ⟨S11008x4096, .f32⟩) main_v50) (TRef.of (T := ⟨S11008x4096, .f32⟩) main_v51) Host.roundeven,
    nullary main_c_18 (constantI S_ 32 4294967295#32),
    nullary main_c_19 (constantI S_ 32 1#32),
    TRef.unary (TRef.of (T := ⟨S_, .i32⟩) main_c_18) (TRef.of (T := ⟨S_, .f32⟩) main_call12_v0) (sitofp .f32),
    TRef.unary (TRef.of (T := ⟨S_, .f32⟩) main_call12_v0) (TRef.of (T := ⟨S11008x4096, .f32⟩) main_call12_v1) (broadcastInDim S11008x4096 ![] bcast_S_S11008x4096),
    TRef.binary (TRef.of (T := ⟨S11008x4096, .f32⟩) main_call12_v1) (TRef.of (T := ⟨S11008x4096, .f32⟩) main_v51) (TRef.of (T := ⟨S11008x4096, .f32⟩) main_call12_v2) maximumf,
    TRef.unary (TRef.of (T := ⟨S_, .i32⟩) main_c_19) (TRef.of (T := ⟨S_, .f32⟩) main_call12_v3) (sitofp .f32),
    TRef.unary (TRef.of (T := ⟨S_, .f32⟩) main_call12_v3) (TRef.of (T := ⟨S11008x4096, .f32⟩) main_call12_v4) (broadcastInDim S11008x4096 ![] bcast_S_S11008x4096),
    TRef.binary (TRef.of (T := ⟨S11008x4096, .f32⟩) main_call12_v4) (TRef.of (T := ⟨S11008x4096, .f32⟩) main_call12_v2) (TRef.of (T := ⟨S11008x4096, .f32⟩) main_v52) minimumf,
    unary main_v48 main_v53 (broadcastInDim S11008x4096 ![] bcast_S_S11008x4096 : (⟨S_, .f32⟩ : BufTy).Contents (Elt F) → (⟨S11008x4096, .f32⟩ : BufTy).Contents (Elt F)),
    binary main_v52 main_v53 main_v54 (Host.divf : (⟨S11008x4096, .f32⟩ : BufTy).Contents (Elt F) → (⟨S11008x4096, .f32⟩ : BufTy).Contents (Elt F) → (⟨S11008x4096, .f32⟩ : BufTy).Contents (Elt F)),
    binary main_v54 main_arg2 main_v55 (subf : (⟨S11008x4096, .f32⟩ : BufTy).Contents (Elt F) → (⟨S11008x4096, .f32⟩ : BufTy).Contents (Elt F) → (⟨S11008x4096, .f32⟩ : BufTy).Contents (Elt F)),
    binary main_arg2 main_v55 main_v56 (addf : (⟨S11008x4096, .f32⟩ : BufTy).Contents (Elt F) → (⟨S11008x4096, .f32⟩ : BufTy).Contents (Elt F) → (⟨S11008x4096, .f32⟩ : BufTy).Contents (Elt F)),
    binary main_v43 main_v56 main_v57 ((fun l r => Host.dotGeneral dot_S2x2048x4096_S11008x4096_S2x2048x11008_2_1_01_0_n_n none l r) : (⟨S2x2048x4096, .f32⟩ : BufTy).Contents (Elt F) → (⟨S11008x4096, .f32⟩ : BufTy).Contents (Elt F) → (⟨S2x2048x11008, .f32⟩ : BufTy).Contents (Elt F)),
    binary main_v29 main_v57 main_v58 (mulf : (⟨S2x2048x11008, .f32⟩ : BufTy).Contents (Elt F) → (⟨S2x2048x11008, .f32⟩ : BufTy).Contents (Elt F) → (⟨S2x2048x11008, .f32⟩ : BufTy).Contents (Elt F)) ]

/-- The operations after them. -/
abbrev fromGated : List (HloOp τ sig (Elt F)) :=
  [ unary main_v58 main_v59 (Host.absf : (⟨S2x2048x11008, .f32⟩ : BufTy).Contents (Elt F) → (⟨S2x2048x11008, .f32⟩ : BufTy).Contents (Elt F)),
    nullary main_cst_20 (constant S_ .f32 0xFF800000#32),
    binary main_v59 main_cst_20 main_v60 ((fun x v => Host.reduce FloatOps.maximumf x v reducesTo_S2x2048x11008_S2x2048_d2 h_S_) : (⟨S2x2048x11008, .f32⟩ : BufTy).Contents (Elt F) → (⟨S_, .f32⟩ : BufTy).Contents (Elt F) → (⟨S2x2048, .f32⟩ : BufTy).Contents (Elt F)),
    unary main_v60 main_v61 (broadcastInDim S2x2048x1 ![0, 1] bcast_S2x2048_S2x2048x1_0_1 : (⟨S2x2048, .f32⟩ : BufTy).Contents (Elt F) → (⟨S2x2048x1, .f32⟩ : BufTy).Contents (Elt F)),
    nullary main_cst_21 (constant S_ .f32 0x3727C5AC#32),
    TRef.unary (TRef.of (T := ⟨S_, .f32⟩) main_cst_21) (TRef.of (T := ⟨S_, .f32⟩) main_call13_v0) id,
    TRef.unary (TRef.of (T := ⟨S_, .f32⟩) main_call13_v0) (TRef.of (T := ⟨S2x2048x1, .f32⟩) main_call13_v1) (broadcastInDim S2x2048x1 ![] bcast_S_S2x2048x1),
    TRef.binary (TRef.of (T := ⟨S2x2048x1, .f32⟩) main_call13_v1) (TRef.of (T := ⟨S2x2048x1, .f32⟩) main_v61) (TRef.of (T := ⟨S2x2048x1, .f32⟩) main_v62) maximumf,
    nullary main_cst_22 (constant S_ .f32 0x42FE0000#32),
    unary main_cst_22 main_v63 (broadcastInDim S2x2048x1 ![] bcast_S_S2x2048x1 : (⟨S_, .f32⟩ : BufTy).Contents (Elt F) → (⟨S2x2048x1, .f32⟩ : BufTy).Contents (Elt F)),
    binary main_v63 main_v62 main_v64 (Host.divf : (⟨S2x2048x1, .f32⟩ : BufTy).Contents (Elt F) → (⟨S2x2048x1, .f32⟩ : BufTy).Contents (Elt F) → (⟨S2x2048x1, .f32⟩ : BufTy).Contents (Elt F)),
    unary main_v64 main_v65 (broadcastInDim S2x2048x11008 ![0, 1, 2] bcast_S2x2048x1_S2x2048x11008_0_1_2 : (⟨S2x2048x1, .f32⟩ : BufTy).Contents (Elt F) → (⟨S2x2048x11008, .f32⟩ : BufTy).Contents (Elt F)),
    binary main_v58 main_v65 main_v66 (mulf : (⟨S2x2048x11008, .f32⟩ : BufTy).Contents (Elt F) → (⟨S2x2048x11008, .f32⟩ : BufTy).Contents (Elt F) → (⟨S2x2048x11008, .f32⟩ : BufTy).Contents (Elt F)),
    TRef.unary (TRef.of (T := ⟨S2x2048x11008, .f32⟩) main_v66) (TRef.of (T := ⟨S2x2048x11008, .f32⟩) main_v67) Host.roundeven,
    nullary main_c_23 (constantI S_ 32 4294967168#32),
    nullary main_c_24 (constantI S_ 32 127#32),
    TRef.unary (TRef.of (T := ⟨S_, .i32⟩) main_c_23) (TRef.of (T := ⟨S_, .f32⟩) main_call15_v0) (sitofp .f32),
    TRef.unary (TRef.of (T := ⟨S_, .f32⟩) main_call15_v0) (TRef.of (T := ⟨S2x2048x11008, .f32⟩) main_call15_v1) (broadcastInDim S2x2048x11008 ![] bcast_S_S2x2048x11008),
    TRef.binary (TRef.of (T := ⟨S2x2048x11008, .f32⟩) main_call15_v1) (TRef.of (T := ⟨S2x2048x11008, .f32⟩) main_v67) (TRef.of (T := ⟨S2x2048x11008, .f32⟩) main_call15_v2) maximumf,
    TRef.unary (TRef.of (T := ⟨S_, .i32⟩) main_c_24) (TRef.of (T := ⟨S_, .f32⟩) main_call15_v3) (sitofp .f32),
    TRef.unary (TRef.of (T := ⟨S_, .f32⟩) main_call15_v3) (TRef.of (T := ⟨S2x2048x11008, .f32⟩) main_call15_v4) (broadcastInDim S2x2048x11008 ![] bcast_S_S2x2048x11008),
    TRef.binary (TRef.of (T := ⟨S2x2048x11008, .f32⟩) main_call15_v4) (TRef.of (T := ⟨S2x2048x11008, .f32⟩) main_call15_v2) (TRef.of (T := ⟨S2x2048x11008, .f32⟩) main_v68) minimumf,
    unary main_v64 main_v69 (broadcastInDim S2x2048x11008 ![0, 1, 2] bcast_S2x2048x1_S2x2048x11008_0_1_2 : (⟨S2x2048x1, .f32⟩ : BufTy).Contents (Elt F) → (⟨S2x2048x11008, .f32⟩ : BufTy).Contents (Elt F)),
    binary main_v68 main_v69 main_v70 (Host.divf : (⟨S2x2048x11008, .f32⟩ : BufTy).Contents (Elt F) → (⟨S2x2048x11008, .f32⟩ : BufTy).Contents (Elt F) → (⟨S2x2048x11008, .f32⟩ : BufTy).Contents (Elt F)),
    binary main_v70 main_v58 main_v71 (subf : (⟨S2x2048x11008, .f32⟩ : BufTy).Contents (Elt F) → (⟨S2x2048x11008, .f32⟩ : BufTy).Contents (Elt F) → (⟨S2x2048x11008, .f32⟩ : BufTy).Contents (Elt F)),
    binary main_v58 main_v71 main_v72 (addf : (⟨S2x2048x11008, .f32⟩ : BufTy).Contents (Elt F) → (⟨S2x2048x11008, .f32⟩ : BufTy).Contents (Elt F) → (⟨S2x2048x11008, .f32⟩ : BufTy).Contents (Elt F)),
    unary main_arg3 main_v73 (Host.absf : (⟨S4096x11008, .f32⟩ : BufTy).Contents (Elt F) → (⟨S4096x11008, .f32⟩ : BufTy).Contents (Elt F)),
    nullary main_cst_25 (constant S_ .f32 0x00000000#32),
    binary main_v73 main_cst_25 main_v74 ((fun x v => Host.reduceAdd x v reducesTo_S4096x11008_S_d0_1 h_S_) : (⟨S4096x11008, .f32⟩ : BufTy).Contents (Elt F) → (⟨S_, .f32⟩ : BufTy).Contents (Elt F) → (⟨S_, .f32⟩ : BufTy).Contents (Elt F)),
    nullary main_cst_26 (constant S_ .f32 0x4C2C0000#32),
    binary main_v74 main_cst_26 main_v75 (Host.divf : (⟨S_, .f32⟩ : BufTy).Contents (Elt F) → (⟨S_, .f32⟩ : BufTy).Contents (Elt F) → (⟨S_, .f32⟩ : BufTy).Contents (Elt F)),
    nullary main_cst_27 (constant S_ .f32 0x3727C5AC#32),
    TRef.unary (TRef.of (T := ⟨S_, .f32⟩) main_cst_27) (TRef.of (T := ⟨S_, .f32⟩) main_call16_v0) id,
    TRef.binary (TRef.of (T := ⟨S_, .f32⟩) main_call16_v0) (TRef.of (T := ⟨S_, .f32⟩) main_v75) (TRef.of (T := ⟨S_, .f32⟩) main_v76) maximumf,
    nullary main_cst_28 (constant S_ .f32 0x3F800000#32),
    binary main_cst_28 main_v76 main_v77 (Host.divf : (⟨S_, .f32⟩ : BufTy).Contents (Elt F) → (⟨S_, .f32⟩ : BufTy).Contents (Elt F) → (⟨S_, .f32⟩ : BufTy).Contents (Elt F)),
    unary main_v77 main_v78 (broadcastInDim S4096x11008 ![] bcast_S_S4096x11008 : (⟨S_, .f32⟩ : BufTy).Contents (Elt F) → (⟨S4096x11008, .f32⟩ : BufTy).Contents (Elt F)),
    binary main_arg3 main_v78 main_v79 (mulf : (⟨S4096x11008, .f32⟩ : BufTy).Contents (Elt F) → (⟨S4096x11008, .f32⟩ : BufTy).Contents (Elt F) → (⟨S4096x11008, .f32⟩ : BufTy).Contents (Elt F)),
    TRef.unary (TRef.of (T := ⟨S4096x11008, .f32⟩) main_v79) (TRef.of (T := ⟨S4096x11008, .f32⟩) main_v80) Host.roundeven,
    nullary main_c_29 (constantI S_ 32 4294967295#32),
    nullary main_c_30 (constantI S_ 32 1#32),
    TRef.unary (TRef.of (T := ⟨S_, .i32⟩) main_c_29) (TRef.of (T := ⟨S_, .f32⟩) main_call18_v0) (sitofp .f32),
    TRef.unary (TRef.of (T := ⟨S_, .f32⟩) main_call18_v0) (TRef.of (T := ⟨S4096x11008, .f32⟩) main_call18_v1) (broadcastInDim S4096x11008 ![] bcast_S_S4096x11008),
    TRef.binary (TRef.of (T := ⟨S4096x11008, .f32⟩) main_call18_v1) (TRef.of (T := ⟨S4096x11008, .f32⟩) main_v80) (TRef.of (T := ⟨S4096x11008, .f32⟩) main_call18_v2) maximumf,
    TRef.unary (TRef.of (T := ⟨S_, .i32⟩) main_c_30) (TRef.of (T := ⟨S_, .f32⟩) main_call18_v3) (sitofp .f32),
    TRef.unary (TRef.of (T := ⟨S_, .f32⟩) main_call18_v3) (TRef.of (T := ⟨S4096x11008, .f32⟩) main_call18_v4) (broadcastInDim S4096x11008 ![] bcast_S_S4096x11008),
    TRef.binary (TRef.of (T := ⟨S4096x11008, .f32⟩) main_call18_v4) (TRef.of (T := ⟨S4096x11008, .f32⟩) main_call18_v2) (TRef.of (T := ⟨S4096x11008, .f32⟩) main_v81) minimumf,
    unary main_v77 main_v82 (broadcastInDim S4096x11008 ![] bcast_S_S4096x11008 : (⟨S_, .f32⟩ : BufTy).Contents (Elt F) → (⟨S4096x11008, .f32⟩ : BufTy).Contents (Elt F)),
    binary main_v81 main_v82 main_v83 (Host.divf : (⟨S4096x11008, .f32⟩ : BufTy).Contents (Elt F) → (⟨S4096x11008, .f32⟩ : BufTy).Contents (Elt F) → (⟨S4096x11008, .f32⟩ : BufTy).Contents (Elt F)),
    binary main_v83 main_arg3 main_v84 (subf : (⟨S4096x11008, .f32⟩ : BufTy).Contents (Elt F) → (⟨S4096x11008, .f32⟩ : BufTy).Contents (Elt F) → (⟨S4096x11008, .f32⟩ : BufTy).Contents (Elt F)),
    binary main_arg3 main_v84 main_v85 (addf : (⟨S4096x11008, .f32⟩ : BufTy).Contents (Elt F) → (⟨S4096x11008, .f32⟩ : BufTy).Contents (Elt F) → (⟨S4096x11008, .f32⟩ : BufTy).Contents (Elt F)),
    binary main_v72 main_v85 main_v86 ((fun l r => Host.dotGeneral dot_S2x2048x11008_S4096x11008_S2x2048x4096_2_1_01_0_n_n none l r) : (⟨S2x2048x11008, .f32⟩ : BufTy).Contents (Elt F) → (⟨S4096x11008, .f32⟩ : BufTy).Contents (Elt F) → (⟨S2x2048x4096, .f32⟩ : BufTy).Contents (Elt F)) ]

theorem ops_halves : (ops : List (HloOp τ sig (Elt F))) = upToGated ++ fromGated := rfl

/-- Running two stretches one after the other is running their concatenation. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih _

/-- Contents carried to a buffer's type and back are the contents. -/
theorem ofBuf_toBuf {T : BufTy} (x : TRef sig T) (v : T.Contents (Elt Ideal)) : x.ofBuf (x.toBuf v) = v := by
  obtain ⟨r, rfl, _, _⟩ := x
  rfl

/-! At a literal buffer the carrying of contents to or from the buffer's type is the identity: the buffer's type IS
    the value's type, by evaluation of the signature. One instance per buffer at the boundary of a called function. -/
theorem toBuf_main_v28 (p1 : main_v28.ty = ⟨S2x2048x11008, .f32⟩) (p2 : main_v28.space ≠ .host) (p3 : main_v28.isScoped = false) (v : (⟨S2x2048x11008, .f32⟩ : BufTy).Contents (Elt Ideal)) :
    (TRef.of (T := ⟨S2x2048x11008, .f32⟩) main_v28 p1 p2 p3).toBuf v = v := rfl
theorem ofBuf_main_v27 (p1 : main_v27.ty = ⟨S2x2048x11008, .f32⟩) (p2 : main_v27.space ≠ .host) (p3 : main_v27.isScoped = false) (v : (⟨S2x2048x11008, .f32⟩ : BufTy).Contents (Elt Ideal)) :
    (TRef.of (T := ⟨S2x2048x11008, .f32⟩) main_v27 p1 p2 p3).ofBuf v = v := rfl
theorem toBuf_main_v9 (p1 : main_v9.ty = ⟨S2x2048x4096, .f32⟩) (p2 : main_v9.space ≠ .host) (p3 : main_v9.isScoped = false) (v : (⟨S2x2048x4096, .f32⟩ : BufTy).Contents (Elt Ideal)) :
    (TRef.of (T := ⟨S2x2048x4096, .f32⟩) main_v9 p1 p2 p3).toBuf v = v := rfl
theorem ofBuf_main_c_2 (p1 : main_c_2.ty = ⟨S_, .i32⟩) (p2 : main_c_2.space ≠ .host) (p3 : main_c_2.isScoped = false) (v : (⟨S_, .i32⟩ : BufTy).Contents (Elt Ideal)) :
    (TRef.of (T := ⟨S_, .i32⟩) main_c_2 p1 p2 p3).ofBuf v = v := rfl
theorem ofBuf_main_c (p1 : main_c.ty = ⟨S_, .i32⟩) (p2 : main_c.space ≠ .host) (p3 : main_c.isScoped = false) (v : (⟨S_, .i32⟩ : BufTy).Contents (Elt Ideal)) :
    (TRef.of (T := ⟨S_, .i32⟩) main_c p1 p2 p3).ofBuf v = v := rfl
theorem ofBuf_main_v7 (p1 : main_v7.ty = ⟨S2x2048x4096, .f32⟩) (p2 : main_v7.space ≠ .host) (p3 : main_v7.isScoped = false) (v : (⟨S2x2048x4096, .f32⟩ : BufTy).Contents (Elt Ideal)) :
    (TRef.of (T := ⟨S2x2048x4096, .f32⟩) main_v7 p1 p2 p3).ofBuf v = v := rfl
theorem toBuf_main_v3 (p1 : main_v3.ty = ⟨S2x2048x1, .f32⟩) (p2 : main_v3.space ≠ .host) (p3 : main_v3.isScoped = false) (v : (⟨S2x2048x1, .f32⟩ : BufTy).Contents (Elt Ideal)) :
    (TRef.of (T := ⟨S2x2048x1, .f32⟩) main_v3 p1 p2 p3).toBuf v = v := rfl
theorem ofBuf_main_cst_0 (p1 : main_cst_0.ty = ⟨S_, .f32⟩) (p2 : main_cst_0.space ≠ .host) (p3 : main_cst_0.isScoped = false) (v : (⟨S_, .f32⟩ : BufTy).Contents (Elt Ideal)) :
    (TRef.of (T := ⟨S_, .f32⟩) main_cst_0 p1 p2 p3).ofBuf v = v := rfl
theorem ofBuf_main_v2 (p1 : main_v2.ty = ⟨S2x2048x1, .f32⟩) (p2 : main_v2.space ≠ .host) (p3 : main_v2.isScoped = false) (v : (⟨S2x2048x1, .f32⟩ : BufTy).Contents (Elt Ideal)) :
    (TRef.of (T := ⟨S2x2048x1, .f32⟩) main_v2 p1 p2 p3).ofBuf v = v := rfl
theorem toBuf_main_v22 (p1 : main_v22.ty = ⟨S11008x4096, .f32⟩) (p2 : main_v22.space ≠ .host) (p3 : main_v22.isScoped = false) (v : (⟨S11008x4096, .f32⟩ : BufTy).Contents (Elt Ideal)) :
    (TRef.of (T := ⟨S11008x4096, .f32⟩) main_v22 p1 p2 p3).toBuf v = v := rfl
theorem ofBuf_main_c_8 (p1 : main_c_8.ty = ⟨S_, .i32⟩) (p2 : main_c_8.space ≠ .host) (p3 : main_c_8.isScoped = false) (v : (⟨S_, .i32⟩ : BufTy).Contents (Elt Ideal)) :
    (TRef.of (T := ⟨S_, .i32⟩) main_c_8 p1 p2 p3).ofBuf v = v := rfl
theorem ofBuf_main_c_7 (p1 : main_c_7.ty = ⟨S_, .i32⟩) (p2 : main_c_7.space ≠ .host) (p3 : main_c_7.isScoped = false) (v : (⟨S_, .i32⟩ : BufTy).Contents (Elt Ideal)) :
    (TRef.of (T := ⟨S_, .i32⟩) main_c_7 p1 p2 p3).ofBuf v = v := rfl
theorem ofBuf_main_v20 (p1 : main_v20.ty = ⟨S11008x4096, .f32⟩) (p2 : main_v20.space ≠ .host) (p3 : main_v20.isScoped = false) (v : (⟨S11008x4096, .f32⟩ : BufTy).Contents (Elt Ideal)) :
    (TRef.of (T := ⟨S11008x4096, .f32⟩) main_v20 p1 p2 p3).ofBuf v = v := rfl
theorem toBuf_main_v17 (p1 : main_v17.ty = ⟨S_, .f32⟩) (p2 : main_v17.space ≠ .host) (p3 : main_v17.isScoped = false) (v : (⟨S_, .f32⟩ : BufTy).Contents (Elt Ideal)) :
    (TRef.of (T := ⟨S_, .f32⟩) main_v17 p1 p2 p3).toBuf v = v := rfl
theorem ofBuf_main_cst_5 (p1 : main_cst_5.ty = ⟨S_, .f32⟩) (p2 : main_cst_5.space ≠ .host) (p3 : main_cst_5.isScoped = false) (v : (⟨S_, .f32⟩ : BufTy).Contents (Elt Ideal)) :
    (TRef.of (T := ⟨S_, .f32⟩) main_cst_5 p1 p2 p3).ofBuf v = v := rfl
theorem ofBuf_main_v16 (p1 : main_v16.ty = ⟨S_, .f32⟩) (p2 : main_v16.space ≠ .host) (p3 : main_v16.isScoped = false) (v : (⟨S_, .f32⟩ : BufTy).Contents (Elt Ideal)) :
    (TRef.of (T := ⟨S_, .f32⟩) main_v16 p1 p2 p3).ofBuf v = v := rfl
theorem toBuf_main_v39 (p1 : main_v39.ty = ⟨S2x2048x4096, .f32⟩) (p2 : main_v39.space ≠ .host) (p3 : main_v39.isScoped = false) (v : (⟨S2x2048x4096, .f32⟩ : BufTy).Contents (Elt Ideal)) :
    (TRef.of (T := ⟨S2x2048x4096, .f32⟩) main_v39 p1 p2 p3).toBuf v = v := rfl
theorem ofBuf_main_c_13 (p1 : main_c_13.ty = ⟨S_, .i32⟩) (p2 : main_c_13.space ≠ .host) (p3 : main_c_13.isScoped = false) (v : (⟨S_, .i32⟩ : BufTy).Contents (Elt Ideal)) :
    (TRef.of (T := ⟨S_, .i32⟩) main_c_13 p1 p2 p3).ofBuf v = v := rfl
theorem ofBuf_main_c_12 (p1 : main_c_12.ty = ⟨S_, .i32⟩) (p2 : main_c_12.space ≠ .host) (p3 : main_c_12.isScoped = false) (v : (⟨S_, .i32⟩ : BufTy).Contents (Elt Ideal)) :
    (TRef.of (T := ⟨S_, .i32⟩) main_c_12 p1 p2 p3).ofBuf v = v := rfl
theorem ofBuf_main_v37 (p1 : main_v37.ty = ⟨S2x2048x4096, .f32⟩) (p2 : main_v37.space ≠ .host) (p3 : main_v37.isScoped = false) (v : (⟨S2x2048x4096, .f32⟩ : BufTy).Contents (Elt Ideal)) :
    (TRef.of (T := ⟨S2x2048x4096, .f32⟩) main_v37 p1 p2 p3).ofBuf v = v := rfl
theorem toBuf_main_v33 (p1 : main_v33.ty = ⟨S2x2048x1, .f32⟩) (p2 : main_v33.space ≠ .host) (p3 : main_v33.isScoped = false) (v : (⟨S2x2048x1, .f32⟩ : BufTy).Contents (Elt Ideal)) :
    (TRef.of (T := ⟨S2x2048x1, .f32⟩) main_v33 p1 p2 p3).toBuf v = v := rfl
theorem ofBuf_main_cst_10 (p1 : main_cst_10.ty = ⟨S_, .f32⟩) (p2 : main_cst_10.space ≠ .host) (p3 : main_cst_10.isScoped = false) (v : (⟨S_, .f32⟩ : BufTy).Contents (Elt Ideal)) :
    (TRef.of (T := ⟨S_, .f32⟩) main_cst_10 p1 p2 p3).ofBuf v = v := rfl
theorem ofBuf_main_v32 (p1 : main_v32.ty = ⟨S2x2048x1, .f32⟩) (p2 : main_v32.space ≠ .host) (p3 : main_v32.isScoped = false) (v : (⟨S2x2048x1, .f32⟩ : BufTy).Contents (Elt Ideal)) :
    (TRef.of (T := ⟨S2x2048x1, .f32⟩) main_v32 p1 p2 p3).ofBuf v = v := rfl
theorem toBuf_main_v52 (p1 : main_v52.ty = ⟨S11008x4096, .f32⟩) (p2 : main_v52.space ≠ .host) (p3 : main_v52.isScoped = false) (v : (⟨S11008x4096, .f32⟩ : BufTy).Contents (Elt Ideal)) :
    (TRef.of (T := ⟨S11008x4096, .f32⟩) main_v52 p1 p2 p3).toBuf v = v := rfl
theorem ofBuf_main_c_19 (p1 : main_c_19.ty = ⟨S_, .i32⟩) (p2 : main_c_19.space ≠ .host) (p3 : main_c_19.isScoped = false) (v : (⟨S_, .i32⟩ : BufTy).Contents (Elt Ideal)) :
    (TRef.of (T := ⟨S_, .i32⟩) main_c_19 p1 p2 p3).ofBuf v = v := rfl
theorem ofBuf_main_c_18 (p1 : main_c_18.ty = ⟨S_, .i32⟩) (p2 : main_c_18.space ≠ .host) (p3 : main_c_18.isScoped = false) (v : (⟨S_, .i32⟩ : BufTy).Contents (Elt Ideal)) :
    (TRef.of (T := ⟨S_, .i32⟩) main_c_18 p1 p2 p3).ofBuf v = v := rfl
theorem ofBuf_main_v50 (p1 : main_v50.ty = ⟨S11008x4096, .f32⟩) (p2 : main_v50.space ≠ .host) (p3 : main_v50.isScoped = false) (v : (⟨S11008x4096, .f32⟩ : BufTy).Contents (Elt Ideal)) :
    (TRef.of (T := ⟨S11008x4096, .f32⟩) main_v50 p1 p2 p3).ofBuf v = v := rfl
theorem toBuf_main_v47 (p1 : main_v47.ty = ⟨S_, .f32⟩) (p2 : main_v47.space ≠ .host) (p3 : main_v47.isScoped = false) (v : (⟨S_, .f32⟩ : BufTy).Contents (Elt Ideal)) :
    (TRef.of (T := ⟨S_, .f32⟩) main_v47 p1 p2 p3).toBuf v = v := rfl
theorem ofBuf_main_cst_16 (p1 : main_cst_16.ty = ⟨S_, .f32⟩) (p2 : main_cst_16.space ≠ .host) (p3 : main_cst_16.isScoped = false) (v : (⟨S_, .f32⟩ : BufTy).Contents (Elt Ideal)) :
    (TRef.of (T := ⟨S_, .f32⟩) main_cst_16 p1 p2 p3).ofBuf v = v := rfl
theorem ofBuf_main_v46 (p1 : main_v46.ty = ⟨S_, .f32⟩) (p2 : main_v46.space ≠ .host) (p3 : main_v46.isScoped = false) (v : (⟨S_, .f32⟩ : BufTy).Contents (Elt Ideal)) :
    (TRef.of (T := ⟨S_, .f32⟩) main_v46 p1 p2 p3).ofBuf v = v := rfl
theorem toBuf_main_v68 (p1 : main_v68.ty = ⟨S2x2048x11008, .f32⟩) (p2 : main_v68.space ≠ .host) (p3 : main_v68.isScoped = false) (v : (⟨S2x2048x11008, .f32⟩ : BufTy).Contents (Elt Ideal)) :
    (TRef.of (T := ⟨S2x2048x11008, .f32⟩) main_v68 p1 p2 p3).toBuf v = v := rfl
theorem ofBuf_main_c_24 (p1 : main_c_24.ty = ⟨S_, .i32⟩) (p2 : main_c_24.space ≠ .host) (p3 : main_c_24.isScoped = false) (v : (⟨S_, .i32⟩ : BufTy).Contents (Elt Ideal)) :
    (TRef.of (T := ⟨S_, .i32⟩) main_c_24 p1 p2 p3).ofBuf v = v := rfl
theorem ofBuf_main_c_23 (p1 : main_c_23.ty = ⟨S_, .i32⟩) (p2 : main_c_23.space ≠ .host) (p3 : main_c_23.isScoped = false) (v : (⟨S_, .i32⟩ : BufTy).Contents (Elt Ideal)) :
    (TRef.of (T := ⟨S_, .i32⟩) main_c_23 p1 p2 p3).ofBuf v = v := rfl
theorem ofBuf_main_v66 (p1 : main_v66.ty = ⟨S2x2048x11008, .f32⟩) (p2 : main_v66.space ≠ .host) (p3 : main_v66.isScoped = false) (v : (⟨S2x2048x11008, .f32⟩ : BufTy).Contents (Elt Ideal)) :
    (TRef.of (T := ⟨S2x2048x11008, .f32⟩) main_v66 p1 p2 p3).ofBuf v = v := rfl
theorem toBuf_main_v62 (p1 : main_v62.ty = ⟨S2x2048x1, .f32⟩) (p2 : main_v62.space ≠ .host) (p3 : main_v62.isScoped = false) (v : (⟨S2x2048x1, .f32⟩ : BufTy).Contents (Elt Ideal)) :
    (TRef.of (T := ⟨S2x2048x1, .f32⟩) main_v62 p1 p2 p3).toBuf v = v := rfl
theorem ofBuf_main_cst_21 (p1 : main_cst_21.ty = ⟨S_, .f32⟩) (p2 : main_cst_21.space ≠ .host) (p3 : main_cst_21.isScoped = false) (v : (⟨S_, .f32⟩ : BufTy).Contents (Elt Ideal)) :
    (TRef.of (T := ⟨S_, .f32⟩) main_cst_21 p1 p2 p3).ofBuf v = v := rfl
theorem ofBuf_main_v61 (p1 : main_v61.ty = ⟨S2x2048x1, .f32⟩) (p2 : main_v61.space ≠ .host) (p3 : main_v61.isScoped = false) (v : (⟨S2x2048x1, .f32⟩ : BufTy).Contents (Elt Ideal)) :
    (TRef.of (T := ⟨S2x2048x1, .f32⟩) main_v61 p1 p2 p3).ofBuf v = v := rfl
theorem toBuf_main_v81 (p1 : main_v81.ty = ⟨S4096x11008, .f32⟩) (p2 : main_v81.space ≠ .host) (p3 : main_v81.isScoped = false) (v : (⟨S4096x11008, .f32⟩ : BufTy).Contents (Elt Ideal)) :
    (TRef.of (T := ⟨S4096x11008, .f32⟩) main_v81 p1 p2 p3).toBuf v = v := rfl
theorem ofBuf_main_c_30 (p1 : main_c_30.ty = ⟨S_, .i32⟩) (p2 : main_c_30.space ≠ .host) (p3 : main_c_30.isScoped = false) (v : (⟨S_, .i32⟩ : BufTy).Contents (Elt Ideal)) :
    (TRef.of (T := ⟨S_, .i32⟩) main_c_30 p1 p2 p3).ofBuf v = v := rfl
theorem ofBuf_main_c_29 (p1 : main_c_29.ty = ⟨S_, .i32⟩) (p2 : main_c_29.space ≠ .host) (p3 : main_c_29.isScoped = false) (v : (⟨S_, .i32⟩ : BufTy).Contents (Elt Ideal)) :
    (TRef.of (T := ⟨S_, .i32⟩) main_c_29 p1 p2 p3).ofBuf v = v := rfl
theorem ofBuf_main_v79 (p1 : main_v79.ty = ⟨S4096x11008, .f32⟩) (p2 : main_v79.space ≠ .host) (p3 : main_v79.isScoped = false) (v : (⟨S4096x11008, .f32⟩ : BufTy).Contents (Elt Ideal)) :
    (TRef.of (T := ⟨S4096x11008, .f32⟩) main_v79 p1 p2 p3).ofBuf v = v := rfl
theorem toBuf_main_v76 (p1 : main_v76.ty = ⟨S_, .f32⟩) (p2 : main_v76.space ≠ .host) (p3 : main_v76.isScoped = false) (v : (⟨S_, .f32⟩ : BufTy).Contents (Elt Ideal)) :
    (TRef.of (T := ⟨S_, .f32⟩) main_v76 p1 p2 p3).toBuf v = v := rfl
theorem ofBuf_main_cst_27 (p1 : main_cst_27.ty = ⟨S_, .f32⟩) (p2 : main_cst_27.space ≠ .host) (p3 : main_cst_27.isScoped = false) (v : (⟨S_, .f32⟩ : BufTy).Contents (Elt Ideal)) :
    (TRef.of (T := ⟨S_, .f32⟩) main_cst_27 p1 p2 p3).ofBuf v = v := rfl
theorem ofBuf_main_v75 (p1 : main_v75.ty = ⟨S_, .f32⟩) (p2 : main_v75.space ≠ .host) (p3 : main_v75.isScoped = false) (v : (⟨S_, .f32⟩ : BufTy).Contents (Elt Ideal)) :
    (TRef.of (T := ⟨S_, .f32⟩) main_v75 p1 p2 p3).ofBuf v = v := rfl

/-- The first stretch leaves the gated activations of the three arguments it reads. -/
theorem gated_at (L : Valuation τ sig (Elt Ideal)) :
    after (upToGated (F := Ideal)) L (Proc.devRef .tc main_v58)
      = val_main_v58 (F := Ideal) (L (Proc.devRef .tc main_arg0)) (L (Proc.devRef .tc main_arg1)) (L (Proc.devRef .tc main_arg2)) := by
  after_results_simp
  simp only [ofBuf_toBuf, toBuf_main_v28, ofBuf_main_v27, toBuf_main_v9, ofBuf_main_c_2, ofBuf_main_c,
    ofBuf_main_v7, toBuf_main_v3, ofBuf_main_cst_0, ofBuf_main_v2, toBuf_main_v22, ofBuf_main_c_8,
    ofBuf_main_c_7, ofBuf_main_v20, toBuf_main_v17, ofBuf_main_cst_5, ofBuf_main_v16, toBuf_main_v39,
    ofBuf_main_c_13, ofBuf_main_c_12, ofBuf_main_v37, toBuf_main_v33, ofBuf_main_cst_10, ofBuf_main_v32,
    toBuf_main_v52, ofBuf_main_c_19, ofBuf_main_c_18, ofBuf_main_v50, toBuf_main_v47, ofBuf_main_cst_16,
    ofBuf_main_v46, toBuf_main_v68, ofBuf_main_c_24, ofBuf_main_c_23, ofBuf_main_v66, toBuf_main_v62,
    ofBuf_main_cst_21, ofBuf_main_v61, toBuf_main_v81, ofBuf_main_c_30, ofBuf_main_c_29, ofBuf_main_v79,
    toBuf_main_v76, ofBuf_main_cst_27, ofBuf_main_v75]
  unfold val_main_v58 val_main_v57 val_main_v56 val_main_v55 val_main_v54 val_main_v53 val_main_v52 val_main_call12_v4
    val_main_call12_v3 val_main_call12_v2 val_main_call12_v1 val_main_call12_v0 val_main_c_19 val_main_c_18 val_main_v51 val_main_v50
    val_main_v49 val_main_v48 val_main_cst_17 val_main_v47 val_main_call10_v0 val_main_cst_16 val_main_v46 val_main_cst_15
    val_main_v45 val_main_cst_14 val_main_v44 val_main_v43 val_main_v42 val_main_v41 val_main_v40 val_main_v39
    val_main_call9_v4 val_main_call9_v3 val_main_call9_v2 val_main_call9_v1 val_main_call9_v0 val_main_c_13 val_main_c_12 val_main_v38
    val_main_v37 val_main_v36 val_main_v35 val_main_v34 val_main_cst_11 val_main_v33 val_main_call7_v1 val_main_call7_v0
    val_main_cst_10 val_main_v32 val_main_v31 val_main_cst_9 val_main_v30 val_main_v29 val_main_v28 val_main_call6_v0
    val_main_call6_cst val_main_v27 val_main_v26 val_main_v25 val_main_v24 val_main_v23 val_main_v22 val_main_call5_v4
    val_main_call5_v3 val_main_call5_v2 val_main_call5_v1 val_main_call5_v0 val_main_c_8 val_main_c_7 val_main_v21 val_main_v20
    val_main_v19 val_main_v18 val_main_cst_6 val_main_v17 val_main_call3_v0 val_main_cst_5 val_main_v16 val_main_cst_4
    val_main_v15 val_main_cst_3 val_main_v14 val_main_v13 val_main_v12 val_main_v11 val_main_v10 val_main_v9
    val_main_call2_v4 val_main_call2_v3 val_main_call2_v2 val_main_call2_v1 val_main_call2_v0 val_main_c_2 val_main_c val_main_v8
    val_main_v7 val_main_v6 val_main_v5 val_main_v4 val_main_cst_1 val_main_v3 val_main_call0_v1 val_main_call0_v0
    val_main_cst_0 val_main_v2 val_main_v1 val_main_cst val_main_v0
  generalize Host.reduce (FloatOps.maximumf (F := Ideal) (φ := .f32)) (Host.absf (L (Proc.devRef .tc main_arg0)))
    (constant S_ .f32 0xFF800000#32) reducesTo_S2x2048x4096_S2x2048_d2 h_S_ = R
  rfl

/-- It does not write the down weights. -/
theorem down_kept (L : Valuation τ sig (Elt Ideal)) :
    after (upToGated (F := Ideal)) L (Proc.devRef .tc main_arg3) = L (Proc.devRef .tc main_arg3) := by
  after_results_simp

/-- The second stretch computes the result from the gated activations and the down weights it finds. -/
theorem result_at (V : Valuation τ sig (Elt Ideal))
    (x0 : (⟨S2x2048x4096, .f32⟩ : BufTy).Contents (Elt Ideal)) (x1 x2 : (⟨S11008x4096, .f32⟩ : BufTy).Contents (Elt Ideal))
    (hg : V (Proc.devRef .tc main_v58) = val_main_v58 (F := Ideal) x0 x1 x2) :
    after (fromGated (F := Ideal)) V (Proc.devRef .tc main_v86) = val_main_v86 (F := Ideal) x0 x1 x2 (V (Proc.devRef .tc main_arg3)) := by
  after_results_simp
  simp only [ofBuf_toBuf, toBuf_main_v28, ofBuf_main_v27, toBuf_main_v9, ofBuf_main_c_2, ofBuf_main_c,
    ofBuf_main_v7, toBuf_main_v3, ofBuf_main_cst_0, ofBuf_main_v2, toBuf_main_v22, ofBuf_main_c_8,
    ofBuf_main_c_7, ofBuf_main_v20, toBuf_main_v17, ofBuf_main_cst_5, ofBuf_main_v16, toBuf_main_v39,
    ofBuf_main_c_13, ofBuf_main_c_12, ofBuf_main_v37, toBuf_main_v33, ofBuf_main_cst_10, ofBuf_main_v32,
    toBuf_main_v52, ofBuf_main_c_19, ofBuf_main_c_18, ofBuf_main_v50, toBuf_main_v47, ofBuf_main_cst_16,
    ofBuf_main_v46, toBuf_main_v68, ofBuf_main_c_24, ofBuf_main_c_23, ofBuf_main_v66, toBuf_main_v62,
    ofBuf_main_cst_21, ofBuf_main_v61, toBuf_main_v81, ofBuf_main_c_30, ofBuf_main_c_29, ofBuf_main_v79,
    toBuf_main_v76, ofBuf_main_cst_27, ofBuf_main_v75]
  rw [hg]
  unfold val_main_v86 val_main_v85 val_main_v84 val_main_v83 val_main_v82 val_main_v81 val_main_call18_v4 val_main_call18_v3
    val_main_call18_v2 val_main_call18_v1 val_main_call18_v0 val_main_c_30 val_main_c_29 val_main_v80 val_main_v79 val_main_v78
    val_main_v77 val_main_cst_28 val_main_v76 val_main_call16_v0 val_main_cst_27 val_main_v75 val_main_cst_26 val_main_v74
    val_main_cst_25 val_main_v73 val_main_v72 val_main_v71 val_main_v70 val_main_v69 val_main_v68 val_main_call15_v4
    val_main_call15_v3 val_main_call15_v2 val_main_call15_v1 val_main_call15_v0 val_main_c_24 val_main_c_23 val_main_v67 val_main_v66
    val_main_v65 val_main_v64 val_main_v63 val_main_cst_22 val_main_v62 val_main_call13_v1 val_main_call13_v0 val_main_cst_21
    val_main_v61 val_main_v60 val_main_cst_20 val_main_v59
  generalize Host.reduce (FloatOps.maximumf (F := Ideal) (φ := .f32)) (Host.absf (val_main_v58 (F := Ideal) x0 x1 x2))
    (constant S_ .f32 0xFF800000#32) reducesTo_S2x2048x11008_S2x2048_d2 h_S_ = R
  rfl

/-- THE VALUE: after all 161 operations the result buffer holds the staged value of the four arguments. -/
theorem value_at (L : Valuation τ sig (Elt Ideal)) :
    after (ops : List (HloOp τ sig (Elt Ideal))) L (Proc.devRef .tc main_v86)
      = val_main_v86 (F := Ideal) (L (Proc.devRef .tc main_arg0)) (L (Proc.devRef .tc main_arg1)) (L (Proc.devRef .tc main_arg2)) (L (Proc.devRef .tc main_arg3)) := by
  rw [ops_halves, after_append, result_at (after (upToGated (F := Ideal)) L) _ _ _ (gated_at L), down_kept]

end Cert.ReferenceIdeal.Halves

end
-- ==== Proof.Consts.lean ====
/- The float literals both programs spell, as the extended reals their patterns denote: the quantizers' floor
   1e-5 is a positive real, 127.0 is the real 127 and 1.0 is the real 1. (The two integer clip bounds reach the
   floats through a signed conversion, which is a real by definition.) -/
import Idealize.ShloMosaic.PureOps.Ideal

noncomputable section

namespace Cert.Consts

open Idealize.ShloMosaic

/-- The floor under a row's largest magnitude and under a weight's mean magnitude: a positive real. -/
theorem floor_pos : ∃ r : ℝ, 0 < r ∧ Ideal.ofBits .f32 0x3727C5AC#32 = (r : EReal) := by
  refine ⟨10995116 / 2 ^ 40, by norm_num, ?_⟩
  simp [Ideal.ofBits, Ideal.ieee, -EReal.coe_mul]; norm_num

/-- The pattern of 127.0 denotes the real 127. -/
theorem ofBits_127 : Ideal.ofBits .f32 0x42FE0000#32 = ((127 : ℝ) : EReal) := by
  simp [Ideal.ofBits, Ideal.ieee, -EReal.coe_mul]; norm_num

/-- The pattern a weight matrix's entries are counted by, 11008 · 4096, denotes that real. -/
theorem ofBits_count : Ideal.ofBits .f32 0x4C2C0000#32 = ((45088768 : ℝ) : EReal) := by
  simp [Ideal.ofBits, Ideal.ieee, -EReal.coe_mul]; norm_num

/-- The pattern of 1.0 denotes the real 1. -/
theorem ofBits_one : Ideal.ofBits .f32 0x3F800000#32 = ((1 : ℝ) : EReal) := by
  simp [Ideal.ofBits, Ideal.ieee, -EReal.coe_mul]; norm_num

end Cert.Consts

end
-- ==== Proof.Algebra.lean ====
/- The laws on the extended reals that join the two programs. Every one of them needs its operands to be REAL
   (neither infinity): on reals the reference's "add back the difference" x + (v - x) is v, a quotient by a quotient
   c / M is a product with M / c, and two common factors leave a sum of products. -/
import Idealize.ShloMosaic.PureOps.Ideal
import Mathlib.Data.Finset.Fold

noncomputable section

namespace Cert.Algebra

open Idealize.ShloMosaic

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption
theorem IsReal.ne_top {x : EReal} (hx : IsReal x) : x ≠ ⊤ := by obtain ⟨a, rfl⟩ := hx; exact EReal.coe_ne_top a
theorem IsReal.ne_bot {x : EReal} (hx : IsReal x) : x ≠ ⊥ := by obtain ⟨a, rfl⟩ := hx; exact EReal.coe_ne_bot a
theorem isReal_of_ne {x : EReal} (h1 : x ≠ ⊥) (h2 : x ≠ ⊤) : IsReal x := by
  induction x using EReal.rec with
  | bot => exact absurd rfl h1
  | coe r => exact ⟨r, rfl⟩
  | top => exact absurd rfl h2

/-- A magnitude max x (-x) of a real is a real. -/
theorem IsReal.abs {x : EReal} (hx : IsReal x) : IsReal (Max.max x (-x)) := hx.max hx.neg

/-- A finite sum of reals is a real. -/
theorem IsReal.sum {ι : Type*} (s : Finset ι) (f : ι → EReal) (hf : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (hf a (Finset.mem_insert_self a s)).add (ih fun i hi => hf i (Finset.mem_insert_of_mem hi))

/-- A clipped value is a real whatever was clipped, the two bounds being reals. -/
theorem isReal_clip {lo hi v : EReal} (hlo : IsReal lo) (hhi : IsReal hi) : IsReal (Min.min hi (Max.max lo v)) := by
  refine isReal_of_ne ?_ ?_
  · intro h
    rcases min_choice hi (Max.max lo v) with e | e
    · rw [e] at h; exact hhi.ne_bot h
    · rw [e] at h
      have : lo ≤ ⊥ := h ▸ le_max_left lo v
      exact hlo.ne_bot (le_bot_iff.mp this)
  · intro h
    have : (⊤ : EReal) ≤ hi := h ▸ min_le_left hi (Max.max lo v)
    exact hhi.ne_top (top_le_iff.mp this)

/-- The largest of finitely many reals, from the bottom element, floored by a positive real: a positive real. -/
theorem floored_fold_max {n : Nat} (f : Fin n → EReal) (hf : ∀ k, IsReal (f k)) (e : EReal) (he : ∃ r : ℝ, 0 < r ∧ e = (r : EReal)) :
    ∃ r : ℝ, 0 < r ∧ Max.max e ((Finset.univ : Finset (Fin n)).fold Max.max ⊥ f) = (r : EReal) := by
  obtain ⟨r0, hr0, rfl⟩ := he
  have hlt : (Finset.univ : Finset (Fin n)).fold Max.max ⊥ f < ⊤ :=
    (Finset.fold_max_lt ⊤).mpr ⟨bot_lt_top, fun k _ => lt_top_iff_ne_top.mpr (hf k).ne_top⟩
  have hR : IsReal (Max.max (r0 : EReal) ((Finset.univ : Finset (Fin n)).fold Max.max ⊥ f)) := by
    refine isReal_of_ne ?_ ?_
    · intro h
      have : (r0 : EReal) ≤ ⊥ := h ▸ le_max_left _ _
      exact EReal.coe_ne_bot r0 (le_bot_iff.mp this)
    · intro h
      rcases max_choice (r0 : EReal) ((Finset.univ : Finset (Fin n)).fold Max.max ⊥ f) with e | e
      · rw [e] at h; exact EReal.coe_ne_top r0 h
      · rw [e] at h; exact (ne_of_lt hlt) h
  obtain ⟨r, hr⟩ := hR
  refine ⟨r, ?_, hr⟩
  have : (r0 : EReal) ≤ (r : EReal) := hr ▸ le_max_left _ _
  exact lt_of_lt_of_le hr0 (EReal.coe_le_coe_iff.mp this)

/-- A real floored by a positive real is a positive real. -/
theorem floored_real {e v : EReal} (he : ∃ r : ℝ, 0 < r ∧ e = (r : EReal)) (hv : IsReal v) :
    ∃ r : ℝ, 0 < r ∧ Max.max e v = (r : EReal) := by
  obtain ⟨r0, hr0, rfl⟩ := he
  obtain ⟨r, hr⟩ := (IsReal.coe r0).max hv
  refine ⟨r, ?_, hr⟩
  have : (r0 : EReal) ≤ (r : EReal) := hr ▸ le_max_left _ _
  exact lt_of_lt_of_le hr0 (EReal.coe_le_coe_iff.mp this)

/-- A quotient of reals by a nonzero real is a real. -/
theorem isReal_div {x y : EReal} (hx : IsReal x) {r : ℝ} (hr : r ≠ 0) (hy : y = (r : EReal)) : IsReal (Ideal.div x y) := by
  obtain ⟨a, rfl⟩ := hx
  rw [hy, Ideal.div_coe hr, ← EReal.coe_mul]
  exact ⟨_, rfl⟩

/-- THE ACTIVATION LAW. With M a positive real and c a nonzero real: a real a, plus the difference between a real q
    divided by the scale c / M and a, is q times M / c. -/
theorem act_deq {a q M c : ℝ} (hM : 0 < M) (hc : c ≠ 0) :
    (a : EReal) + (Ideal.div (q : EReal) (Ideal.div (c : EReal) (M : EReal)) - (a : EReal))
      = (q : EReal) * Ideal.div (M : EReal) (c : EReal) := by
  have hM' : M ≠ 0 := ne_of_gt hM
  rw [Ideal.div_coe hM', ← EReal.coe_mul, Ideal.div_coe (mul_ne_zero hc (one_div_ne_zero hM')), ← EReal.coe_mul,
    ← EReal.coe_sub, ← EReal.coe_add, Ideal.div_coe hc, ← EReal.coe_mul, ← EReal.coe_mul]
  congr 1
  field_simp
  ring

/-- THE WEIGHT LAW. With u a positive real: a real w, plus the difference between a real g divided by the scale
    1 / u and w, is g times u. -/
theorem wt_deq {w g u : ℝ} (hu : 0 < u) :
    (w : EReal) + (Ideal.div (g : EReal) (Ideal.div ((1 : ℝ) : EReal) (u : EReal)) - (w : EReal)) = (g : EReal) * (u : EReal) := by
  have hu' : u ≠ 0 := ne_of_gt hu
  rw [Ideal.div_coe hu', ← EReal.coe_mul, Ideal.div_coe (mul_ne_zero one_ne_zero (one_div_ne_zero hu')), ← EReal.coe_mul,
    ← EReal.coe_sub, ← EReal.coe_add, ← EReal.coe_mul]
  congr 1
  field_simp
  ring

/-- A finite sum of real numbers, read in the extended reals. -/
theorem sum_coe {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- THE PRODUCT LAW. A sum of products of rescaled reals is the sum of the products, rescaled once: the two common
    factors leave the sum. -/
theorem sum_rescaled {ι : Type*} (s : Finset ι) (q g : ι → ℝ) (r u : ℝ) :
    ∑ k ∈ s, ((q k : EReal) * (r : EReal)) * ((g k : EReal) * (u : EReal))
      = (∑ k ∈ s, (q k : EReal) * (g k : EReal)) * ((r : EReal) * (u : EReal)) := by
  simp only [← EReal.coe_mul]
  rw [sum_coe, sum_coe, ← EReal.coe_mul]
  congr 1
  rw [Finset.sum_mul]
  exact Finset.sum_congr rfl fun k _ => by ring

end Cert.Algebra

end
-- ==== Proof.Stage.lean ====
/- One quantized linear stage, on the extended reals. A token row r (K reals) has the scale 127 / M, with M the
   largest magnitude of the row floored at 1e-5; its entry a is quantized to q(a) = clip(round(a · 127 / M)) between
   two real bounds. A weight row w has integers g (any reals here) at the scale 1 / μ, with μ a positive real. The
   reference multiplies the DEQUANTIZED values, each spelt "the original plus the difference to it",
     Σ_k (r_k + (q(r_k) / (127 / M) − r_k)) · (w_k + (g_k / (1 / μ) − w_k)),
   the kernel multiplies the integers and rescales once, (Σ_k q(r_k) · g_k) · ((M / 127) · μ). They are equal because
   every quantity is a real: x + (v − x) = v, a quotient by 127 / M is a product with M / 127, a quotient by 1 / μ a
   product with μ, and the two common factors leave the sum. -/
import proofs.«153568_j18047452578029_2_alg».proof.Proof.Consts
import proofs.«153568_j18047452578029_2_alg».proof.Proof.Algebra

noncomputable section

namespace Cert.Stage

open Idealize.ShloMosaic Cert.Algebra

/-- The quantizers' floor 1e-5, the constant 127.0, the constant 1.0, and the bottom a largest-magnitude search
    starts from, as both programs spell them. -/
abbrev cFloor : EReal := Ideal.ofBits .f32 0x3727C5AC#32
abbrev c127 : EReal := Ideal.ofBits .f32 0x42FE0000#32
abbrev cOne : EReal := Ideal.ofBits .f32 0x3F800000#32
abbrev cBot : EReal := Ideal.ofBits .f32 0xFF800000#32

/-- The integer clip bounds, converted: −128 and 127 for the activations, −1 and 1 for the weights. Each is a real. -/
abbrev lo8 : EReal := FloatOps.sitofp (F := Ideal) .f32 (4294967168#32 : BitVec 32)
abbrev hi8 : EReal := FloatOps.sitofp (F := Ideal) .f32 (127#32 : BitVec 32)
abbrev lo1 : EReal := FloatOps.sitofp (F := Ideal) .f32 (4294967295#32 : BitVec 32)
abbrev hi1 : EReal := FloatOps.sitofp (F := Ideal) .f32 (1#32 : BitVec 32)
theorem isReal_lo8 : IsReal lo8 := ⟨_, rfl⟩
theorem isReal_hi8 : IsReal hi8 := ⟨_, rfl⟩
theorem isReal_lo1 : IsReal lo1 := ⟨_, rfl⟩
theorem isReal_hi1 : IsReal hi1 := ⟨_, rfl⟩

/-- Rounding to the nearest integer, ties to even (the infinities fixed). -/
abbrev rnd (x : EReal) : EReal := Ideal.liftRound Ideal.roundHalfEven x

/-- A row's largest magnitude, floored. -/
def rowTop {K : Nat} (r : Fin K → EReal) : EReal :=
  max cFloor ((Finset.univ : Finset (Fin K)).fold max cBot fun k => max (r k) (-(r k)))

/-- An entry a of a row of top M, quantized between lo and hi. -/
def quant (lo hi M a : EReal) : EReal := min hi (max lo (rnd (a * Ideal.div c127 M)))

theorem cBot_eq : cBot = ⊥ := by
  simp [cBot, Ideal.ofBits, Ideal.ieee]

/-- The top of a row of reals is a positive real. -/
theorem rowTop_pos {K : Nat} (r : Fin K → EReal) (hr : ∀ k, IsReal (r k)) : ∃ M : ℝ, 0 < M ∧ rowTop r = (M : EReal) := by
  unfold rowTop
  rw [cBot_eq]
  exact floored_fold_max _ (fun k => (hr k).abs) _ Cert.Consts.floor_pos

theorem isReal_quant {lo hi : EReal} (hlo : IsReal lo) (hhi : IsReal hi) (M a : EReal) : IsReal (quant lo hi M a) :=
  isReal_clip hlo hhi

/-- THE STAGE LAW. -/
theorem stage {K : Nat} (r w g : Fin K → EReal) (μ lo hi : EReal)
    (hr : ∀ k, IsReal (r k)) (hw : ∀ k, IsReal (w k)) (hg : ∀ k, IsReal (g k))
    (hμ : ∃ u : ℝ, 0 < u ∧ μ = (u : EReal)) (hlo : IsReal lo) (hhi : IsReal hi) :
    ∑ k : Fin K, (r k + (Ideal.div (quant lo hi (rowTop r) (r k)) (Ideal.div c127 (rowTop r)) - r k))
        * (w k + (Ideal.div (g k) (Ideal.div cOne μ) - w k))
      = (∑ k : Fin K, quant lo hi (rowTop r) (r k) * g k) * (Ideal.div (rowTop r) c127 * μ) := by
  obtain ⟨M, hM, hMe⟩ := rowTop_pos r hr
  obtain ⟨u, hu, rfl⟩ := hμ
  have hq : ∀ k, ∃ q : ℝ, quant lo hi (rowTop r) (r k) = (q : EReal) := fun k => isReal_quant hlo hhi _ _
  choose q hq using hq
  choose a ha using hr
  choose b hb using hw
  choose e he using hg
  have h127 : (127 : ℝ) ≠ 0 := by norm_num
  have hρ : Ideal.div (rowTop r) c127 = ((M * (1 / 127) : ℝ) : EReal) := by
    rw [hMe, show c127 = ((127 : ℝ) : EReal) from Cert.Consts.ofBits_127, Ideal.div_coe h127, ← EReal.coe_mul]
  have hL : ∀ k, (r k + (Ideal.div (quant lo hi (rowTop r) (r k)) (Ideal.div c127 (rowTop r)) - r k))
      = (q k : EReal) * ((M * (1 / 127) : ℝ) : EReal) := fun k => by
    rw [hq k, ha k, hMe, show c127 = ((127 : ℝ) : EReal) from Cert.Consts.ofBits_127, act_deq hM h127,
      Ideal.div_coe h127, ← EReal.coe_mul]
  have hR : ∀ k, (w k + (Ideal.div (g k) (Ideal.div cOne (u : EReal)) - w k)) = (e k : EReal) * (u : EReal) := fun k => by
    rw [hb k, he k, show cOne = ((1 : ℝ) : EReal) from Cert.Consts.ofBits_one, wt_deq hu]
  rw [hρ, Finset.sum_congr rfl fun k _ => show _ = ((q k : EReal) * ((M * (1 / 127) : ℝ) : EReal)) * ((e k : EReal) * (u : EReal)) by rw [hL k, hR k],
    Finset.sum_congr rfl fun k _ => show quant lo hi (rowTop r) (r k) * g k = (q k : EReal) * (e k : EReal) by rw [hq k, he k]]
  exact sum_rescaled Finset.univ q e _ u

/-- What a stage produces is a real. -/
theorem isReal_stage {K : Nat} (r g : Fin K → EReal) (μ lo hi : EReal)
    (hr : ∀ k, IsReal (r k)) (hg : ∀ k, IsReal (g k)) (hμ : ∃ u : ℝ, 0 < u ∧ μ = (u : EReal)) (hlo : IsReal lo) (hhi : IsReal hi) :
    IsReal ((∑ k : Fin K, quant lo hi (rowTop r) (r k) * g k) * (Ideal.div (rowTop r) c127 * μ)) := by
  obtain ⟨M, hM, hMe⟩ := rowTop_pos r hr
  obtain ⟨u, hu, rfl⟩ := hμ
  refine (IsReal.sum _ _ fun k _ => (isReal_quant hlo hhi _ _).mul (hg k)).mul (IsReal.mul ?_ (IsReal.coe u))
  exact isReal_div (hMe ▸ IsReal.coe M) (by norm_num : (127 : ℝ) ≠ 0) Cert.Consts.ofBits_127

end Cert.Stage

end
-- ==== Proof.HostRead.lean ====
/- The kernel's host terms read at an index: a row's top is the floored largest magnitude of that row's entries, a
   quantized entry is its row's scale applied, rounded and clipped, and the rescaling column holds the row's top over
   127 times the weight's mean. The tokens' two layouts agree entry by entry: row 2048·b + s of the matrix is token
   (b, s). -/
import proofs.«153568_j18047452578029_2_alg».proof.Proof.HostTerms
import proofs.«153568_j18047452578029_2_alg».proof.Proof.Stage
import Idealize.ShloMosaic.Lib.ValueIdx
import Idealize.ShloMosaic.Lib.Pipeline.Value
import Idealize.ShloMosaic.PureOps.Ideal.Laws

noncomputable section

namespace Cert.KernelIdeal.Host

open Cert.KernelIdeal Cert.KernelIdeal.Gen Idealize.ShloMosaic Idealize.ShloMosaic.ValueIdx Cert.Stage

/-- The host's quotient, rounding and magnitude are entrywise. -/
theorem hostDivf_apply {s : Shape} (a b : FVec Ideal s .f32) (i : s.Idx) : Host.divf a b i = Ideal.div (a i) (b i) := rfl
theorem roundeven_apply {s : Shape} (a : FVec Ideal s .f32) (i : s.Idx) : Host.roundeven a i = rnd (a i) := rfl

/-- A scalar spread over any shape reads the scalar. -/
theorem splat_apply {t : Shape} (h : S_.BroadcastsInDim t (![] : Fin 0 → Fin t.rank)) (x : FVec Ideal S_ .f32) (j : t.Idx) :
    broadcastInDim t ![] h x j = x ix0 :=
  broadcastInDim_apply _ h x j ix0 (fun a => a.elim0)

/-- A vector of 4096 as a column. -/
theorem col_apply (v : FVec Ideal S4096 .f32) (m : Fin 4096) :
    broadcastInDim S4096x1 ![0] bcast_S4096_S4096x1_0 v (ix2 m 0) = v (ix1 m) :=
  broadcastInDim_apply _ bcast_S4096_S4096x1_0 v (ix2 m 0) (ix1 m) (fun a => by
    match a with
    | ⟨0, _⟩ => show m.val = if (4096 : Nat) = 1 then 0 else m.val; rw [if_neg (by decide)])

/-- Row 2048·b + s of the tokens' matrix is token (b, s). -/
theorem rows_apply (a : FVec Ideal S2x2048x4096 .f32) (b : Fin 2) (s : Fin 2048) (k : Fin 4096) (h : b.val * 2048 + s.val < 4096) :
    rows a (ix2 ⟨b.val * 2048 + s.val, h⟩ k) = a (ix3 b s k) :=
  shapeCast_apply a shapeCasts_S2x2048x4096_S4096x4096 _ (ix3 b s k) (by
    rw [Shape.rowMajor_val_three, Shape.rowMajor_val_two]
    show (b.val * 2048 + s.val) * 4096 + k.val = (b.val * 2048 + s.val) * 4096 + k.val
    rfl)

/-- And back: token (b, s) of the reshaped matrix is its row 2048·b + s. -/
theorem unrows_apply (z : FVec Ideal S4096x4096 .f32) (b : Fin 2) (s : Fin 2048) (k : Fin 4096) (h : b.val * 2048 + s.val < 4096) :
    unrows z (ix3 b s k) = z (ix2 ⟨b.val * 2048 + s.val, h⟩ k) :=
  shapeCast_apply z shapeCasts_S4096x4096_S2x2048x4096 _ (ix2 ⟨b.val * 2048 + s.val, h⟩ k) (by
    rw [Shape.rowMajor_val_three, Shape.rowMajor_val_two]
    show (b.val * 2048 + s.val) * 4096 + k.val = (b.val * 2048 + s.val) * 4096 + k.val
    rfl)

/-! ## Rows of width 4096 -/

theorem reduces4096 : S4096x4096.Reduces [1] S4096 := by decide

/-- Token m's index with the reduced coordinate k put back is (m, k). -/
theorem lift4096 (m : Fin 4096) (k : Fin (S4096x4096.size 1)) :
    reduces4096.lift (ix1 m) k = ix2 m (⟨k.val, k.isLt⟩ : Fin 4096) := by
  funext c; apply Fin.ext
  fin_cases c <;> rfl

/-- The column of a row-indexed vector, and a column spread along its rows. -/
theorem spread4096_apply (v : FVec Ideal S4096x1 .f32) (m : Fin 4096) (k : Fin 4096) :
    broadcastInDim S4096x4096 ![0, 1] bcast_S4096x1_S4096x4096_0_1 v (ix2 m k) = v (ix2 m 0) :=
  broadcastInDim_apply _ bcast_S4096x1_S4096x4096_0_1 v (ix2 m k) (ix2 m 0) (fun a => by
    match a with
    | ⟨0, _⟩ => show m.val = if (4096 : Nat) = 1 then 0 else m.val; rw [if_neg (by decide)]
    | ⟨1, _⟩ => show (0 : Nat) = if (1 : Nat) = 1 then 0 else k.val; rw [if_pos rfl])

/-- A row's top, read at the row: the floored largest magnitude of its 4096 entries. -/
theorem top4096_apply (z : FVec Ideal S4096x4096 .f32) (m : Fin 4096) :
    top4096 z (ix2 m 0) = rowTop (fun k : Fin 4096 => z (ix2 m k)) := by
  unfold top4096 rowTop
  rw [maximumf_apply, splat_apply, col_apply,
    Host.reduce_eq_fold_single FloatOps.maximumf (Host.absf z) _ reducesTo_S4096x4096_S4096_d1 reduces4096 h_S_ (ix1 m)]
  have hf : (Host.absf z ∘ reduces4096.lift (ix1 m)) = fun k : Fin 4096 => max (z (ix2 m k)) (-(z (ix2 m k))) :=
    funext fun k => by
      show FloatOps.hostAbsf (z (reduces4096.lift (ix1 m) k)) = _
      rw [lift4096 m k]
      rfl
  exact congrArg (fun f => max cFloor (Finset.fold max cBot f (Finset.univ : Finset (Fin 4096)))) hf

/-- A quantized entry, read at (m, k). -/
theorem quant4096_apply (z : FVec Ideal S4096x4096 .f32) (m : Fin 4096) (k : Fin 4096) :
    quant4096 z (ix2 m k) = quant lo8 hi8 (rowTop (fun k : Fin 4096 => z (ix2 m k))) (z (ix2 m k)) := by
  unfold quant4096 Cert.Stage.quant
  rw [truncf_apply, minimumf_apply, maximumf_apply, splat_apply, splat_apply, roundeven_apply, mulf_apply,
    spread4096_apply, hostDivf_apply, splat_apply, top4096_apply]
  rfl

/-- The rescaling factor of token m: its top over 127, times the weight's mean. -/
theorem back4096_apply (z : FVec Ideal S4096x4096 .f32) (μ : FVec Ideal S_ .f32) (m : Fin 4096) :
    back4096 z μ (ix2 m 0) = Ideal.div (rowTop (fun k : Fin 4096 => z (ix2 m k))) c127 * μ ix0 := by
  unfold back4096
  rw [mulf_apply, splat_apply, hostDivf_apply, splat_apply, top4096_apply]
  rfl

/-! ## Rows of width 11008 -/

theorem reduces11008 : S4096x11008.Reduces [1] S4096 := by decide

/-- Token m's index with the reduced coordinate k put back is (m, k). -/
theorem lift11008 (m : Fin 4096) (k : Fin (S4096x11008.size 1)) :
    reduces11008.lift (ix1 m) k = ix2 m (⟨k.val, k.isLt⟩ : Fin 11008) := by
  funext c; apply Fin.ext
  fin_cases c <;> rfl

/-- The column of a row-indexed vector, and a column spread along its rows. -/
theorem spread11008_apply (v : FVec Ideal S4096x1 .f32) (m : Fin 4096) (k : Fin 11008) :
    broadcastInDim S4096x11008 ![0, 1] bcast_S4096x1_S4096x11008_0_1 v (ix2 m k) = v (ix2 m 0) :=
  broadcastInDim_apply _ bcast_S4096x1_S4096x11008_0_1 v (ix2 m k) (ix2 m 0) (fun a => by
    match a with
    | ⟨0, _⟩ => show m.val = if (4096 : Nat) = 1 then 0 else m.val; rw [if_neg (by decide)]
    | ⟨1, _⟩ => show (0 : Nat) = if (1 : Nat) = 1 then 0 else k.val; rw [if_pos rfl])

/-- A row's top, read at the row: the floored largest magnitude of its 11008 entries. -/
theorem top11008_apply (z : FVec Ideal S4096x11008 .f32) (m : Fin 4096) :
    top11008 z (ix2 m 0) = rowTop (fun k : Fin 11008 => z (ix2 m k)) := by
  unfold top11008 rowTop
  rw [maximumf_apply, splat_apply, col_apply,
    Host.reduce_eq_fold_single FloatOps.maximumf (Host.absf z) _ reducesTo_S4096x11008_S4096_d1 reduces11008 h_S_ (ix1 m)]
  have hf : (Host.absf z ∘ reduces11008.lift (ix1 m)) = fun k : Fin 11008 => max (z (ix2 m k)) (-(z (ix2 m k))) :=
    funext fun k => by
      show FloatOps.hostAbsf (z (reduces11008.lift (ix1 m) k)) = _
      rw [lift11008 m k]
      rfl
  exact congrArg (fun f => max cFloor (Finset.fold max cBot f (Finset.univ : Finset (Fin 11008)))) hf

/-- A quantized entry, read at (m, k). -/
theorem quant11008_apply (z : FVec Ideal S4096x11008 .f32) (m : Fin 4096) (k : Fin 11008) :
    quant11008 z (ix2 m k) = quant lo8 hi8 (rowTop (fun k : Fin 11008 => z (ix2 m k))) (z (ix2 m k)) := by
  unfold quant11008 Cert.Stage.quant
  rw [truncf_apply, minimumf_apply, maximumf_apply, splat_apply, splat_apply, roundeven_apply, mulf_apply,
    spread11008_apply, hostDivf_apply, splat_apply, top11008_apply]
  rfl

/-- The rescaling factor of token m: its top over 127, times the weight's mean. -/
theorem back11008_apply (z : FVec Ideal S4096x11008 .f32) (μ : FVec Ideal S_ .f32) (m : Fin 4096) :
    back11008 z μ (ix2 m 0) = Ideal.div (rowTop (fun k : Fin 11008 => z (ix2 m k))) c127 * μ ix0 := by
  unfold back11008
  rw [mulf_apply, splat_apply, hostDivf_apply, splat_apply, top11008_apply]
  rfl

end Cert.KernelIdeal.Host

end
-- ==== Proof.KernelEntry.lean ====
/- The kernel's result read at an entry. Token (b, s) is row 2048·b + s of the matrices the kernel works on; at
   that row the quantized activations, the factor columns and the products have the forms the stage law speaks of. -/
import proofs.«153568_j18047452578029_2_alg».proof.Proof.KernelTerm
import proofs.«153568_j18047452578029_2_alg».proof.Proof.HostRead

noncomputable section

namespace Cert.KernelIdeal.Entry

open Cert.KernelIdeal Cert.KernelIdeal.Gen Cert.KernelIdeal.Host Cert.KernelIdeal.Arrays Cert.KernelIdeal.Whole
open Idealize.ShloMosaic Idealize.ShloMosaic.ValueIdx Cert.Stage

variable (a0 : FVec Ideal S2x2048x4096 .f32) (a1 a2 : FVec Ideal S11008x4096 .f32) (a3 : FVec Ideal S4096x11008 .f32)

theorem row_lt (b : Fin 2) (s : Fin 2048) : b.val * 2048 + s.val < 4096 := by
  have := b.isLt; have := s.isLt; omega

/-- Row 2048·b + s of the tokens' matrix is token (b, s). -/
theorem row_eq (b : Fin 2) (s : Fin 2048) :
    (fun k : Fin 4096 => rows a0 (ix2 ⟨b.val * 2048 + s.val, row_lt b s⟩ k)) = fun k => a0 (ix3 b s k) :=
  funext fun k => rows_apply a0 b s k (row_lt b s)

/-- One of the first kernel's two products at token (b, s) and feature j, rescaled. -/
theorem prod_entry (w : FVec Ideal S11008x4096 .f32) (b : Fin 2) (s : Fin 2048) (j : Fin 11008) :
    (∑ k : Fin 4096, quant4096 (rows a0) (ix2 ⟨b.val * 2048 + s.val, row_lt b s⟩ k) * tern11008x4096 w (ix2 j k))
        * back4096 (rows a0) (mean11008x4096 w) (ix2 ⟨b.val * 2048 + s.val, row_lt b s⟩ 0)
      = (∑ k : Fin 4096, quant lo8 hi8 (rowTop (fun k : Fin 4096 => a0 (ix3 b s k))) (a0 (ix3 b s k)) * tern11008x4096 w (ix2 j k))
        * (Ideal.div (rowTop (fun k : Fin 4096 => a0 (ix3 b s k))) c127 * mean11008x4096 w ix0) := by
  rw [back4096_apply, row_eq a0 b s]
  refine congrArg (fun t => t * _) (Finset.sum_congr rfl fun k _ => ?_)
  rw [quant4096_apply, row_eq a0 b s, rows_apply a0 b s k (row_lt b s)]

/-- The gated activations at token (b, s) and feature j. -/
theorem gated_entry (b : Fin 2) (s : Fin 2048) (j : Fin 11008) :
    gatedOf a0 a1 a2 (ix2 ⟨b.val * 2048 + s.val, row_lt b s⟩ j)
      = max ((∑ k : Fin 4096, quant lo8 hi8 (rowTop (fun k : Fin 4096 => a0 (ix3 b s k))) (a0 (ix3 b s k)) * tern11008x4096 a1 (ix2 j k))
            * (Ideal.div (rowTop (fun k : Fin 4096 => a0 (ix3 b s k))) c127 * mean11008x4096 a1 ix0)) 0
        * max ((∑ k : Fin 4096, quant lo8 hi8 (rowTop (fun k : Fin 4096 => a0 (ix3 b s k))) (a0 (ix3 b s k)) * tern11008x4096 a1 (ix2 j k))
            * (Ideal.div (rowTop (fun k : Fin 4096 => a0 (ix3 b s k))) c127 * mean11008x4096 a1 ix0)) 0
        * ((∑ k : Fin 4096, quant lo8 hi8 (rowTop (fun k : Fin 4096 => a0 (ix3 b s k))) (a0 (ix3 b s k)) * tern11008x4096 a2 (ix2 j k))
            * (Ideal.div (rowTop (fun k : Fin 4096 => a0 (ix3 b s k))) c127 * mean11008x4096 a2 ix0)) := by
  rw [← prod_entry a0 a1 b s j, ← prod_entry a0 a2 b s j]
  rfl

/-- The result at token (b, s) and output feature n. -/
theorem result_entry (b : Fin 2) (s : Fin 2048) (n : Fin 4096) :
    resultOf a0 a1 a2 a3 (ix3 b s n)
      = (∑ j : Fin 11008, quant lo8 hi8 (rowTop (fun j : Fin 11008 => gatedOf a0 a1 a2 (ix2 ⟨b.val * 2048 + s.val, row_lt b s⟩ j)))
              (gatedOf a0 a1 a2 (ix2 ⟨b.val * 2048 + s.val, row_lt b s⟩ j)) * tern4096x11008 a3 (ix2 n j))
        * (Ideal.div (rowTop (fun j : Fin 11008 => gatedOf a0 a1 a2 (ix2 ⟨b.val * 2048 + s.val, row_lt b s⟩ j))) c127 * mean4096x11008 a3 ix0) := by
  unfold resultOf
  rw [unrows_apply _ b s n (row_lt b s)]
  show (∑ j : Fin 11008, quant11008 (gatedOf a0 a1 a2) (ix2 ⟨b.val * 2048 + s.val, row_lt b s⟩ j) * tern4096x11008 a3 (ix2 n j))
      * back11008 (gatedOf a0 a1 a2) (mean4096x11008 a3) (ix2 ⟨b.val * 2048 + s.val, row_lt b s⟩ 0) = _
  rw [back11008_apply]
  refine congrArg (fun t => t * _) (Finset.sum_congr rfl fun j _ => ?_)
  rw [quant11008_apply]

end Cert.KernelIdeal.Entry

end
-- ==== Proof.RefEntry.lean ====
/- The reference read at an entry. Each of its three quantized products is, by the stage law, the product of the
   quantized integers rescaled once; so its gated activations, and then its result, have at every entry the form the
   kernel computes. What is needed of the inputs is that they are reals. -/
import proofs.«153568_j18047452578029_2_alg».proof.Proof.RefRead
import proofs.«153568_j18047452578029_2_alg».proof.Proof.Stage
import Idealize.ShloMosaic.Lib.ValueIdx
import Idealize.ShloMosaic.PureOps.Ideal.Laws

noncomputable section

namespace Cert.ReferenceIdeal.Entry

open Cert.ReferenceIdeal Cert.ReferenceIdeal.Gen Cert.ReferenceIdeal.ReadP
open Idealize.ShloMosaic Idealize.ShloMosaic.ValueIdx Cert.Stage Cert.Algebra

theorem reduces4096 : S2x2048x4096.Reduces [2] S2x2048 := by decide
theorem lift4096 (b : Fin 2) (s : Fin 2048) (k : Fin (S2x2048x4096.size 2)) :
    reduces4096.lift (ix2 b s) k = ix3 b s (⟨k.val, k.isLt⟩ : Fin 4096) := by
  funext c; apply Fin.ext
  fin_cases c <;> rfl

theorem reduces11008 : S2x2048x11008.Reduces [2] S2x2048 := by decide
theorem lift11008 (b : Fin 2) (s : Fin 2048) (k : Fin (S2x2048x11008.size 2)) :
    reduces11008.lift (ix2 b s) k = ix3 b s (⟨k.val, k.isLt⟩ : Fin 11008) := by
  funext c; apply Fin.ext
  fin_cases c <;> rfl

/-- A reduce by maximum along the last axis of a [2, 2048, 4096] array, at token (b, s): the fold over the row. -/
theorem rowfold4096 (z : FVec Ideal S2x2048x4096 .f32) (init : FVec Ideal S_ .f32) (b : Fin 2) (s : Fin 2048) :
    Host.reduce FloatOps.maximumf z init reducesTo_S2x2048x4096_S2x2048_d2 h_S_ (ix2 b s)
      = (Finset.univ : Finset (Fin 4096)).fold max (init ix0) (fun k => z (ix3 b s k)) := by
  rw [Host.reduce_eq_fold_single FloatOps.maximumf z init reducesTo_S2x2048x4096_S2x2048_d2 reduces4096 h_S_ (ix2 b s)]
  have hf : (z ∘ reduces4096.lift (ix2 b s)) = fun k : Fin 4096 => z (ix3 b s k) :=
    funext fun k => congrArg z (lift4096 b s k)
  rw [hf, eq_ix0 (Shape.Idx.first h_S_)]
  rfl

/-- A reduce by maximum along the last axis of a [2, 2048, 11008] array, at token (b, s): the fold over the row. -/
theorem rowfold11008 (z : FVec Ideal S2x2048x11008 .f32) (init : FVec Ideal S_ .f32) (b : Fin 2) (s : Fin 2048) :
    Host.reduce FloatOps.maximumf z init reducesTo_S2x2048x11008_S2x2048_d2 h_S_ (ix2 b s)
      = (Finset.univ : Finset (Fin 11008)).fold max (init ix0) (fun k => z (ix3 b s k)) := by
  rw [Host.reduce_eq_fold_single FloatOps.maximumf z init reducesTo_S2x2048x11008_S2x2048_d2 reduces11008 h_S_ (ix2 b s)]
  have hf : (z ∘ reduces11008.lift (ix2 b s)) = fun k : Fin 11008 => z (ix3 b s k) :=
    funext fun k => congrArg z (lift11008 b s k)
  rw [hf, eq_ix0 (Shape.Idx.first h_S_)]
  rfl

/-! ### The gate weights -/

/-- The dequantized weight, as the reference spells it: the weight plus the difference to it. -/
theorem deq_wg (w : (⟨S11008x4096, .f32⟩ : BufTy).Contents (Elt Ideal)) (i : S11008x4096.Idx) :
    val_main_v26 (F := Ideal) w i
      = w i + (Ideal.div (val_main_v22 (F := Ideal) w i) (Ideal.div cOne (val_main_v17 (F := Ideal) w ix0)) - w i) := by
  rw [val_main_v26_apply, val_main_v25_apply, val_main_v24_apply, val_main_v23_apply, val_main_v18_apply,
    val_main_cst_6_apply, eq_ix0 (idx_main_v23 i)]
  rfl

/-- A quantized weight is a real: it is clipped between two reals. -/
theorem isReal_q_wg (w : (⟨S11008x4096, .f32⟩ : BufTy).Contents (Elt Ideal)) (i : S11008x4096.Idx) :
    IsReal (val_main_v22 (F := Ideal) w i) := by
  rw [val_main_v22_apply, val_main_call5_v4_apply, val_main_call5_v3_apply, val_main_call5_v2_apply,
    val_main_call5_v1_apply, val_main_call5_v0_apply]
  exact isReal_clip ⟨_, rfl⟩ ⟨_, rfl⟩

/-- The weights' mean magnitude, floored, is a positive real when the weights are reals. -/
theorem mean_pos_wg (w : (⟨S11008x4096, .f32⟩ : BufTy).Contents (Elt Ideal)) (hw : ∀ i, IsReal (w i)) :
    ∃ u : ℝ, 0 < u ∧ val_main_v17 (F := Ideal) w ix0 = (u : EReal) := by
  rw [val_main_v17_apply, val_main_call3_v0_apply, val_main_cst_5_apply, val_main_v16_apply,
    val_main_v15_apply, val_main_cst_4_apply, val_main_cst_3_apply]
  refine floored_real Cert.Consts.floor_pos (isReal_div (IsReal.add ⟨0, Ideal.ofBits_zero_f32⟩ (IsReal.sum _ _ fun j _ => ?_))
    (by norm_num : (45088768 : ℝ) ≠ 0) Cert.Consts.ofBits_count)
  rw [val_main_v14_apply]
  exact (hw j).abs

/-! ### The up weights -/

/-- The dequantized weight, as the reference spells it: the weight plus the difference to it. -/
theorem deq_wu (w : (⟨S11008x4096, .f32⟩ : BufTy).Contents (Elt Ideal)) (i : S11008x4096.Idx) :
    val_main_v56 (F := Ideal) w i
      = w i + (Ideal.div (val_main_v52 (F := Ideal) w i) (Ideal.div cOne (val_main_v47 (F := Ideal) w ix0)) - w i) := by
  rw [val_main_v56_apply, val_main_v55_apply, val_main_v54_apply, val_main_v53_apply, val_main_v48_apply,
    val_main_cst_17_apply, eq_ix0 (idx_main_v53 i)]
  rfl

/-- A quantized weight is a real: it is clipped between two reals. -/
theorem isReal_q_wu (w : (⟨S11008x4096, .f32⟩ : BufTy).Contents (Elt Ideal)) (i : S11008x4096.Idx) :
    IsReal (val_main_v52 (F := Ideal) w i) := by
  rw [val_main_v52_apply, val_main_call12_v4_apply, val_main_call12_v3_apply, val_main_call12_v2_apply,
    val_main_call12_v1_apply, val_main_call12_v0_apply]
  exact isReal_clip ⟨_, rfl⟩ ⟨_, rfl⟩

/-- The weights' mean magnitude, floored, is a positive real when the weights are reals. -/
theorem mean_pos_wu (w : (⟨S11008x4096, .f32⟩ : BufTy).Contents (Elt Ideal)) (hw : ∀ i, IsReal (w i)) :
    ∃ u : ℝ, 0 < u ∧ val_main_v47 (F := Ideal) w ix0 = (u : EReal) := by
  rw [val_main_v47_apply, val_main_call10_v0_apply, val_main_cst_16_apply, val_main_v46_apply,
    val_main_v45_apply, val_main_cst_15_apply, val_main_cst_14_apply]
  refine floored_real Cert.Consts.floor_pos (isReal_div (IsReal.add ⟨0, Ideal.ofBits_zero_f32⟩ (IsReal.sum _ _ fun j _ => ?_))
    (by norm_num : (45088768 : ℝ) ≠ 0) Cert.Consts.ofBits_count)
  rw [val_main_v44_apply]
  exact (hw j).abs

/-! ### The down weights -/

/-- The dequantized weight, as the reference spells it: the weight plus the difference to it. -/
theorem deq_wd (w : (⟨S4096x11008, .f32⟩ : BufTy).Contents (Elt Ideal)) (i : S4096x11008.Idx) :
    val_main_v85 (F := Ideal) w i
      = w i + (Ideal.div (val_main_v81 (F := Ideal) w i) (Ideal.div cOne (val_main_v76 (F := Ideal) w ix0)) - w i) := by
  rw [val_main_v85_apply, val_main_v84_apply, val_main_v83_apply, val_main_v82_apply, val_main_v77_apply,
    val_main_cst_28_apply, eq_ix0 (idx_main_v82 i)]
  rfl

/-- A quantized weight is a real: it is clipped between two reals. -/
theorem isReal_q_wd (w : (⟨S4096x11008, .f32⟩ : BufTy).Contents (Elt Ideal)) (i : S4096x11008.Idx) :
    IsReal (val_main_v81 (F := Ideal) w i) := by
  rw [val_main_v81_apply, val_main_call18_v4_apply, val_main_call18_v3_apply, val_main_call18_v2_apply,
    val_main_call18_v1_apply, val_main_call18_v0_apply]
  exact isReal_clip ⟨_, rfl⟩ ⟨_, rfl⟩

/-- The weights' mean magnitude, floored, is a positive real when the weights are reals. -/
theorem mean_pos_wd (w : (⟨S4096x11008, .f32⟩ : BufTy).Contents (Elt Ideal)) (hw : ∀ i, IsReal (w i)) :
    ∃ u : ℝ, 0 < u ∧ val_main_v76 (F := Ideal) w ix0 = (u : EReal) := by
  rw [val_main_v76_apply, val_main_call16_v0_apply, val_main_cst_27_apply, val_main_v75_apply,
    val_main_v74_apply, val_main_cst_26_apply, val_main_cst_25_apply]
  refine floored_real Cert.Consts.floor_pos (isReal_div (IsReal.add ⟨0, Ideal.ofBits_zero_f32⟩ (IsReal.sum _ _ fun j _ => ?_))
    (by norm_num : (45088768 : ℝ) ≠ 0) Cert.Consts.ofBits_count)
  rw [val_main_v73_apply]
  exact (hw j).abs

/-! ### The tokens quantized for the gate product -/

/-- The token's top: the floored largest magnitude of its row. -/
theorem top_xg (x0 : (⟨S2x2048x4096, .f32⟩ : BufTy).Contents (Elt Ideal)) (b : Fin 2) (s : Fin 2048) :
    val_main_v3 (F := Ideal) x0 (ix3 b s 0) = rowTop (fun k : Fin 4096 => x0 (ix3 b s k)) := by
  rw [val_main_v3_apply, val_main_call0_v1_apply, val_main_call0_v0_apply, val_main_cst_0_apply, val_main_v2_apply]
  have hi : idx_main_v2 (ix3 b s (0 : Fin 1)) = ix2 b s := funext fun a => by
    match a with
    | ⟨0, _⟩ => rfl
    | ⟨1, _⟩ => rfl
  rw [hi]
  unfold val_main_v1 rowTop
  refine (congrArg (fun t => max cFloor t) (rowfold4096 (val_main_v0 (F := Ideal) x0) (val_main_cst (F := Ideal)) b s)).trans ?_
  rfl

/-- The dequantized entry, as the reference spells it: the entry plus the difference to it. -/
theorem deq_xg (x0 : (⟨S2x2048x4096, .f32⟩ : BufTy).Contents (Elt Ideal)) (b : Fin 2) (s : Fin 2048) (k : Fin 4096) :
    val_main_v13 (F := Ideal) x0 (ix3 b s k)
      = x0 (ix3 b s k)
        + (Ideal.div (quant lo8 hi8 (rowTop (fun k : Fin 4096 => x0 (ix3 b s k))) (x0 (ix3 b s k)))
            (Ideal.div c127 (rowTop (fun k : Fin 4096 => x0 (ix3 b s k)))) - x0 (ix3 b s k)) := by
  have hi : ∀ i' : S2x2048x1.Idx, i' = ix3 b s (0 : Fin 1) → val_main_v5 (F := Ideal) x0 i'
      = Ideal.div c127 (rowTop (fun k : Fin 4096 => x0 (ix3 b s k))) := fun i' e => by
    rw [e, val_main_v5_apply, val_main_v4_apply, val_main_cst_1_apply, top_xg]
    rfl
  have h6 : idx_main_v6 (ix3 b s k) = ix3 b s (0 : Fin 1) := funext fun a => by
    match a with
    | ⟨0, _⟩ => rfl
    | ⟨1, _⟩ => rfl
    | ⟨2, _⟩ => rfl
  have h10 : idx_main_v10 (ix3 b s k) = ix3 b s (0 : Fin 1) := funext fun a => by
    match a with
    | ⟨0, _⟩ => rfl
    | ⟨1, _⟩ => rfl
    | ⟨2, _⟩ => rfl
  rw [val_main_v13_apply, val_main_v12_apply, val_main_v11_apply, val_main_v10_apply, hi _ h10,
    val_main_v9_apply, val_main_call2_v4_apply, val_main_call2_v3_apply, val_main_c_2_apply,
    val_main_call2_v2_apply, val_main_call2_v1_apply, val_main_call2_v0_apply, val_main_c_apply,
    val_main_v8_apply, val_main_v7_apply, val_main_v6_apply, hi _ h6]
  rfl

/-! ### The tokens quantized for the up product -/

/-- The token's top: the floored largest magnitude of its row. -/
theorem top_xu (x0 : (⟨S2x2048x4096, .f32⟩ : BufTy).Contents (Elt Ideal)) (b : Fin 2) (s : Fin 2048) :
    val_main_v33 (F := Ideal) x0 (ix3 b s 0) = rowTop (fun k : Fin 4096 => x0 (ix3 b s k)) := by
  rw [val_main_v33_apply, val_main_call7_v1_apply, val_main_call7_v0_apply, val_main_cst_10_apply, val_main_v32_apply]
  have hi : idx_main_v32 (ix3 b s (0 : Fin 1)) = ix2 b s := funext fun a => by
    match a with
    | ⟨0, _⟩ => rfl
    | ⟨1, _⟩ => rfl
  rw [hi]
  unfold val_main_v31 rowTop
  refine (congrArg (fun t => max cFloor t) (rowfold4096 (val_main_v30 (F := Ideal) x0) (val_main_cst_9 (F := Ideal)) b s)).trans ?_
  rfl

/-- The dequantized entry, as the reference spells it: the entry plus the difference to it. -/
theorem deq_xu (x0 : (⟨S2x2048x4096, .f32⟩ : BufTy).Contents (Elt Ideal)) (b : Fin 2) (s : Fin 2048) (k : Fin 4096) :
    val_main_v43 (F := Ideal) x0 (ix3 b s k)
      = x0 (ix3 b s k)
        + (Ideal.div (quant lo8 hi8 (rowTop (fun k : Fin 4096 => x0 (ix3 b s k))) (x0 (ix3 b s k)))
            (Ideal.div c127 (rowTop (fun k : Fin 4096 => x0 (ix3 b s k)))) - x0 (ix3 b s k)) := by
  have hi : ∀ i' : S2x2048x1.Idx, i' = ix3 b s (0 : Fin 1) → val_main_v35 (F := Ideal) x0 i'
      = Ideal.div c127 (rowTop (fun k : Fin 4096 => x0 (ix3 b s k))) := fun i' e => by
    rw [e, val_main_v35_apply, val_main_v34_apply, val_main_cst_11_apply, top_xu]
    rfl
  have h6 : idx_main_v36 (ix3 b s k) = ix3 b s (0 : Fin 1) := funext fun a => by
    match a with
    | ⟨0, _⟩ => rfl
    | ⟨1, _⟩ => rfl
    | ⟨2, _⟩ => rfl
  have h10 : idx_main_v40 (ix3 b s k) = ix3 b s (0 : Fin 1) := funext fun a => by
    match a with
    | ⟨0, _⟩ => rfl
    | ⟨1, _⟩ => rfl
    | ⟨2, _⟩ => rfl
  rw [val_main_v43_apply, val_main_v42_apply, val_main_v41_apply, val_main_v40_apply, hi _ h10,
    val_main_v39_apply, val_main_call9_v4_apply, val_main_call9_v3_apply, val_main_c_13_apply,
    val_main_call9_v2_apply, val_main_call9_v1_apply, val_main_call9_v0_apply, val_main_c_12_apply,
    val_main_v38_apply, val_main_v37_apply, val_main_v36_apply, hi _ h6]
  rfl

/-! ### The gate and up products, and the gated activations -/

/-- The gate product at token (b, s) and feature j. -/
theorem gate_ref (x0 : (⟨S2x2048x4096, .f32⟩ : BufTy).Contents (Elt Ideal)) (x1 : (⟨S11008x4096, .f32⟩ : BufTy).Contents (Elt Ideal)) (hx : ∀ i, IsReal (x0 i)) (hw : ∀ i, IsReal (x1 i)) (b : Fin 2) (s : Fin 2048) (j : Fin 11008) :
    val_main_v27 (F := Ideal) x0 x1 (ix3 b s j)
      = (∑ k : Fin 4096, quant lo8 hi8 (rowTop (fun k : Fin 4096 => x0 (ix3 b s k))) (x0 (ix3 b s k)) * val_main_v22 (F := Ideal) x1 (ix2 j k))
        * (Ideal.div (rowTop (fun k : Fin 4096 => x0 (ix3 b s k))) c127 * val_main_v17 (F := Ideal) x1 ix0) := by
  rw [val_main_v27_apply]
  have hl : ∀ k : Fin 4096, lidx_main_v27 (ix3 b s j) k = ix3 b s k := fun k => funext fun a => by
    match a with
    | ⟨0, _⟩ => rfl
    | ⟨1, _⟩ => rfl
    | ⟨2, _⟩ => rfl
  have hr : ∀ k : Fin 4096, ridx_main_v27 (ix3 b s j) k = ix2 j k := fun k => funext fun a => by
    match a with
    | ⟨0, _⟩ => rfl
    | ⟨1, _⟩ => rfl
  rw [Finset.sum_congr rfl fun k _ => show _ = (x0 (ix3 b s k)
        + (Ideal.div (quant lo8 hi8 (rowTop (fun k : Fin 4096 => x0 (ix3 b s k))) (x0 (ix3 b s k)))
            (Ideal.div c127 (rowTop (fun k : Fin 4096 => x0 (ix3 b s k)))) - x0 (ix3 b s k)))
      * (x1 (ix2 j k) + (Ideal.div (val_main_v22 (F := Ideal) x1 (ix2 j k)) (Ideal.div cOne (val_main_v17 (F := Ideal) x1 ix0)) - x1 (ix2 j k)))
    by rw [hl k, hr k, deq_xg, deq_wg]]
  exact stage (fun k : Fin 4096 => x0 (ix3 b s k)) (fun k => x1 (ix2 j k)) (fun k => val_main_v22 (F := Ideal) x1 (ix2 j k)) _ lo8 hi8
    (fun k => hx _) (fun k => hw _) (fun k => isReal_q_wg x1 _) (mean_pos_wg x1 hw) isReal_lo8 isReal_hi8

/-- The up product at token (b, s) and feature j. -/
theorem up_ref (x0 : (⟨S2x2048x4096, .f32⟩ : BufTy).Contents (Elt Ideal)) (x2 : (⟨S11008x4096, .f32⟩ : BufTy).Contents (Elt Ideal)) (hx : ∀ i, IsReal (x0 i)) (hw : ∀ i, IsReal (x2 i)) (b : Fin 2) (s : Fin 2048) (j : Fin 11008) :
    val_main_v57 (F := Ideal) x0 x2 (ix3 b s j)
      = (∑ k : Fin 4096, quant lo8 hi8 (rowTop (fun k : Fin 4096 => x0 (ix3 b s k))) (x0 (ix3 b s k)) * val_main_v52 (F := Ideal) x2 (ix2 j k))
        * (Ideal.div (rowTop (fun k : Fin 4096 => x0 (ix3 b s k))) c127 * val_main_v47 (F := Ideal) x2 ix0) := by
  rw [val_main_v57_apply]
  have hl : ∀ k : Fin 4096, lidx_main_v57 (ix3 b s j) k = ix3 b s k := fun k => funext fun a => by
    match a with
    | ⟨0, _⟩ => rfl
    | ⟨1, _⟩ => rfl
    | ⟨2, _⟩ => rfl
  have hr : ∀ k : Fin 4096, ridx_main_v57 (ix3 b s j) k = ix2 j k := fun k => funext fun a => by
    match a with
    | ⟨0, _⟩ => rfl
    | ⟨1, _⟩ => rfl
  rw [Finset.sum_congr rfl fun k _ => show _ = (x0 (ix3 b s k)
        + (Ideal.div (quant lo8 hi8 (rowTop (fun k : Fin 4096 => x0 (ix3 b s k))) (x0 (ix3 b s k)))
            (Ideal.div c127 (rowTop (fun k : Fin 4096 => x0 (ix3 b s k)))) - x0 (ix3 b s k)))
      * (x2 (ix2 j k) + (Ideal.div (val_main_v52 (F := Ideal) x2 (ix2 j k)) (Ideal.div cOne (val_main_v47 (F := Ideal) x2 ix0)) - x2 (ix2 j k)))
    by rw [hl k, hr k, deq_xu, deq_wu]]
  exact stage (fun k : Fin 4096 => x0 (ix3 b s k)) (fun k => x2 (ix2 j k)) (fun k => val_main_v52 (F := Ideal) x2 (ix2 j k)) _ lo8 hi8
    (fun k => hx _) (fun k => hw _) (fun k => isReal_q_wu x2 _) (mean_pos_wu x2 hw) isReal_lo8 isReal_hi8

/-- The gated activations at token (b, s) and feature j: the gate floored at zero, squared, times the up. -/
theorem gated_ref (x0 : (⟨S2x2048x4096, .f32⟩ : BufTy).Contents (Elt Ideal)) (x1 : (⟨S11008x4096, .f32⟩ : BufTy).Contents (Elt Ideal)) (x2 : (⟨S11008x4096, .f32⟩ : BufTy).Contents (Elt Ideal)) (b : Fin 2) (s : Fin 2048) (j : Fin 11008) :
    val_main_v58 (F := Ideal) x0 x1 x2 (ix3 b s j)
      = max (val_main_v27 (F := Ideal) x0 x1 (ix3 b s j)) 0 * max (val_main_v27 (F := Ideal) x0 x1 (ix3 b s j)) 0
        * val_main_v57 (F := Ideal) x0 x2 (ix3 b s j) := by
  rw [val_main_v58_apply, val_main_v29_apply, val_main_v28_apply, val_main_call6_v0_apply, val_main_call6_cst_apply]
  show max _ (Ideal.ofBits .f32 0x00000000#32) * max _ (Ideal.ofBits .f32 0x00000000#32) * _ = _
  rw [Ideal.ofBits_zero_f32]

/-- They are reals when the inputs are. -/
theorem isReal_gated (x0 : (⟨S2x2048x4096, .f32⟩ : BufTy).Contents (Elt Ideal)) (x1 : (⟨S11008x4096, .f32⟩ : BufTy).Contents (Elt Ideal)) (x2 : (⟨S11008x4096, .f32⟩ : BufTy).Contents (Elt Ideal)) (hx : ∀ i, IsReal (x0 i)) (h1 : ∀ i, IsReal (x1 i)) (h2 : ∀ i, IsReal (x2 i))
    (b : Fin 2) (s : Fin 2048) (j : Fin 11008) : IsReal (val_main_v58 (F := Ideal) x0 x1 x2 (ix3 b s j)) := by
  rw [gated_ref, gate_ref x0 x1 hx h1, up_ref x0 x2 hx h2]
  have hg := isReal_stage (fun k : Fin 4096 => x0 (ix3 b s k)) (fun k => val_main_v22 (F := Ideal) x1 (ix2 j k)) _ lo8 hi8
    (fun k => hx _) (fun k => isReal_q_wg x1 _) (mean_pos_wg x1 h1) isReal_lo8 isReal_hi8
  have hu := isReal_stage (fun k : Fin 4096 => x0 (ix3 b s k)) (fun k => val_main_v52 (F := Ideal) x2 (ix2 j k)) _ lo8 hi8
    (fun k => hx _) (fun k => isReal_q_wu x2 _) (mean_pos_wu x2 h2) isReal_lo8 isReal_hi8
  exact ((hg.max IsReal.zero).mul (hg.max IsReal.zero)).mul hu

/-! ### The gated activations quantized for the down product -/

/-- The token's top: the floored largest magnitude of its row. -/
theorem top_g (x0 : (⟨S2x2048x4096, .f32⟩ : BufTy).Contents (Elt Ideal)) (x1 x2 : (⟨S11008x4096, .f32⟩ : BufTy).Contents (Elt Ideal)) (b : Fin 2) (s : Fin 2048) :
    val_main_v62 (F := Ideal) x0 x1 x2 (ix3 b s 0) = rowTop (fun k : Fin 11008 => val_main_v58 (F := Ideal) x0 x1 x2 (ix3 b s k)) := by
  rw [val_main_v62_apply, val_main_call13_v1_apply, val_main_call13_v0_apply, val_main_cst_21_apply, val_main_v61_apply]
  have hi : idx_main_v61 (ix3 b s (0 : Fin 1)) = ix2 b s := funext fun a => by
    match a with
    | ⟨0, _⟩ => rfl
    | ⟨1, _⟩ => rfl
  rw [hi]
  unfold val_main_v60 rowTop
  refine (congrArg (fun t => max cFloor t) (rowfold11008 (val_main_v59 (F := Ideal) x0 x1 x2) (val_main_cst_20 (F := Ideal)) b s)).trans ?_
  rfl

/-- The dequantized entry, as the reference spells it: the entry plus the difference to it. -/
theorem deq_g (x0 : (⟨S2x2048x4096, .f32⟩ : BufTy).Contents (Elt Ideal)) (x1 x2 : (⟨S11008x4096, .f32⟩ : BufTy).Contents (Elt Ideal)) (b : Fin 2) (s : Fin 2048) (k : Fin 11008) :
    val_main_v72 (F := Ideal) x0 x1 x2 (ix3 b s k)
      = val_main_v58 (F := Ideal) x0 x1 x2 (ix3 b s k)
        + (Ideal.div (quant lo8 hi8 (rowTop (fun k : Fin 11008 => val_main_v58 (F := Ideal) x0 x1 x2 (ix3 b s k))) (val_main_v58 (F := Ideal) x0 x1 x2 (ix3 b s k)))
            (Ideal.div c127 (rowTop (fun k : Fin 11008 => val_main_v58 (F := Ideal) x0 x1 x2 (ix3 b s k)))) - val_main_v58 (F := Ideal) x0 x1 x2 (ix3 b s k)) := by
  have hi : ∀ i' : S2x2048x1.Idx, i' = ix3 b s (0 : Fin 1) → val_main_v64 (F := Ideal) x0 x1 x2 i'
      = Ideal.div c127 (rowTop (fun k : Fin 11008 => val_main_v58 (F := Ideal) x0 x1 x2 (ix3 b s k))) := fun i' e => by
    rw [e, val_main_v64_apply, val_main_v63_apply, val_main_cst_22_apply, top_g]
    rfl
  have h6 : idx_main_v65 (ix3 b s k) = ix3 b s (0 : Fin 1) := funext fun a => by
    match a with
    | ⟨0, _⟩ => rfl
    | ⟨1, _⟩ => rfl
    | ⟨2, _⟩ => rfl
  have h10 : idx_main_v69 (ix3 b s k) = ix3 b s (0 : Fin 1) := funext fun a => by
    match a with
    | ⟨0, _⟩ => rfl
    | ⟨1, _⟩ => rfl
    | ⟨2, _⟩ => rfl
  rw [val_main_v72_apply, val_main_v71_apply, val_main_v70_apply, val_main_v69_apply, hi _ h10,
    val_main_v68_apply, val_main_call15_v4_apply, val_main_call15_v3_apply, val_main_c_24_apply,
    val_main_call15_v2_apply, val_main_call15_v1_apply, val_main_call15_v0_apply, val_main_c_23_apply,
    val_main_v67_apply, val_main_v66_apply, val_main_v65_apply, hi _ h6]
  rfl

/-! ### The result -/

/-- The reference's result at token (b, s) and output feature n: the quantized gated row against the quantized down
    weights' row n, rescaled once. -/
theorem result_ref (x0 : (⟨S2x2048x4096, .f32⟩ : BufTy).Contents (Elt Ideal)) (x1 : (⟨S11008x4096, .f32⟩ : BufTy).Contents (Elt Ideal)) (x2 : (⟨S11008x4096, .f32⟩ : BufTy).Contents (Elt Ideal)) (x3 : (⟨S4096x11008, .f32⟩ : BufTy).Contents (Elt Ideal))
    (hx : ∀ i, IsReal (x0 i)) (h1 : ∀ i, IsReal (x1 i)) (h2 : ∀ i, IsReal (x2 i)) (hw : ∀ i, IsReal (x3 i))
    (b : Fin 2) (s : Fin 2048) (j : Fin 4096) :
    val_main_v86 (F := Ideal) x0 x1 x2 x3 (ix3 b s j)
      = (∑ k : Fin 11008, quant lo8 hi8 (rowTop (fun k : Fin 11008 => val_main_v58 (F := Ideal) x0 x1 x2 (ix3 b s k))) (val_main_v58 (F := Ideal) x0 x1 x2 (ix3 b s k)) * val_main_v81 (F := Ideal) x3 (ix2 j k))
        * (Ideal.div (rowTop (fun k : Fin 11008 => val_main_v58 (F := Ideal) x0 x1 x2 (ix3 b s k))) c127 * val_main_v76 (F := Ideal) x3 ix0) := by
  rw [val_main_v86_apply]
  have hl : ∀ k : Fin 11008, lidx_main_v86 (ix3 b s j) k = ix3 b s k := fun k => funext fun a => by
    match a with
    | ⟨0, _⟩ => rfl
    | ⟨1, _⟩ => rfl
    | ⟨2, _⟩ => rfl
  have hr : ∀ k : Fin 11008, ridx_main_v86 (ix3 b s j) k = ix2 j k := fun k => funext fun a => by
    match a with
    | ⟨0, _⟩ => rfl
    | ⟨1, _⟩ => rfl
  rw [Finset.sum_congr rfl fun k _ => show _ = (val_main_v58 (F := Ideal) x0 x1 x2 (ix3 b s k)
        + (Ideal.div (quant lo8 hi8 (rowTop (fun k : Fin 11008 => val_main_v58 (F := Ideal) x0 x1 x2 (ix3 b s k))) (val_main_v58 (F := Ideal) x0 x1 x2 (ix3 b s k)))
            (Ideal.div c127 (rowTop (fun k : Fin 11008 => val_main_v58 (F := Ideal) x0 x1 x2 (ix3 b s k)))) - val_main_v58 (F := Ideal) x0 x1 x2 (ix3 b s k)))
      * (x3 (ix2 j k) + (Ideal.div (val_main_v81 (F := Ideal) x3 (ix2 j k)) (Ideal.div cOne (val_main_v76 (F := Ideal) x3 ix0)) - x3 (ix2 j k)))
    by rw [hl k, hr k, deq_g, deq_wd]]
  exact stage (fun k : Fin 11008 => val_main_v58 (F := Ideal) x0 x1 x2 (ix3 b s k)) (fun k => x3 (ix2 j k)) (fun k => val_main_v81 (F := Ideal) x3 (ix2 j k)) _ lo8 hi8
    (fun k => isReal_gated x0 x1 x2 hx h1 h2 b s k) (fun k => hw _) (fun k => isReal_q_wd x3 _) (mean_pos_wd x3 hw) isReal_lo8 isReal_hi8

end Cert.ReferenceIdeal.Entry

end
-- ==== Proof.Bridge.lean ====
/- The two programs compute one function. The quantized weights and their means are spelt identically by both
   (on the same shapes), so they are the same arrays; at token (b, s) the kernel's gated activations and the
   reference's have, by the stage law, the same form, hence the same top and the same quantized row; and so have the
   two results. Needed of the inputs: every entry a real. -/
import proofs.«153568_j18047452578029_2_alg».proof.Proof.KernelEntry
import proofs.«153568_j18047452578029_2_alg».proof.Proof.RefEntry

noncomputable section

namespace Cert.Bridge

open Idealize.ShloMosaic Idealize.ShloMosaic.ValueIdx Cert.Stage Cert.Algebra
open Cert.KernelIdeal.Host Cert.KernelIdeal.Whole Cert.KernelIdeal.Entry
open Cert.ReferenceIdeal.ReadP Cert.ReferenceIdeal.Entry

/-! ## The quantized weights and their means are the same arrays -/

theorem tern_g (w : FVec Ideal Cert.KernelIdeal.S11008x4096 .f32) (i : Cert.KernelIdeal.S11008x4096.Idx) :
    tern11008x4096 w i = val_main_v22 (F := Ideal) w i := rfl
theorem tern_u (w : FVec Ideal Cert.KernelIdeal.S11008x4096 .f32) (i : Cert.KernelIdeal.S11008x4096.Idx) :
    tern11008x4096 w i = val_main_v52 (F := Ideal) w i := rfl
theorem tern_d (w : FVec Ideal Cert.KernelIdeal.S4096x11008 .f32) (i : Cert.KernelIdeal.S4096x11008.Idx) :
    tern4096x11008 w i = val_main_v81 (F := Ideal) w i := rfl
theorem mean_g (w : FVec Ideal Cert.KernelIdeal.S11008x4096 .f32) : mean11008x4096 w ix0 = val_main_v17 (F := Ideal) w ix0 := rfl
theorem mean_u (w : FVec Ideal Cert.KernelIdeal.S11008x4096 .f32) : mean11008x4096 w ix0 = val_main_v47 (F := Ideal) w ix0 := rfl
theorem mean_d (w : FVec Ideal Cert.KernelIdeal.S4096x11008 .f32) : mean4096x11008 w ix0 = val_main_v76 (F := Ideal) w ix0 := rfl

variable (a0 : FVec Ideal Cert.KernelIdeal.S2x2048x4096 .f32) (a1 a2 : FVec Ideal Cert.KernelIdeal.S11008x4096 .f32)
  (a3 : FVec Ideal Cert.KernelIdeal.S4096x11008 .f32)

/-- The gated activations agree at every token and feature. -/
theorem gated_same (h0 : ∀ i, IsReal (a0 i)) (h1 : ∀ i, IsReal (a1 i)) (h2 : ∀ i, IsReal (a2 i)) (b : Fin 2) (s : Fin 2048) (j : Fin 11008) :
    gatedOf a0 a1 a2 (ix2 ⟨b.val * 2048 + s.val, row_lt b s⟩ j) = val_main_v58 (F := Ideal) a0 a1 a2 (ix3 b s j) := by
  rw [gated_entry, gated_ref, gate_ref a0 a1 h0 h1, up_ref a0 a2 h0 h2]
  simp only [tern_g a1, tern_u a2, mean_g a1, mean_u a2]

/-- The results agree at every entry. -/
theorem result_same (h0 : ∀ i, IsReal (a0 i)) (h1 : ∀ i, IsReal (a1 i)) (h2 : ∀ i, IsReal (a2 i)) (h3 : ∀ i, IsReal (a3 i)) (i : Cert.KernelIdeal.S2x2048x4096.Idx) :
    resultOf a0 a1 a2 a3 i = val_main_v86 (F := Ideal) a0 a1 a2 a3 i := by
  obtain ⟨b, s, n, rfl⟩ : ∃ (b : Fin 2) (s : Fin 2048) (n : Fin 4096), i = ix3 b s n := ⟨i 0, i 1, i 2, eq_ix3 i⟩
  have hrow : (fun j : Fin 11008 => gatedOf a0 a1 a2 (ix2 ⟨b.val * 2048 + s.val, row_lt b s⟩ j))
      = fun j : Fin 11008 => val_main_v58 (F := Ideal) a0 a1 a2 (ix3 b s j) :=
    funext fun j => gated_same a0 a1 a2 h0 h1 h2 b s j
  rw [result_entry, result_ref a0 a1 a2 a3 h0 h1 h2 h3, hrow]
  simp only [tern_d, mean_d, gated_same a0 a1 a2 h0 h1 h2]

/-- The two results are one array. -/
theorem result_eq (h0 : ∀ i, IsReal (a0 i)) (h1 : ∀ i, IsReal (a1 i)) (h2 : ∀ i, IsReal (a2 i)) (h3 : ∀ i, IsReal (a3 i)) : resultOf a0 a1 a2 a3 = val_main_v86 (F := Ideal) a0 a1 a2 a3 :=
  funext fun i => result_same a0 a1 a2 a3 h0 h1 h2 h3 i

end Cert.Bridge

end
-- ==== Proof.RealInputs.lean ====
/- The precondition read back: it is the conjunction of four "every entry has a magnitude below +infinity", one per
   argument array; on the extended reals a magnitude max x (-x) is below the top exactly when x is a real. -/
import proofs.«153568_j18047452578029_2_alg».proof.Pre_finite_inputs
import proofs.«153568_j18047452578029_2_alg».proof.Proof.Algebra
import Idealize.ShloMosaic.Lib.ReduceAll
import Idealize.ShloMosaic.Lib.ValueIdx

noncomputable section

namespace Cert.RealInputs

open Idealize.ShloMosaic Cert.Algebra Cert.Pre_finite_inputs

instance : Subsingleton S_.Idx := ⟨fun a b => funext fun d => d.elim0⟩

/-- An extended real whose magnitude is below +infinity is a real. -/
theorem isReal_of_below (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

variable [Facts]

/-- Under the precondition every entry of every argument array is a real. -/
theorem real_inputs (a0 : FVec Ideal S2x2048x4096 .f32) (a1 a2 : FVec Ideal S11008x4096 .f32) (a3 : FVec Ideal S4096x11008 .f32)
    (h : fn (F := Ideal) a0 a1 a2 a3 = fun _ => 1#1) :
    (∀ i, IsReal (a0 i)) ∧ (∀ i, IsReal (a1 i)) ∧ (∀ i, IsReal (a2 i)) ∧ (∀ i, IsReal (a3 i)) := by
  have h0 := congrFun h ValueIdx.ix0
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨fun i => isReal_of_below _ (Host.reduce_andi_all _ _ _ _ _ h0' i),
    fun i => isReal_of_below _ (Host.reduce_andi_all _ _ _ _ _ h1 i),
    fun i => isReal_of_below _ (Host.reduce_andi_all _ _ _ _ _ h2 i),
    fun i => isReal_of_below _ (Host.reduce_andi_all _ _ _ _ _ h3 i)⟩

end Cert.RealInputs

end
-- ==== Proof.lean ====
/- A gated MLP whose three linear layers are quantized (activations per token row to the integers of [-128, 127] at
   the scale 127 / M, with M the row's largest magnitude floored at 1e-5; weights per matrix to {-1, 0, 1} at the
   scale 1 / μ, with μ the mean magnitude floored at 1e-5), computed two ways.
   The kernel multiplies the INTEGERS on two grids and rescales once per entry: on the first grid
   max((X_int · Wg_intᵀ) · (M/127 · μ_g), 0)² · ((X_int · Wu_intᵀ) · (M/127 · μ_u)), then, after quantizing those gated
   activations the same way, on the second grid (G_int · Wd_intᵀ) · (M'/127 · μ_d). The reference multiplies the
   DEQUANTIZED values, each spelt "the original plus the difference to it": x + (q/(127/M) − x) and w + (w_int/(1/μ) − w).
   On the extended reals the two agree whenever every input is a real, which is the precondition: then every top M is
   a positive real, every quantized value is a real because it is clipped between two reals, x + (v − x) = v, a
   quotient by 127/M is a product with M/127, a quotient by 1/μ a product with μ, and the two common factors leave
   the sum (Proof/Stage.lean). The kernel's value is read off its run over five segments — host operations, the first
   grid, host operations, the second grid, the final reshape (Proof/KernelRun.lean, Proof/KernelValue.lean; the
   grids' arrays in Proof/ArrayA.lean and Proof/ArrayB.lean over the bodies' entries Proof/BodyA.lean, Proof/BodyB.lean)
   — and read at an entry in Proof/KernelEntry.lean; the reference's value in Proof/RefValue.lean and, at an entry, in
   Proof/RefEntry.lean; Proof/Bridge.lean joins them; Proof/RealInputs.lean reads the precondition back. The idealized
   kernel is the kernel's own text read at the extended reals: nothing was rewritten, so that claim is trivial. -/
import proofs.«153568_j18047452578029_2_alg».proof.Defs
import proofs.«153568_j18047452578029_2_alg».proof.Proof.Gen.Kernel
import proofs.«153568_j18047452578029_2_alg».proof.Proof.Gen.Kernel.Skeleton
import proofs.«153568_j18047452578029_2_alg».proof.Proof.Gen.Kernel.Launch
import proofs.«153568_j18047452578029_2_alg».proof.Proof.Gen.Kernel.Points
import proofs.«153568_j18047452578029_2_alg».proof.Proof.Gen.Kernel.Frame
import proofs.«153568_j18047452578029_2_alg».proof.Proof.Gen.KernelIdeal
import proofs.«153568_j18047452578029_2_alg».proof.Proof.Gen.KernelIdeal.Skeleton
import proofs.«153568_j18047452578029_2_alg».proof.Proof.Gen.KernelIdeal.Launch
import proofs.«153568_j18047452578029_2_alg».proof.Proof.Gen.KernelIdeal.Points
import proofs.«153568_j18047452578029_2_alg».proof.Proof.Gen.KernelIdeal.Frame
import proofs.«153568_j18047452578029_2_alg».proof.Proof.Gen.ReferenceIdeal
import proofs.«153568_j18047452578029_2_alg».proof.Proof.RefRun
import proofs.«153568_j18047452578029_2_alg».proof.Proof.RefRead
import proofs.«153568_j18047452578029_2_alg».proof.Proof.Gen.Pre_finite_inputs
import proofs.«153568_j18047452578029_2_alg».proof.Proof.KernelRun
import proofs.«153568_j18047452578029_2_alg».proof.Proof.KernelValue
import proofs.«153568_j18047452578029_2_alg».proof.Proof.RefValue
import proofs.«153568_j18047452578029_2_alg».proof.Proof.Bridge
import proofs.«153568_j18047452578029_2_alg».proof.Proof.RealInputs
import Idealize.ShloMosaic.Adequacy
import Idealize.ShloMosaic.Init

noncomputable section

namespace Cert.Proof

open Idealize.ShloMosaic Idealize.SL.Sem Idealize.ShloMosaic.StableHlo

/-- The kernel as printed runs and leaves its arguments. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- And the reference: its run, with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- From memories that agree on the four arguments, all of them reals, both programs end with the same result array:
    the kernel's closed form of its arguments, which is the reference's staged value of them. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Whole.resultOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Whole.result_eq m ρ c), (h c).2⟩)
      (Cert.KernelIdeal.Whole.run_result (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3⟩ := @Cert.RealInputs.real_inputs Cert.Pre_finite_inputs.Gen.facts _ _ _ _ (hpre c)
    obtain ⟨e0, e1, e2, e3⟩ := hagree c
    rw [Cert.ReferenceIdeal.Halves.value_at]
    show Cert.ReferenceIdeal.ReadP.val_main_v86 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3)) = _
    rw [e0, e1, e2, e3]
    exact (Cert.Bridge.result_eq _ _ _ _ h0 h1 h2 h3).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
